-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S64x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S2x1200000 32) (main_arg2 : FVec F S64x64 .f32) (main_arg3 : FVec F S64 .f32) (main_arg4 : FVec F S64 .f32) (main_arg5 : FVec F S64 .f32) (main_arg6 : FVec F S64x64 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S1x64 : Shape := ⟨2, ![1, 64]⟩
abbrev S2x1x64 : Shape := ⟨3, ![2, 1, 64]⟩
abbrev S10000x64 : Shape := ⟨2, ![10000, 64]⟩
abbrev S1x1x64 : Shape := ⟨3, ![1, 1, 64]⟩
abbrev S2x64 : Shape := ⟨2, ![2, 64]⟩

abbrev nBuf : Space → Nat
  | .hbm => 52
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x1200000, .i32⟩
  | .hbm, ⟨9, _⟩ => ⟨S1200000, .i32⟩
  | .hbm, ⟨10, _⟩ => ⟨S1x1200000, .i32⟩
  | .hbm, ⟨11, _⟩ => ⟨S1200000, .i32⟩
  | .hbm, ⟨12, _⟩ => ⟨S_, .i32⟩
  | .hbm, ⟨13, _⟩ => ⟨S1200000, .i32⟩
  | .hbm, ⟨14, _⟩ => ⟨S1200000, .i1⟩
  | .hbm, ⟨15, _⟩ => ⟨S_, .i32⟩
  | .hbm, ⟨16, _⟩ => ⟨S1200000, .i32⟩
  | .hbm, ⟨17, _⟩ => ⟨S1200000, .i32⟩
  | .hbm, ⟨18, _⟩ => ⟨S1200000, .i32⟩
  | .hbm, ⟨19, _⟩ => ⟨S1200000x1, .i32⟩
  | .hbm, ⟨20, _⟩ => ⟨S1200000x64, .f32⟩
  | .hbm, ⟨21, _⟩ => ⟨S_, .f32⟩
  | .hbm, ⟨22, _⟩ => ⟨S100000x64, .f32⟩
  | .hbm, ⟨23, _⟩ => ⟨S1200000x1, .i32⟩
  | .hbm, ⟨24, _⟩ => ⟨S100000x64, .f32⟩
  | .hbm, ⟨25, _⟩ => ⟨S1x64, .f32⟩
  | .hbm, ⟨26, _⟩ => ⟨S1x64, .f32⟩
  | .hbm, ⟨27, _⟩ => ⟨S1x64, .f32⟩
  | .hbm, ⟨28, _⟩ => ⟨S1x64, .f32⟩
  | .hbm, ⟨29, _⟩ => ⟨S100000x64, .bf16⟩
  | .hbm, ⟨30, _⟩ => ⟨S2x1x64, .f32⟩
  | .hbm, ⟨31, _⟩ => ⟨S2x1x64, .f32⟩
  | .hbm, ⟨32, _⟩ => ⟨S2x64, .f32⟩
  | .hbm, ⟨33, _⟩ => ⟨S_, .f32⟩
  | .hbm, ⟨34, _⟩ => ⟨S64, .f32⟩
  | .hbm, ⟨35, _⟩ => ⟨S2x64, .f32⟩
  | .hbm, ⟨36, _⟩ => ⟨S_, .f32⟩
  | .hbm, ⟨37, _⟩ => ⟨S64, .f32⟩
  | .hbm, ⟨38, _⟩ => ⟨S_, .f32⟩
  | .hbm, ⟨39, _⟩ => ⟨S64, .f32⟩
  | .hbm, ⟨40, _⟩ => ⟨S64, .f32⟩
  | .hbm, ⟨41, _⟩ => ⟨S_, .f32⟩
  | .hbm, ⟨42, _⟩ => ⟨S64, .f32⟩
  | .hbm, ⟨43, _⟩ => ⟨S64, .f32⟩
  | .hbm, ⟨44, _⟩ => ⟨S64, .f32⟩
  | .hbm, ⟨45, _⟩ => ⟨S64, .f32⟩
  | .hbm, ⟨46, _⟩ => ⟨S_, .f32⟩
  | .hbm, ⟨47, _⟩ => ⟨S64, .f32⟩
  | .hbm, ⟨48, _⟩ => ⟨S64, .f32⟩
  | .hbm, ⟨49, _⟩ => ⟨S1x64, .f32⟩
  | .hbm, ⟨50, _⟩ => ⟨S1x64, .f32⟩
  | .hbm, ⟨51, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S10000x64, .bf16⟩
  | .local _ .vmem, ⟨7, _⟩ => ⟨S10000x64, .bf16⟩
  | .local _ .vmem, ⟨8, _⟩ => ⟨S1x1x64, .f32⟩
  | .local _ .vmem, ⟨9, _⟩ => ⟨S1x1x64, .f32⟩
  | .local _ .vmem, ⟨10, _⟩ => ⟨S1x1x64, .f32⟩
  | .local _ .vmem, ⟨11, _⟩ => ⟨S1x1x64, .f32⟩
  | .local _ .vmem, ⟨12, _⟩ => ⟨S1x64, .f32⟩
  | .local _ .vmem, ⟨13, _⟩ => ⟨S1x64, .f32⟩
  | .local _ .vmem, ⟨14, _⟩ => ⟨S10000x64, .bf16⟩
  | .local _ .vmem, ⟨15, _⟩ => ⟨S10000x64, .bf16⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S64x64, .f32⟩
  | .local _ .vmem, ⟨21, _⟩ => ⟨S1x64, .f32⟩
  | .local _ .vmem, ⟨22, _⟩ => ⟨S10000x64, .f32⟩
  | .local _ .vmem, ⟨23, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18_0 : Ref sig .tc := ⟨.hbm, 29, rfl⟩
abbrev main_v18_1 : Ref sig .tc := ⟨.hbm, 30, rfl⟩
abbrev main_v18_2 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨2, ![2, 5], ![false, false]⟩

def k0_cond2 (i : grid0.Coords) : BitVec 1 :=
  let arg1 : BitVec 32 := BitVec.ofNat 32 (i 1).val
  let c4_i32 : BitVec 32 := 4#32
  let v32 : BitVec 1 := Scalar.cmpi .eq arg1 c4_i32
  let v33 : BitVec 32 := Scalar.extui v32
  let c0_i32_20 : BitVec 32 := 0#32
  let v34 : BitVec 1 := Scalar.cmpi .ne v33 c0_i32_20
  v34

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S10000x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  broadcasts_S1x64_S10000x64 : S1x64.Broadcasts S10000x64
  packedbf16_S10000x64_S10000x64_0_0 : (Rect.unit (s := S10000x64) ![0, 0] S10000x64.size inb_S10000x64_S10000x64_0_0).PackedRows (EltTy.packing .bf16)
  reduces_S10000x64_S64 : S10000x64.Reduces [0] S64
  shapeCasts_S1x64_S1x1x64 : S1x64.ShapeCasts S1x1x64
  inb_S1x1x64_S1x1x64_0_0_0 : ∀ a, (![0, 0, 0] : Fin 3 → Nat) a + S1x1x64.size a ≤ S1x1x64.size a
  h_S1x1x64 : 0 < S1x1x64.numel
  shapeCasts_S2x1x64_S2x64 : S2x1x64.ShapeCasts S2x64
  reducesTo_S2x64_S64_d0 : S2x64.ReducesTo [0] S64
  h_S_ : 0 < S_.numel
  bcast_S_S64 : S_.BroadcastsInDim S64 (![] : Fin 0 → Fin S64.rank)
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S100000x64.size a
  hwx0_4 : ∀ i : grid0.Coords, EltTy.bits .bf16 = 32 ∨ (Rect.block (s := S100000x64) S10000x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x64.size a ≤ S2x1x64.size a
  hwx0_5 : ∀ i : grid0.Coords, EltTy.bits .f32 = 32 ∨ (Rect.block (s := S2x1x64) S1x1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x64.size a ≤ S2x1x64.size a
  hwx0_6 : ∀ i : grid0.Coords, EltTy.bits .f32 = 32 ∨ (Rect.block (s := S2x1x64) S1x1x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .bf16 = 32 ∨ (Rect.block (s := S100000x64) S10000x64.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x64.size a ≤ S100000x64.size a
  hwx1_7 : ∀ i : grid1.Coords, EltTy.bits .f32 = 32 ∨ (Rect.block (s := S100000x64) S10000x64.size (cc1_transform_7 i) (hinb1_7 i)).WholeWords (EltTy.packing .f32)

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18_0) S10000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v18_1) S1x1x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v18_2) S1x1x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v18_0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v33) S10000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S1x64 : Shape := ⟨2, ![1, 64]⟩

abbrev nBuf : Space → Nat
  | .hbm => 84
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x1200000, .i32⟩
  | .hbm, ⟨9, _⟩ => ⟨S1200000, .i32⟩
  | .hbm, ⟨10, _⟩ => ⟨S1x1200000, .i32⟩
  | .hbm, ⟨11, _⟩ => ⟨S1200000, .i32⟩
  | .hbm, ⟨12, _⟩ => ⟨S_, .i32⟩
  | .hbm, ⟨13, _⟩ => ⟨S1200000, .i32⟩
  | .hbm, ⟨14, _⟩ => ⟨S1200000, .i1⟩
  | .hbm, ⟨15, _⟩ => ⟨S_, .i32⟩
  | .hbm, ⟨16, _⟩ => ⟨S1200000, .i32⟩
  | .hbm, ⟨17, _⟩ => ⟨S1200000, .i32⟩
  | .hbm, ⟨18, _⟩ => ⟨S1200000, .i32⟩
  | .hbm, ⟨19, _⟩ => ⟨S1200000x1, .i32⟩
  | .hbm, ⟨20, _⟩ => ⟨S1200000x64, .f32⟩
  | .hbm, ⟨21, _⟩ => ⟨S_, .f32⟩
  | .hbm, ⟨22, _⟩ => ⟨S100000x64, .f32⟩
  | .hbm, ⟨23, _⟩ => ⟨S1200000x1, .i32⟩
  | .hbm, ⟨24, _⟩ => ⟨S100000x64, .f32⟩
  | .hbm, ⟨25, _⟩ => ⟨S100000x64, .f32⟩
  | .hbm, ⟨26, _⟩ => ⟨S100000x64, .f32⟩
  | .hbm, ⟨27, _⟩ => ⟨S1x64, .f32⟩
  | .hbm, ⟨28, _⟩ => ⟨S100000x64, .f32⟩
  | .hbm, ⟨29, _⟩ => ⟨S100000x64, .f32⟩
  | .hbm, ⟨30, _⟩ => ⟨S_, .f32⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S_, .i32⟩
  | .hbm, ⟨36, _⟩ => ⟨S_, .f32⟩
  | .hbm, ⟨37, _⟩ => ⟨S64, .f32⟩
  | .hbm, ⟨38, _⟩ => ⟨S1x64, .f32⟩
  | .hbm, ⟨39, _⟩ => ⟨S_, .f32⟩
  | .hbm, ⟨40, _⟩ => ⟨S1x64, .f32⟩
  | .hbm, ⟨41, _⟩ => ⟨S1x64, .f32⟩
  | .hbm, ⟨42, _⟩ => ⟨S100000x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S64, .f32⟩
  | .hbm, ⟨50, _⟩ => ⟨S64, .f32⟩
  | .hbm, ⟨51, _⟩ => ⟨S64, .f32⟩
  | .hbm, ⟨52, _⟩ => ⟨S_, .f32⟩
  | .hbm, ⟨53, _⟩ => ⟨S_, .i1⟩
  | .hbm, ⟨54, _⟩ => ⟨S_, .f32⟩
  | .hbm, ⟨55, _⟩ => ⟨S_, .f32⟩
  | .hbm, ⟨56, _⟩ => ⟨S64, .f32⟩
  | .hbm, ⟨57, _⟩ => ⟨S64, .f32⟩
  | .hbm, ⟨58, _⟩ => ⟨S1x64, .f32⟩
  | .hbm, ⟨59, _⟩ => ⟨S100000x64, .f32⟩
  | .hbm, ⟨60, _⟩ => ⟨S100000x64, .f32⟩
  | .hbm, ⟨61, _⟩ => ⟨S_, .f32⟩
  | .hbm, ⟨62, _⟩ => ⟨S64, .f32⟩
  | .hbm, ⟨63, _⟩ => ⟨S64, .f32⟩
  | .hbm, ⟨64, _⟩ => ⟨S64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x64, .f32⟩
  | .hbm, ⟨74, _⟩ => ⟨S_, .f32⟩
  | .hbm, ⟨75, _⟩ => ⟨S100000x64, .f32⟩
  | .hbm, ⟨76, _⟩ => ⟨S100000x64, .f32⟩
  | .hbm, ⟨77, _⟩ => ⟨S100000x64, .f32⟩
  | .hbm, ⟨78, _⟩ => ⟨S1x64, .f32⟩
  | .hbm, ⟨79, _⟩ => ⟨S100000x64, .f32⟩
  | .hbm, ⟨80, _⟩ => ⟨S100000x64, .f32⟩
  | .hbm, ⟨81, _⟩ => ⟨S_, .f32⟩
  | .hbm, ⟨82, _⟩ => ⟨S100000x64, .f32⟩
  | .hbm, ⟨83, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_call0_cst : Ref sig .tc := ⟨.hbm, 36, rfl⟩
abbrev main_call0_v0 : Ref sig .tc := ⟨.hbm, 37, rfl⟩
abbrev main_call0_v1 : Ref sig .tc := ⟨.hbm, 38, rfl⟩
abbrev main_call0_cst_0 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_cst_1 : Ref sig .tc := ⟨.hbm, 46, rfl⟩
abbrev main_call0_v8 : Ref sig .tc := ⟨.hbm, 47, rfl⟩
abbrev main_call0_cst_2 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_cst_3 : Ref sig .tc := ⟨.hbm, 52, rfl⟩
abbrev main_call0_v12 : Ref sig .tc := ⟨.hbm, 53, rfl⟩
abbrev main_call0_cst_4 : Ref sig .tc := ⟨.hbm, 54, rfl⟩
abbrev main_call0_call0_v0 : Ref sig .tc := ⟨.hbm, 55, rfl⟩
abbrev main_call0_call0_v1 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_cst_4 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_call1_cst : Ref sig .tc := ⟨.hbm, 74, rfl⟩
abbrev main_call1_v0 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_call2_cst : Ref sig .tc := ⟨.hbm, 81, rfl⟩
abbrev main_call2_v0 : Ref sig .tc := ⟨.hbm, 82, rfl⟩
abbrev main_v43 : Ref sig .tc := ⟨.hbm, 83, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KRegion0Runs.lean ====
/-
  Region 0 (the first pallas_call), what its three cases share.  The grid is 2 x 5; point t has inner
  coordinate t % 5.  The body resets the two running-sum rows when the inner coordinate is 0, always stores the
  block of hidden rows and adds the block's column sums (and sums of squares) to the two rows, and copies the two
  rows out when the inner coordinate is 4.  Here: the two branch conditions in closed form, where the two small
  outputs are idle, the memrefs the body is called with, and the class invariant spelled out buffer by buffer.
-/
import proofs.«120235_j55783035240590_2_alg».proof.Proof.Gen.Kernel.Launch
import proofs.«120235_j55783035240590_2_alg».proof.Proof.Gen.Kernel.Skeleton
import proofs.«120235_j55783035240590_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's two branch conditions -/

/-- The reset branch is taken: the inner grid coordinate is 0. -/
abbrev cond0_0 (i : grid0.Coords) : Prop := (Scalar.cmpi .ne (Scalar.extui (Scalar.cmpi .eq (BitVec.ofNat 32 (i 1).val) 0#32)) 0#32) = 1#1
/-- It holds at the points ≡ 0 (mod 5): decided over the ten points. -/
theorem hcond0_0 : ∀ t : Fin cfg0.N, cond0_0 (grid0.coords t) ↔ t.val % 5 = 0 :=
  (by decide +kernel : ∀ t : Fin grid0.N, cond0_0 (grid0.coords t) ↔ t.val % 5 = 0)

/-- The copy-out branch is taken: the inner grid coordinate is 4. -/
abbrev cond0_1 (i : grid0.Coords) : Prop := k0_cond2 i = 1#1
/-- It holds at the points ≡ 4 (mod 5): decided over the ten points. -/
theorem hcond0_1 : ∀ t : Fin cfg0.N, cond0_1 (grid0.coords t) ↔ t.val % 5 = 4 :=
  (by decide +kernel : ∀ t : Fin grid0.N, cond0_1 (grid0.coords t) ↔ t.val % 5 = 4)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from the copy-out points the two small outputs are idle and not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
/-- At the copy-out points they are live. -/
theorem liveAt0_5 : ∀ t : Fin cfg0.N, cond0_1 (grid0.coords t) → cfg0.idle 5 (grid0.coords t) = false := by decide +kernel
theorem liveAt0_6 : ∀ t : Fin cfg0.N, cond0_1 (grid0.coords t) → cfg0.idle 6 (grid0.coords t) = false := by decide +kernel

/-! ## The memrefs the body is called with -/

/-- One staging buffer of each output window, through which its contents are stated (the choice does not matter). -/
abbrev VO0_4 : View sig .tc .vmem S10000x64 .bf16 := (Memref.whole cc0_stg4_0 : Memref sig .tc .vmem S10000x64 .bf16).view
abbrev VO0_5 : View sig .tc .vmem S1x1x64 .f32 := (Memref.whole cc0_stg5_0 : Memref sig .tc .vmem S1x1x64 .f32).view
abbrev VO0_6 : View sig .tc .vmem S1x1x64 .f32 := (Memref.whole cc0_stg6_0 : Memref sig .tc .vmem S1x1x64 .f32).view
/-- Each window's current staging memref at point `t`, and its wholeness. -/
abbrev ms0_0 (t : Fin cfg0.N) : Memref sig .tc .vmem S10000x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S10000x64 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x64 .f32 := win0_6.stage (cfg0.slots t 6)
abbrev hs0_6 (t : Fin cfg0.N) : (ms0_6 t).IsWhole := hstage0_6 ((cfg0.slots t 6).cast nbuf0_6)
/-- The two running-sum rows: whole scoped buffers of the kernel's own, carried from point to point. -/
abbrev scM0_0 : Memref sig .tc .vmem S1x64 .f32 := Memref.whole cc0_scratch0
abbrev scM0_1 : Memref sig .tc .vmem S1x64 .f32 := Memref.whole cc0_scratch1
abbrev VS0_0 : View sig .tc .vmem S1x64 .f32 := scM0_0.view
abbrev VS0_1 : View sig .tc .vmem S1x64 .f32 := scM0_1.view

/-- The ten staging buffers of the second pallas_call, each whole at some contents: this region never touches them. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- The class invariant with the two running-sum rows as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ others0 (F := F) c) ∗ (∃ r, prngReg c r)) := by
  unfold Pipeline.ΦA others0; rw [scopedRest0_eq]; simp only [scM0_0, scM0_1, owns_whole]; try rfl

end Cert.Kernel.Hand

end
-- ==== Proof.KRegion0RunA.lean ====
/-
  Region 0, the reset case (inner coordinate 0): the two rows are zeroed first, so they may hold anything on entry; the two small outputs are not touched.
-/
import proofs.«120235_j55783035240590_2_alg».proof.Proof.KRegion0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body in this case, on whole memrefs: the four inputs at their contents `x0 … x3`, the block output at anything, the two small outputs at contents handed back untouched, the two running-sum rows at anything.  It runs to the continuation holding the inputs as they were and every buffer it
    stored into with its stores written, as lists of pieces (last store first) that the run itself finds. -/
noncomputable def kernelRun0_A (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S10000x64 .f32) (x1 : Vec F S10000x64 .f32) (x2 : Vec F S64x64 .f32) (x3 : Vec F S1x64 .f32) :
    Σ' (L4 : List (View.Piece (Elt F) S10000x64 .bf16)) (LS0 : List (View.Piece (Elt F) S1x64 .f32)), { LS1 : List (View.Piece (Elt F) S1x64 .f32) //
      ∀ (xi5 : Vec F S1x1x64 .f32) (xi6 : Vec F S1x1x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__stage1_kernel i arg2 harg2 arg3 harg3 arg4 harg4 arg5 harg5 arg6 harg6 arg7 harg7 arg8 harg8 arg9 harg9 arg10 harg10) K } := by
  refine ⟨?_, ?_, ?_, fun xi5 xi6 E K => ?run⟩
  case run =>
    simp only [cc0__stage1_kernel_eq_skeleton]; unfold cc0__stage1_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.Kernel.Hand

end
-- ==== Proof.KRegion0RunB.lean ====
/-
  Region 0, the middle case (inner coordinate 1, 2 or 3): the two rows hold what the point before left; the two small outputs are not touched.
-/
import proofs.«120235_j55783035240590_2_alg».proof.Proof.KRegion0RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body in this case, on whole memrefs: the four inputs at their contents `x0 … x3`, the block output at anything, the two small outputs at contents handed back untouched, the two running-sum rows at `xs0`, `xs1`.  It runs to the continuation holding the inputs as they were and every buffer it
    stored into with its stores written, as lists of pieces (last store first) that the run itself finds. -/
noncomputable def kernelRun0_B (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S10000x64 .f32) (x1 : Vec F S10000x64 .f32) (x2 : Vec F S64x64 .f32) (x3 : Vec F S1x64 .f32) (xs0 : Vec F S1x64 .f32) (xs1 : Vec F S1x64 .f32) :
    Σ' (L4 : List (View.Piece (Elt F) S10000x64 .bf16)) (LS0 : List (View.Piece (Elt F) S1x64 .f32)), { LS1 : List (View.Piece (Elt F) S1x64 .f32) //
      ∀ (xi5 : Vec F S1x1x64 .f32) (xi6 : Vec F S1x1x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__stage1_kernel i arg2 harg2 arg3 harg3 arg4 harg4 arg5 harg5 arg6 harg6 arg7 harg7 arg8 harg8 arg9 harg9 arg10 harg10) K } := by
  refine ⟨?_, ?_, ?_, fun xi5 xi6 E K => ?run⟩
  case run =>
    simp only [cc0__stage1_kernel_eq_skeleton]; unfold cc0__stage1_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hf6; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.Kernel.Hand

end
-- ==== Proof.KRegion0RunC.lean ====
/-
  Region 0, the copy-out case (inner coordinate 4): the two rows hold what the point before left, and after the update they are copied into the two small outputs.
-/
import proofs.«120235_j55783035240590_2_alg».proof.Proof.KRegion0RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body in this case, on whole memrefs: the four inputs at their contents `x0 … x3`, the block output at anything, the two small outputs at anything, the two running-sum rows at `xs0`, `xs1`.  It runs to the continuation holding the inputs as they were and every buffer it
    stored into with its stores written, as lists of pieces (last store first) that the run itself finds. -/
noncomputable def kernelRun0_C (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S10000x64 .f32) (x1 : Vec F S10000x64 .f32) (x2 : Vec F S64x64 .f32) (x3 : Vec F S1x64 .f32) (xs0 : Vec F S1x64 .f32) (xs1 : Vec F S1x64 .f32) :
    Σ' (L4 : List (View.Piece (Elt F) S10000x64 .bf16)) (L5 : List (View.Piece (Elt F) S1x1x64 .f32)) (L6 : List (View.Piece (Elt F) S1x1x64 .f32)) (LS0 : List (View.Piece (Elt F) S1x64 .f32)), { LS1 : List (View.Piece (Elt F) S1x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__stage1_kernel i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__stage1_kernel_eq_skeleton]; unfold cc0__stage1_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [HS0]; · iexists _; iexact HS0
    iexists _; iexact HS1

end Cert.Kernel.Hand

end
-- ==== Proof.KRegion0.lean ====
/-
  Region 0 (the first pallas_call): a 2 x 5 grid, one block of 10000 rows per point.

  The three cases of the body (reset / middle / copy-out) are run separately; here their stores are read back as
  contents, threaded through the ten points (`outsAt0`: what the block output, the two small outputs and the two
  running-sum rows hold after each point, the rows of a point taken over from the point before unless the point
  resets them), and assembled into the pipeline's proof data: the arrays as the region finds them, the inputs'
  buffers at their blocks, the outputs' at `outsAt0`, the invariant "the two rows hold what the point before left".
-/
import proofs.«120235_j55783035240590_2_alg».proof.Proof.KRegion0RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves in each buffer -/

/-- Case A's stores into the block output cover it. -/
theorem cover0_A_4 (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S10000x64 .f32) (x1 : Vec F S10000x64 .f32) (x2 : Vec F S64x64 .f32) (x3 : Vec F S1x64 .f32) (y : S10000x64.Idx) :
    ∃ pc ∈ (kernelRun0_A c i arg2 harg2 arg3 harg3 arg4 harg4 arg5 harg5 arg6 harg6 arg7 harg7 arg8 harg8 arg9 harg9 arg10 harg10 hc0 hc1 x0 x1 x2 x3).1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3).1 S10000x64.size (by sl_kernel_rfl) y

/-- What case A leaves in the block output: its stores read back. -/
def out0_A_4 (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S10000x64 .f32) (x1 : Vec F S10000x64 .f32) (x2 : Vec F S64x64 .f32) (x3 : Vec F S1x64 .f32) : Vec F S10000x64 .bf16 :=
  VO0_4.read (Elt F) (VO0_4.writes (Elt F) VO0_4.junk (kernelRun0_A c i arg2 harg2 arg3 harg3 arg4 harg4 arg5 harg5 arg6 harg6 arg7 harg7 arg8 harg8 arg9 harg9 arg10 harg10 hc0 hc1 x0 x1 x2 x3).1)

/-- Case A's stores into the column-sum row cover it. -/
theorem scover0_A_0 (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S10000x64 .f32) (x1 : Vec F S10000x64 .f32) (x2 : Vec F S64x64 .f32) (x3 : Vec F S1x64 .f32) (y : S1x64.Idx) :
    ∃ pc ∈ (kernelRun0_A c i arg2 harg2 arg3 harg3 arg4 harg4 arg5 harg5 arg6 harg6 arg7 harg7 arg8 harg8 arg9 harg9 arg10 harg10 hc0 hc1 x0 x1 x2 x3).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3).2.1 S1x64.size (by sl_kernel_rfl) y

/-- What case A leaves in the column-sum row: its stores read back. -/
def sout0_A_0 (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S10000x64 .f32) (x1 : Vec F S10000x64 .f32) (x2 : Vec F S64x64 .f32) (x3 : Vec F S1x64 .f32) : Vec F S1x64 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3).2.1)

/-- Case A's stores into the sum-of-squares row cover it. -/
theorem scover0_A_1 (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S10000x64 .f32) (x1 : Vec F S10000x64 .f32) (x2 : Vec F S64x64 .f32) (x3 : Vec F S1x64 .f32) (y : S1x64.Idx) :
    ∃ pc ∈ (kernelRun0_A c i arg2 harg2 arg3 harg3 arg4 harg4 arg5 harg5 arg6 harg6 arg7 harg7 arg8 harg8 arg9 harg9 arg10 harg10 hc0 hc1 x0 x1 x2 x3).2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3).2.2.1 S1x64.size (by sl_kernel_rfl) y

/-- What case A leaves in the sum-of-squares row: its stores read back. -/
def sout0_A_1 (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S10000x64 .f32) (x1 : Vec F S10000x64 .f32) (x2 : Vec F S64x64 .f32) (x3 : Vec F S1x64 .f32) : Vec F S1x64 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 hc0 hc1 x0 x1 x2 x3).2.2.1)

/-- Case B's stores into the block output cover it. -/
theorem cover0_B_4 (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S10000x64 .f32) (x1 : Vec F S10000x64 .f32) (x2 : Vec F S64x64 .f32) (x3 : Vec F S1x64 .f32) (xs0 : Vec F S1x64 .f32) (xs1 : Vec F S1x64 .f32) (y : S10000x64.Idx) :
    ∃ pc ∈ (kernelRun0_B c i arg2 harg2 arg3 harg3 arg4 harg4 arg5 harg5 arg6 harg6 arg7 harg7 arg8 harg8 arg9 harg9 arg10 harg10 hc0 hc1 x0 x1 x2 x3 xs0 xs1).1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 xs0 xs1).1 S10000x64.size (by sl_kernel_rfl) y

/-- What case B leaves in the block output: its stores read back. -/
def out0_B_4 (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S10000x64 .f32) (x1 : Vec F S10000x64 .f32) (x2 : Vec F S64x64 .f32) (x3 : Vec F S1x64 .f32) (xs0 : Vec F S1x64 .f32) (xs1 : Vec F S1x64 .f32) : Vec F S10000x64 .bf16 :=
  VO0_4.read (Elt F) (VO0_4.writes (Elt F) VO0_4.junk (kernelRun0_B c i arg2 harg2 arg3 harg3 arg4 harg4 arg5 harg5 arg6 harg6 arg7 harg7 arg8 harg8 arg9 harg9 arg10 harg10 hc0 hc1 x0 x1 x2 x3 xs0 xs1).1)

/-- Case B's stores into the column-sum row cover it. -/
theorem scover0_B_0 (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S10000x64 .f32) (x1 : Vec F S10000x64 .f32) (x2 : Vec F S64x64 .f32) (x3 : Vec F S1x64 .f32) (xs0 : Vec F S1x64 .f32) (xs1 : Vec F S1x64 .f32) (y : S1x64.Idx) :
    ∃ pc ∈ (kernelRun0_B c i arg2 harg2 arg3 harg3 arg4 harg4 arg5 harg5 arg6 harg6 arg7 harg7 arg8 harg8 arg9 harg9 arg10 harg10 hc0 hc1 x0 x1 x2 x3 xs0 xs1).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 xs0 xs1).2.1 S1x64.size (by sl_kernel_rfl) y

/-- What case B leaves in the column-sum row: its stores read back. -/
def sout0_B_0 (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S10000x64 .f32) (x1 : Vec F S10000x64 .f32) (x2 : Vec F S64x64 .f32) (x3 : Vec F S1x64 .f32) (xs0 : Vec F S1x64 .f32) (xs1 : Vec F S1x64 .f32) : Vec F S1x64 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 x3 xs0 xs1).2.1)

/-- Case B's stores into the sum-of-squares row cover it. -/
theorem scover0_B_1 (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S10000x64 .f32) (x1 : Vec F S10000x64 .f32) (x2 : Vec F S64x64 .f32) (x3 : Vec F S1x64 .f32) (xs0 : Vec F S1x64 .f32) (xs1 : Vec F S1x64 .f32) (y : S1x64.Idx) :
    ∃ pc ∈ (kernelRun0_B c i arg2 harg2 arg3 harg3 arg4 harg4 arg5 harg5 arg6 harg6 arg7 harg7 arg8 harg8 arg9 harg9 arg10 harg10 hc0 hc1 x0 x1 x2 x3 xs0 xs1).2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 xs0 xs1).2.2.1 S1x64.size (by sl_kernel_rfl) y

/-- What case B leaves in the sum-of-squares row: its stores read back. -/
def sout0_B_1 (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S10000x64 .f32) (x1 : Vec F S10000x64 .f32) (x2 : Vec F S64x64 .f32) (x3 : Vec F S1x64 .f32) (xs0 : Vec F S1x64 .f32) (xs1 : Vec F S1x64 .f32) : Vec F S1x64 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 hc0 hc1 x0 x1 x2 x3 xs0 xs1).2.2.1)

/-- Case C's stores into the block output cover it. -/
theorem cover0_C_4 (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S10000x64 .f32) (x1 : Vec F S10000x64 .f32) (x2 : Vec F S64x64 .f32) (x3 : Vec F S1x64 .f32) (xs0 : Vec F S1x64 .f32) (xs1 : Vec F S1x64 .f32) (y : S10000x64.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1).1 S10000x64.size (by sl_kernel_rfl) y

/-- What case C leaves in the block output: its stores read back. -/
def out0_C_4 (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S10000x64 .f32) (x1 : Vec F S10000x64 .f32) (x2 : Vec F S64x64 .f32) (x3 : Vec F S1x64 .f32) (xs0 : Vec F S1x64 .f32) (xs1 : Vec F S1x64 .f32) : Vec F S10000x64 .bf16 :=
  VO0_4.read (Elt F) (VO0_4.writes (Elt F) VO0_4.junk (kernelRun0_C c i arg2 harg2 arg3 harg3 arg4 harg4 arg5 harg5 arg6 harg6 arg7 harg7 arg8 harg8 arg9 harg9 arg10 harg10 hc0 hc1 x0 x1 x2 x3 xs0 xs1).1)

/-- Case C's stores into the column-sum output cover it. -/
theorem cover0_C_5 (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S10000x64 .f32) (x1 : Vec F S10000x64 .f32) (x2 : Vec F S64x64 .f32) (x3 : Vec F S1x64 .f32) (xs0 : Vec F S1x64 .f32) (xs1 : Vec F S1x64 .f32) (y : S1x1x64.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1).2.1 S1x1x64.size (by sl_kernel_rfl) y

/-- What case C leaves in the column-sum output: its stores read back. -/
def out0_C_5 (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S10000x64 .f32) (x1 : Vec F S10000x64 .f32) (x2 : Vec F S64x64 .f32) (x3 : Vec F S1x64 .f32) (xs0 : Vec F S1x64 .f32) (xs1 : Vec F S1x64 .f32) : Vec F S1x1x64 .f32 :=
  VO0_5.read (Elt F) (VO0_5.writes (Elt F) VO0_5.junk (kernelRun0_C c i arg2 harg2 arg3 harg3 arg4 harg4 arg5 harg5 arg6 harg6 arg7 harg7 arg8 harg8 arg9 harg9 arg10 harg10 hc0 hc1 x0 x1 x2 x3 xs0 xs1).2.1)

/-- Case C's stores into the sum-of-squares output cover it. -/
theorem cover0_C_6 (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S10000x64 .f32) (x1 : Vec F S10000x64 .f32) (x2 : Vec F S64x64 .f32) (x3 : Vec F S1x64 .f32) (xs0 : Vec F S1x64 .f32) (xs1 : Vec F S1x64 .f32) (y : S1x1x64.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1).2.2.1 S1x1x64.size (by sl_kernel_rfl) y

/-- What case C leaves in the sum-of-squares output: its stores read back. -/
def out0_C_6 (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S10000x64 .f32) (x1 : Vec F S10000x64 .f32) (x2 : Vec F S64x64 .f32) (x3 : Vec F S1x64 .f32) (xs0 : Vec F S1x64 .f32) (xs1 : Vec F S1x64 .f32) : Vec F S1x1x64 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 hc0 hc1 x0 x1 x2 x3 xs0 xs1).2.2.1)

/-- Case C's stores into the column-sum row cover it. -/
theorem scover0_C_0 (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S10000x64 .f32) (x1 : Vec F S10000x64 .f32) (x2 : Vec F S64x64 .f32) (x3 : Vec F S1x64 .f32) (xs0 : Vec F S1x64 .f32) (xs1 : Vec F S1x64 .f32) (y : S1x64.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1).2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1).2.2.2.1 S1x64.size (by sl_kernel_rfl) y

/-- What case C leaves in the column-sum row: its stores read back. -/
def sout0_C_0 (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S10000x64 .f32) (x1 : Vec F S10000x64 .f32) (x2 : Vec F S64x64 .f32) (x3 : Vec F S1x64 .f32) (xs0 : Vec F S1x64 .f32) (xs1 : Vec F S1x64 .f32) : Vec F S1x64 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 x3 xs0 xs1).2.2.2.1)

/-- Case C's stores into the sum-of-squares row cover it. -/
theorem scover0_C_1 (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S10000x64 .f32) (x1 : Vec F S10000x64 .f32) (x2 : Vec F S64x64 .f32) (x3 : Vec F S1x64 .f32) (xs0 : Vec F S1x64 .f32) (xs1 : Vec F S1x64 .f32) (y : S1x64.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1).2.2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1).2.2.2.2.1 S1x64.size (by sl_kernel_rfl) y

/-- What case C leaves in the sum-of-squares row: its stores read back. -/
def sout0_C_1 (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S10000x64 .f32) (x1 : Vec F S10000x64 .f32) (x2 : Vec F S64x64 .f32) (x3 : Vec F S1x64 .f32) (xs0 : Vec F S1x64 .f32) (xs1 : Vec F S1x64 .f32) : Vec F S1x64 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 hc0 hc1 x0 x1 x2 x3 xs0 xs1).2.2.2.2.1)

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the buffers hold after each point -/

/-- After a reset point: the block output, placeholders for the two idle small outputs (nothing consults them:
    at these points they are neither written back nor read at the next point), the two rows. -/
def ptA (c : Dev nD) (t : Fin cfg0.N) (h0 : t.val % 5 = 0) (h1 : ¬t.val % 5 = 4) : Vec F S10000x64 .bf16 × Vec F S1x1x64 .f32 × Vec F S1x1x64 .f32 × Vec F S1x64 .f32 × Vec F S1x64 .f32 :=
  (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t),
   VO0_5.read (Elt F) VO0_5.junk, VO0_6.read (Elt F) VO0_6.junk,
   sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t),
   sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t))

/-- After a middle point, the rows having held `xs0`, `xs1` before it. -/
def ptB (c : Dev nD) (t : Fin cfg0.N) (h0 : ¬t.val % 5 = 0) (h1 : ¬t.val % 5 = 4) (xs0 xs1 : Vec F S1x64 .f32) : Vec F S10000x64 .bf16 × Vec F S1x1x64 .f32 × Vec F S1x1x64 .f32 × Vec F S1x64 .f32 × Vec F S1x64 .f32 :=
  (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) xs0 xs1,
   VO0_5.read (Elt F) VO0_5.junk, VO0_6.read (Elt F) VO0_6.junk,
   sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) xs0 xs1,
   sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) xs0 xs1)

/-- After a copy-out point, the rows having held `xs0`, `xs1` before it. -/
def ptC (c : Dev nD) (t : Fin cfg0.N) (h0 : ¬t.val % 5 = 0) (h1 : t.val % 5 = 4) (xs0 xs1 : Vec F S1x64 .f32) : Vec F S10000x64 .bf16 × Vec F S1x1x64 .f32 × Vec F S1x1x64 .f32 × Vec F S1x64 .f32 × Vec F S1x64 .f32 :=
  (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) xs0 xs1,
   out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) xs0 xs1,
   out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) xs0 xs1,
   sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) xs0 xs1,
   sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) xs0 xs1)

/-- THE ACCUMULATION.  What the block output's buffer, the two small outputs' buffers and the two running-sum rows
    hold after the body at position `n`: the case the point is in, run on the point's input blocks, the rows at what
    position `n - 1` left (a reset point ignores them). -/
def outsAt0 (c : Dev nD) : (n : ℕ) → n < cfg0.N → Vec F S10000x64 .bf16 × Vec F S1x1x64 .f32 × Vec F S1x1x64 .f32 × Vec F S1x64 .f32 × Vec F S1x64 .f32
  | 0, hn => ptA V c ⟨0, hn⟩ (Nat.zero_mod _) (show ¬(0 : ℕ) % 5 = 4 by decide)
  | n + 1, hn =>
    if h0 : (n + 1) % 5 = 0 then ptA V c ⟨n + 1, hn⟩ h0 (show ¬(n + 1) % 5 = 4 by omega)
    else if h1 : (n + 1) % 5 = 4 then
      ptC V c ⟨n + 1, hn⟩ h0 h1 (outsAt0 c n (Nat.lt_of_succ_lt hn)).2.2.2.1 (outsAt0 c n (Nat.lt_of_succ_lt hn)).2.2.2.2
    else
      ptB V c ⟨n + 1, hn⟩ h0 h1 (outsAt0 c n (Nat.lt_of_succ_lt hn)).2.2.2.1 (outsAt0 c n (Nat.lt_of_succ_lt hn)).2.2.2.2

theorem outsAt0_A (c : Dev nD) (t : Fin cfg0.N) (h0 : t.val % 5 = 0) (h1 : ¬t.val % 5 = 4) :
    outsAt0 V c t.val t.isLt = ptA V c t h0 h1 := by
  obtain ⟨n, hn⟩ := t
  cases n with
  | zero => exact rfl
  | succ n => exact (dif_pos h0).trans rfl

theorem outsAt0_B (c : Dev nD) (t : Fin cfg0.N) (h0 : ¬t.val % 5 = 0) (h1 : ¬t.val % 5 = 4) :
    outsAt0 V c t.val t.isLt = ptB V c t h0 h1
      (outsAt0 V c (t.val - 1) (Nat.lt_of_le_of_lt (Nat.sub_le _ _) t.isLt)).2.2.2.1
      (outsAt0 V c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 5 = 0) (h1 : t.val % 5 = 4) :
    outsAt0 V c t.val t.isLt = ptC V c t h0 h1
      (outsAt0 V c (t.val - 1) (Nat.lt_of_le_of_lt (Nat.sub_le _ _) t.isLt)).2.2.2.1
      (outsAt0 V c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans ((dif_pos h1).trans rfl)

/-! ## The invariant -/

/-- Before position `n`: before the first point the class invariant (every scoped buffer at anything); afterwards
    the two rows at what the point before left, the other pallas_call's staging buffers at anything, the generator
    register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.1) ∗ owns (c : Thread nD τ) scM0_1 fullShare ((outsAt0 V c n hn).2.2.2.2) ∗ others0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.2.1) ∗ owns (c : Thread nD τ) scM0_1 fullShare ((outsAt0 V c n hn).2.2.2.2) ∗ others0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.2.1) ∗ owns (c : Thread nD τ) scM0_1 fullShare ((outsAt0 V c (n - 1) (by omega)).2.2.2.2) ∗ others0 (F := F) c) ∗ (∃ r, prngReg c r)) := by
  cases n with
  | zero => exact absurd rfl hz
  | succ n => rfl

/-! ## The pipeline's proof data -/

/-- The arrays as the region finds them; after the body at point `t` each input's buffer at its block and the
    outputs' at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
    | ⟨6, _⟩ => (outsAt0 V c t.val t.isLt).2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := by
  dsimp only [dat0]
theorem owed_eq0 (c : Dev nD) (t : Fin (cfg0.N + 1)) : (dat0 V c).owed t = 0 := by
  dsimp only [dat0]
theorem recorded_eq0 (c : Dev nD) (t : Fin (cfg0.N + 1)) : (dat0 V c).recorded t = Set.univ := rfl

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]
theorem after0_6 (c : Dev nD) (t : Fin cfg0.N) : (dat0 V c).after 6 t = (outsAt0 V c t.val t.isLt).2.2.1 := by dsimp only [dat0]

/-- Input 0's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
/-- Input 1's current staging buffer holds its block at every point, fetched there or not. -/
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
/-- Input 2's current staging buffer holds its block at every point, fetched there or not. -/
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
/-- Input 3's current staging buffer holds its block at every point, fetched there or not. -/
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

/-! ## The body obligation, at a generic point -/

def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 8000000 in
/-- The body at any point.  The inputs' memrefs hold their blocks; the closed forms of the two conditions say which
    case the point is in; the invariant hands the body the two rows at what the point before left (at anything at
    the first point) and takes them back at this point's contents; the two small outputs are handed back untouched
    unless the point copies the rows out. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 10 := lt_of_lt_of_eq t.isLt (show cfg0.N = 10 from N_0)
  by_cases h0 : t.val % 5 = 0
  · have h1 : ¬t.val % 5 = 4 := by omega
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [show (dat0 V c).leavesExact 2 t = owns (c : Thread nD τ) (ms0_2 t) fullShare ((dat0 V c).after 2 t) from by
      unfold Dat.leavesExact; rw [liveAt0_2 t], after0_2]
    rw [show (dat0 V c).leavesExact 3 t = owns (c : Thread nD τ) (ms0_3 t) fullShare ((dat0 V c).after 3 t) from by
      unfold Dat.leavesExact; rw [liveAt0_3 t], after0_3]
    rw [show (dat0 V c).leavesExact 4 t = owns (c : Thread nD τ) (ms0_4 t) fullShare ((dat0 V c).after 4 t) from by
      unfold Dat.leavesExact; rw [liveAt0_4 t], after0_4]
    rw [Dat.leavesExact_idle (dat0 V c) 5 t (idleAt0_5 t (fun h => h1 ((hcond0_1 t).mp h))) (noFlush0_5 t (fun h => h1 ((hcond0_1 t).mp h)))]
    rw [Dat.leavesExact_idle (dat0 V c) 6 t (idleAt0_6 t (fun h => h1 ((hcond0_1 t).mp h))) (noFlush0_6 t (fun h => h1 ((hcond0_1 t).mp h)))]
    rw [outsAt0_A V c t h0 h1]
    unfold ptA out0_A_4 sout0_A_0 sout0_A_1; (try dsimp only)
    by_cases hz : t.val = 0
    · rw [PhiS_castSucc V c t, PhiS_zero V c _ _ hz, PhiA0_eq]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _ _ _ _ _ _)
      isplitl [H5]; · iexists _; iexact H5
      iexists _; iexact H6
    · rw [PhiS_castSucc V c t, PhiS_pos V c _ _ hz]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexists _; iexact HS0
      isplitl [HS1]; · iexists _; iexact HS1
      iintro ⟨H0, H1, H2, H3, ⟨%e4, H4⟩, H5, H6, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _ _ _ _ _ _)
      isplitl [H5]; · iexists _; iexact H5
      iexists _; iexact H6
  · have hz : t.val ≠ 0 := fun e => h0 (by rw [e])
    by_cases h1 : t.val % 5 = 4
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t ((hcond0_1 t).mpr h1)], after0_5]
      rw [show (dat0 V c).leavesExact 6 t = owns (c : Thread nD τ) (ms0_6 t) fullShare ((dat0 V c).after 6 t) from by
        unfold Dat.leavesExact; rw [liveAt0_6 t ((hcond0_1 t).mpr h1)], after0_6]
      rw [outsAt0_C V c t h0 h1]
      unfold ptC out0_C_4 out0_C_5 out0_C_6 sout0_C_0 sout0_C_1; (try dsimp only)
      rw [PhiS_castSucc V c t, PhiS_pos V c _ _ hz]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_C_4 c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover0_C_5 c _ _ _ _ _ _ _ _ _ _ _ _ _ _ _ _ _ _ _ _ _ _ _ _ _ _ _)
      unfold owns; iexists _; isplitr
      swap; · iexact H6
      ipureintro; exact View.read_writes_of_cover _ _ _ _ _ (cover0_C_6 c _ _ _ _ _ _ _ _ _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5 t (fun h => h1 ((hcond0_1 t).mp h))) (noFlush0_5 t (fun h => h1 ((hcond0_1 t).mp h)))]
      rw [Dat.leavesExact_idle (dat0 V c) 6 t (idleAt0_6 t (fun h => h1 ((hcond0_1 t).mp h))) (noFlush0_6 t (fun h => h1 ((hcond0_1 t).mp h)))]
      rw [outsAt0_B V c t h0 h1]
      unfold ptB out0_B_4 sout0_B_0 sout0_B_1; (try dsimp only)
      rw [PhiS_castSucc V c t, PhiS_pos V c _ _ hz]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_B_4 c _ _ _ _ _ _ _ _ _ _ _ _ _ _ _ _ _ _ _ _ _ _ _ _ _ _ _)
      isplitl [H5]; · iexists _; iexact H5
      iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : (Pipeline.ΦA spec0 c : sProp 𝕄) ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class invariant back: the rows' named contents are forgotten. -/
theorem Phi_out0 (c : Dev nD) (t : Fin (cfg0.N + 1)) (ht : t.val ≠ 0) : (dat0 V c).Φ t ⊢ (Pipeline.ΦA spec0 c : sProp 𝕄) := by
  rw [show (dat0 V c).Φ t = PhiS V c t.val (Nat.le_of_lt_succ t.isLt) from rfl, PhiS_pos V c _ _ ht, PhiA0_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

theorem hout0 (c : Dev nD) : (dat0 V c).Φ (Fin.last cfg0.N) ⊢ (Pipeline.ΦA spec0 c : sProp 𝕄) :=
  Phi_out0 V c _ (by rw [Fin.val_last]; have : cfg0.N = 10 := N_0; omega)

end

end Cert.Kernel.Hand

end
-- ==== Proof.KRegion1.lean ====
/-
  Region 1 (the second pallas_call): one grid point per block of 10000 rows.  The body reads the stored hidden block,
  the four [1,64] rows (scale, shift, mean, variance), the second weight matrix and its bias, and stores one
  [10000,64] block: what that block holds is `out1_7` of the point's input blocks.
-/
import proofs.«120235_j55783035240590_2_alg».proof.Proof.Gen.Kernel.Launch
import proofs.«120235_j55783035240590_2_alg».proof.Proof.Gen.Kernel.Skeleton
import proofs.«120235_j55783035240590_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rBig : Rect S10000x64 := Rect.unit (s := S10000x64) ![0, 0] S10000x64.size inb_S10000x64_S10000x64_0_0
abbrev rRow : Rect S1x64 := Rect.unit (s := S1x64) ![0, 0] S1x64.size inb_S1x64_S1x64_0_0
abbrev rSq : Rect S64x64 := Rect.unit (s := S64x64) ![0, 0] S64x64.size inb_S64x64_S64x64_0_0

/-- The output block from the point's input blocks (windows 0..6 in operand order: hidden block, scale, shift,
    mean, variance, second weights, second bias). -/
def out1_7 (x0 : Vec F S10000x64 .bf16) (x1 x2 x3 x4 : Vec F S1x64 .f32) (x5 : Vec F S64x64 .f32) (x6 : Vec F S1x64 .f32) :
    Vec F S10000x64 .f32 :=
  View.canon [⟨rBig, k1_pay1 (View.ld x0 rBig) (View.ld x4 rRow) (View.ld x3 rRow) (View.ld x1 rRow) (View.ld x2 rRow) (View.ld x5 rSq) (View.ld x6 rRow)⟩]

/-- The single whole-block store of the output buffer covers it. -/
theorem cover1_7 (p0 : Vec F S10000x64 .f32) (y : S10000x64.Idx) :
    ∃ pc ∈ ([⟨rBig, p0⟩] : List (View.Piece (Elt F) S10000x64 .f32)), y ∈ pc.1.set :=
  View.cover_of_tiled [⟨rBig, p0⟩] S10000x64.size (by rfl) y

set_option maxHeartbeats 1000000 in
/-- The body on whole memrefs: the seven inputs at contents `x0..x6`, the output buffer at anything; it runs to the
    continuation with the inputs as they were and the output buffer at `out1_7` of the inputs. -/
theorem sound_kernel1 (c : Dev nD) (E : Set ℕ) (i : grid1.Coords)
    (arg1 : Memref sig .tc .vmem S10000x64 .bf16) (harg1 : arg1.IsWhole)
    (arg2 : Memref sig .tc .vmem S1x64 .f32) (harg2 : arg2.IsWhole)
    (arg3 : Memref sig .tc .vmem S1x64 .f32) (harg3 : arg3.IsWhole)
    (arg4 : Memref sig .tc .vmem S1x64 .f32) (harg4 : arg4.IsWhole)
    (arg5 : Memref sig .tc .vmem S1x64 .f32) (harg5 : arg5.IsWhole)
    (arg6 : Memref sig .tc .vmem S64x64 .f32) (harg6 : arg6.IsWhole)
    (arg7 : Memref sig .tc .vmem S1x64 .f32) (harg7 : arg7.IsWhole)
    (arg8 : Memref sig .tc .vmem S10000x64 .f32) (harg8 : arg8.IsWhole)
    (x0 : Vec F S10000x64 .bf16) (x1 x2 x3 x4 : Vec F S1x64 .f32) (x5 : Vec F S64x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out1_7 x0 x1 x2 x3 x4 x5 x6)) -∗ K ⟨⟩))
      ⊢ wp frame (wpE (defs₀ (F := F)) Variants.none c none) E
          (cc1__stage2_kernel i arg1 harg1 arg2 harg2 arg3 harg3 arg4 harg4 arg5 harg5 arg6 harg6 arg7 harg7 arg8 harg8) K := by
  simp only [cc1__stage2_kernel_eq_skeleton]; unfold cc1__stage2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_7 (c : Dev nD) (t : Fin cfg1.N) : (dat1 V c).after 7 t
    = out1_7 (iblk1 V c 0 t) (iblk1 V c 1 t) (iblk1 V c 2 t) (iblk1 V c 3 t) (iblk1 V c 4 t) (iblk1 V c 5 t) (iblk1 V c 6 t) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]

/-- Each input's current staging buffer holds its block at every point, fetched there or not: an unfetched input's
    block index has not moved since the point before. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so the body's triple applies; the invariant and the
    core's tally pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.KRun.lean ====
/-
  The whole run of @main: host operations, the first kernel region, host operations, the second kernel region.
  Between two items a core holds every unscoped buffer at known contents: the launch memory, then each host
  stretch applied, then — after a region — that region's arrays at what its write-backs leave and every other
  buffer as it was.  The run ends with every unscoped buffer at the last of these contents; the arguments are
  read back through the chain to their launch contents, and the result is the second region's output array.
-/
import proofs.«120235_j55783035240590_2_alg».proof.Proof.KRegion0
import proofs.«120235_j55783035240590_2_alg».proof.Proof.KRegion1
import proofs.«120235_j55783035240590_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m ((c : Dev nD), b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ### What each item leaves alone -/

/-- A buffer the first host stretch does not write keeps its launch contents. -/
theorem W1_keep (c : Dev nD) (r : Ref sig .tc) (h : r ∉ Gen.hostOps0_W) : W1 m c r = W0 m c r :=
  StableHlo.after_of_writes_sub hostOps0 _ Gen.hostOps0_writes h
/-- A buffer the second host stretch does not write keeps its contents. -/
theorem W3_keep (c : Dev nD) (r : Ref sig .tc) (h : r ∉ Gen.hostOps1_W) : W3 m c r = W2 m c r :=
  StableHlo.after_of_writes_sub hostOps1 _ Gen.hostOps1_writes h
/-- An input window's array leaves region 0 as it entered. -/
theorem W2_in (c : Dev nD) (w : Fin cfg0.W) (h : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w h _).trans (A_eq0 (V1 m) c w))
/-- An input window's array leaves region 1 as it entered. -/
theorem W4_in (c : Dev nD) (w : Fin cfg1.W) (h : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w h _).trans (A_eq1 (V3 m) c w))

theorem W4_main_arg0 (c : Dev nD) : W4 m c (Proc.devRef .tc main_arg0) = m ((c : Thread nD τ).loc main_arg0) :=
  (W4_of_ne m c main_arg0 (by decide)).trans <| (W3_keep m c main_arg0 (by decide)).trans <|
    (W2_in m c 0 rfl).trans <| (W1_keep m c main_arg0 (by decide)).trans rfl
theorem W4_main_arg1 (c : Dev nD) : W4 m c (Proc.devRef .tc main_arg1) = m ((c : Thread nD τ).loc main_arg1) :=
  (W4_of_ne m c main_arg1 (by decide)).trans <| (W3_keep m c main_arg1 (by decide)).trans <|
    (W2_of_ne m c main_arg1 (by decide)).trans <| (W1_keep m c main_arg1 (by decide)).trans rfl
theorem W4_main_arg2 (c : Dev nD) : W4 m c (Proc.devRef .tc main_arg2) = m ((c : Thread nD τ).loc main_arg2) :=
  (W4_of_ne m c main_arg2 (by decide)).trans <| (W3_keep m c main_arg2 (by decide)).trans <|
    (W2_in m c 2 rfl).trans <| (W1_keep m c main_arg2 (by decide)).trans rfl
theorem W4_main_arg3 (c : Dev nD) : W4 m c (Proc.devRef .tc main_arg3) = m ((c : Thread nD τ).loc main_arg3) :=
  (W4_of_ne m c main_arg3 (by decide)).trans <| (W3_keep m c main_arg3 (by decide)).trans <|
    (W2_of_ne m c main_arg3 (by decide)).trans <| (W1_keep m c main_arg3 (by decide)).trans rfl
theorem W4_main_arg4 (c : Dev nD) : W4 m c (Proc.devRef .tc main_arg4) = m ((c : Thread nD τ).loc main_arg4) :=
  (W4_of_ne m c main_arg4 (by decide)).trans <| (W3_keep m c main_arg4 (by decide)).trans <|
    (W2_of_ne m c main_arg4 (by decide)).trans <| (W1_keep m c main_arg4 (by decide)).trans rfl
theorem W4_main_arg5 (c : Dev nD) : W4 m c (Proc.devRef .tc main_arg5) = m ((c : Thread nD τ).loc main_arg5) :=
  (W4_of_ne m c main_arg5 (by decide)).trans <| (W3_keep m c main_arg5 (by decide)).trans <|
    (W2_of_ne m c main_arg5 (by decide)).trans <| (W1_keep m c main_arg5 (by decide)).trans rfl
theorem W4_main_arg6 (c : Dev nD) : W4 m c (Proc.devRef .tc main_arg6) = m ((c : Thread nD τ).loc main_arg6) :=
  (W4_in m c 5 rfl).trans <| (W3_keep m c main_arg6 (by decide)).trans <|
    (W2_of_ne m c main_arg6 (by decide)).trans <| (W1_keep m c main_arg6 (by decide)).trans rfl
theorem W4_main_arg7 (c : Dev nD) : W4 m c (Proc.devRef .tc main_arg7) = m ((c : Thread nD τ).loc main_arg7) :=
  (W4_of_ne m c main_arg7 (by decide)).trans <| (W3_keep m c main_arg7 (by decide)).trans <|
    (W2_of_ne m c main_arg7 (by decide)).trans <| (W1_keep m c main_arg7 (by decide)).trans rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as items -/

set_option backward.isDefEq.respectTransparency.types false in
/-- Region 0 between the boundaries `W1` and `W2`: its arrays split out of the unscoped buffers and put back at
    the exit contents; the generator register and the scoped rest into the region's invariant and out. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun c t => owed_eq0 (V1 m) c t
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) Gen.adm (pdats m) launch0.win launch0.arr_whole c
      ((pdats m 0 c).share_full fun w => q_eq0 (V1 m) c w) (V1 m c) fun w => A_eq0 (V1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 0 c).owed 0 = 0 from owed_eq0 (V1 m) c 0]
      icases HO with ⟨%W, HO⟩; iexists W; isplitr
      · ipureintro; intro x _; exact Or.inl (by rw [show (pdats m 0 c).recorded 0 = Set.univ from recorded_eq0 (V1 m) c 0]; trivial)
      iexact HO
    isplitl [Hp]; · iexact Hp
    iexact Hrest
  hin c := by
    refine .trans ?_ (hin0 (V1 m) c)
    unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun w => q_eq0 (V1 m) c w)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 0 c).owed (Fin.last _) = 0 from owed_eq0 (V1 m) c _]
    icases HO with ⟨%W, -, HO⟩; iexists W; iexact HO

set_option backward.isDefEq.respectTransparency.types false in
/-- Region 1 between the boundaries `W3` and `W4`. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as items, and the launch -/

abbrev segs : List (Pipeline.Seg (pcfgs (F := F)) Gen.adm (pdats m) () defs₀ 𝒱₀ L lv) :=
  [ .host (hseg hostOps0 hostOps0_sub Gen.hostOps0_fresh (W0 m)),
    .region (reg0 m),
    .host (hseg hostOps1 hostOps1_sub Gen.hostOps1_fresh (W2 m)),
    .region (reg1 m) ]
theorem main_run (c : Dev nD) : main (F := F) c = Pipeline.Seg.run (segs m) := (main_chain c).trans (by chain_rfl)

set_option backward.isDefEq.respectTransparency.types false in
/-- Every weakly fair execution of @main from memory `m` with zero counters terminates, nothing faulting, and every
    final memory holds each unscoped buffer at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) Gen.adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c),
     (h c _ (mem_uc main_arg7 (by decide))).trans (W4_main_arg7 m c)⟩) (run_all m ρ)

/-- The run with its result named: the second region's output array after its last write-back, beside the frame. -/
theorem run_result : θ_run defs (onTc (τ := τ) (main (F := F))) ⟨m, fun _ => 0, ρ⟩ (fun r => ∀ c : Dev nD,
      r.2.mem ((c.tc : Thread nD τ).loc main_v33) = (dat1 (V3 m) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_v33 (by decide))).trans (W4_arr m c 7),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c),
     (h c _ (mem_uc main_arg7 (by decide))).trans (W4_main_arg7 m c)⟩) (run_all m ρ)

end Cert.Kernel.Hand

end
-- ==== Proof.KIRegion0Runs.lean ====
/-
  Region 0 (the first pallas_call), what its three cases share.  The grid is 2 x 5; point t has inner
  coordinate t % 5.  The body resets the two running-sum rows when the inner coordinate is 0, always stores the
  block of hidden rows and adds the block's column sums (and sums of squares) to the two rows, and copies the two
  rows out when the inner coordinate is 4.  Here: the two branch conditions in closed form, where the two small
  outputs are idle, the memrefs the body is called with, and the class invariant spelled out buffer by buffer.
-/
import proofs.«120235_j55783035240590_2_alg».proof.Proof.Gen.KernelIdeal.Launch
import proofs.«120235_j55783035240590_2_alg».proof.Proof.Gen.KernelIdeal.Skeleton
import proofs.«120235_j55783035240590_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's two branch conditions -/

/-- The reset branch is taken: the inner grid coordinate is 0. -/
abbrev cond0_0 (i : grid0.Coords) : Prop := (Scalar.cmpi .ne (Scalar.extui (Scalar.cmpi .eq (BitVec.ofNat 32 (i 1).val) 0#32)) 0#32) = 1#1
/-- It holds at the points ≡ 0 (mod 5): decided over the ten points. -/
theorem hcond0_0 : ∀ t : Fin cfg0.N, cond0_0 (grid0.coords t) ↔ t.val % 5 = 0 :=
  (by decide +kernel : ∀ t : Fin grid0.N, cond0_0 (grid0.coords t) ↔ t.val % 5 = 0)

/-- The copy-out branch is taken: the inner grid coordinate is 4. -/
abbrev cond0_1 (i : grid0.Coords) : Prop := k0_cond2 i = 1#1
/-- It holds at the points ≡ 4 (mod 5): decided over the ten points. -/
theorem hcond0_1 : ∀ t : Fin cfg0.N, cond0_1 (grid0.coords t) ↔ t.val % 5 = 4 :=
  (by decide +kernel : ∀ t : Fin grid0.N, cond0_1 (grid0.coords t) ↔ t.val % 5 = 4)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from the copy-out points the two small outputs are idle and not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
/-- At the copy-out points they are live. -/
theorem liveAt0_5 : ∀ t : Fin cfg0.N, cond0_1 (grid0.coords t) → cfg0.idle 5 (grid0.coords t) = false := by decide +kernel
theorem liveAt0_6 : ∀ t : Fin cfg0.N, cond0_1 (grid0.coords t) → cfg0.idle 6 (grid0.coords t) = false := by decide +kernel

/-! ## The memrefs the body is called with -/

/-- One staging buffer of each output window, through which its contents are stated (the choice does not matter). -/
abbrev VO0_4 : View sig .tc .vmem S10000x64 .bf16 := (Memref.whole cc0_stg4_0 : Memref sig .tc .vmem S10000x64 .bf16).view
abbrev VO0_5 : View sig .tc .vmem S1x1x64 .f32 := (Memref.whole cc0_stg5_0 : Memref sig .tc .vmem S1x1x64 .f32).view
abbrev VO0_6 : View sig .tc .vmem S1x1x64 .f32 := (Memref.whole cc0_stg6_0 : Memref sig .tc .vmem S1x1x64 .f32).view
/-- Each window's current staging memref at point `t`, and its wholeness. -/
abbrev ms0_0 (t : Fin cfg0.N) : Memref sig .tc .vmem S10000x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S10000x64 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x64 .f32 := win0_6.stage (cfg0.slots t 6)
abbrev hs0_6 (t : Fin cfg0.N) : (ms0_6 t).IsWhole := hstage0_6 ((cfg0.slots t 6).cast nbuf0_6)
/-- The two running-sum rows: whole scoped buffers of the kernel's own, carried from point to point. -/
abbrev scM0_0 : Memref sig .tc .vmem S1x64 .f32 := Memref.whole cc0_scratch0
abbrev scM0_1 : Memref sig .tc .vmem S1x64 .f32 := Memref.whole cc0_scratch1
abbrev VS0_0 : View sig .tc .vmem S1x64 .f32 := scM0_0.view
abbrev VS0_1 : View sig .tc .vmem S1x64 .f32 := scM0_1.view

/-- The ten staging buffers of the second pallas_call, each whole at some contents: this region never touches them. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- The class invariant with the two running-sum rows as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ others0 (F := F) c) ∗ (∃ r, prngReg c r)) := by
  unfold Pipeline.ΦA others0; rw [scopedRest0_eq]; simp only [scM0_0, scM0_1, owns_whole]; try rfl

end Cert.KernelIdeal.Hand

end
-- ==== Proof.KIRegion0RunA.lean ====
/-
  Region 0, the reset case (inner coordinate 0): the two rows are zeroed first, so they may hold anything on entry; the two small outputs are not touched.
-/
import proofs.«120235_j55783035240590_2_alg».proof.Proof.KIRegion0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body in this case, on whole memrefs: the four inputs at their contents `x0 … x3`, the block output at anything, the two small outputs at contents handed back untouched, the two running-sum rows at anything.  It runs to the continuation holding the inputs as they were and every buffer it
    stored into with its stores written, as lists of pieces (last store first) that the run itself finds. -/
noncomputable def kernelRun0_A (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S10000x64 .f32) (x1 : Vec F S10000x64 .f32) (x2 : Vec F S64x64 .f32) (x3 : Vec F S1x64 .f32) :
    Σ' (L4 : List (View.Piece (Elt F) S10000x64 .bf16)) (LS0 : List (View.Piece (Elt F) S1x64 .f32)), { LS1 : List (View.Piece (Elt F) S1x64 .f32) //
      ∀ (xi5 : Vec F S1x1x64 .f32) (xi6 : Vec F S1x1x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__stage1_kernel i arg2 harg2 arg3 harg3 arg4 harg4 arg5 harg5 arg6 harg6 arg7 harg7 arg8 harg8 arg9 harg9 arg10 harg10) K } := by
  refine ⟨?_, ?_, ?_, fun xi5 xi6 E K => ?run⟩
  case run =>
    simp only [cc0__stage1_kernel_eq_skeleton]; unfold cc0__stage1_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.KernelIdeal.Hand

end
-- ==== Proof.KIRegion0RunB.lean ====
/-
  Region 0, the middle case (inner coordinate 1, 2 or 3): the two rows hold what the point before left; the two small outputs are not touched.
-/
import proofs.«120235_j55783035240590_2_alg».proof.Proof.KIRegion0RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body in this case, on whole memrefs: the four inputs at their contents `x0 … x3`, the block output at anything, the two small outputs at contents handed back untouched, the two running-sum rows at `xs0`, `xs1`.  It runs to the continuation holding the inputs as they were and every buffer it
    stored into with its stores written, as lists of pieces (last store first) that the run itself finds. -/
noncomputable def kernelRun0_B (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S10000x64 .f32) (x1 : Vec F S10000x64 .f32) (x2 : Vec F S64x64 .f32) (x3 : Vec F S1x64 .f32) (xs0 : Vec F S1x64 .f32) (xs1 : Vec F S1x64 .f32) :
    Σ' (L4 : List (View.Piece (Elt F) S10000x64 .bf16)) (LS0 : List (View.Piece (Elt F) S1x64 .f32)), { LS1 : List (View.Piece (Elt F) S1x64 .f32) //
      ∀ (xi5 : Vec F S1x1x64 .f32) (xi6 : Vec F S1x1x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__stage1_kernel i arg2 harg2 arg3 harg3 arg4 harg4 arg5 harg5 arg6 harg6 arg7 harg7 arg8 harg8 arg9 harg9 arg10 harg10) K } := by
  refine ⟨?_, ?_, ?_, fun xi5 xi6 E K => ?run⟩
  case run =>
    simp only [cc0__stage1_kernel_eq_skeleton]; unfold cc0__stage1_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hf6; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.KernelIdeal.Hand

end
-- ==== Proof.KIRegion0RunC.lean ====
/-
  Region 0, the copy-out case (inner coordinate 4): the two rows hold what the point before left, and after the update they are copied into the two small outputs.
-/
import proofs.«120235_j55783035240590_2_alg».proof.Proof.KIRegion0RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body in this case, on whole memrefs: the four inputs at their contents `x0 … x3`, the block output at anything, the two small outputs at anything, the two running-sum rows at `xs0`, `xs1`.  It runs to the continuation holding the inputs as they were and every buffer it
    stored into with its stores written, as lists of pieces (last store first) that the run itself finds. -/
noncomputable def kernelRun0_C (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S10000x64 .f32) (x1 : Vec F S10000x64 .f32) (x2 : Vec F S64x64 .f32) (x3 : Vec F S1x64 .f32) (xs0 : Vec F S1x64 .f32) (xs1 : Vec F S1x64 .f32) :
    Σ' (L4 : List (View.Piece (Elt F) S10000x64 .bf16)) (L5 : List (View.Piece (Elt F) S1x1x64 .f32)) (L6 : List (View.Piece (Elt F) S1x1x64 .f32)) (LS0 : List (View.Piece (Elt F) S1x64 .f32)), { LS1 : List (View.Piece (Elt F) S1x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__stage1_kernel i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__stage1_kernel_eq_skeleton]; unfold cc0__stage1_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [HS0]; · iexists _; iexact HS0
    iexists _; iexact HS1

end Cert.KernelIdeal.Hand

end
-- ==== Proof.KIRegion0.lean ====
/-
  Region 0 (the first pallas_call): a 2 x 5 grid, one block of 10000 rows per point.

  The three cases of the body (reset / middle / copy-out) are run separately; here their stores are read back as
  contents, threaded through the ten points (`outsAt0`: what the block output, the two small outputs and the two
  running-sum rows hold after each point, the rows of a point taken over from the point before unless the point
  resets them), and assembled into the pipeline's proof data: the arrays as the region finds them, the inputs'
  buffers at their blocks, the outputs' at `outsAt0`, the invariant "the two rows hold what the point before left".
-/
import proofs.«120235_j55783035240590_2_alg».proof.Proof.KIRegion0RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves in each buffer -/

/-- Case A's stores into the block output cover it. -/
theorem cover0_A_4 (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S10000x64 .f32) (x1 : Vec F S10000x64 .f32) (x2 : Vec F S64x64 .f32) (x3 : Vec F S1x64 .f32) (y : S10000x64.Idx) :
    ∃ pc ∈ (kernelRun0_A c i arg2 harg2 arg3 harg3 arg4 harg4 arg5 harg5 arg6 harg6 arg7 harg7 arg8 harg8 arg9 harg9 arg10 harg10 hc0 hc1 x0 x1 x2 x3).1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3).1 S10000x64.size (by sl_kernel_rfl) y

/-- What case A leaves in the block output: its stores read back. -/
def out0_A_4 (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S10000x64 .f32) (x1 : Vec F S10000x64 .f32) (x2 : Vec F S64x64 .f32) (x3 : Vec F S1x64 .f32) : Vec F S10000x64 .bf16 :=
  VO0_4.read (Elt F) (VO0_4.writes (Elt F) VO0_4.junk (kernelRun0_A c i arg2 harg2 arg3 harg3 arg4 harg4 arg5 harg5 arg6 harg6 arg7 harg7 arg8 harg8 arg9 harg9 arg10 harg10 hc0 hc1 x0 x1 x2 x3).1)

/-- Case A's stores into the column-sum row cover it. -/
theorem scover0_A_0 (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S10000x64 .f32) (x1 : Vec F S10000x64 .f32) (x2 : Vec F S64x64 .f32) (x3 : Vec F S1x64 .f32) (y : S1x64.Idx) :
    ∃ pc ∈ (kernelRun0_A c i arg2 harg2 arg3 harg3 arg4 harg4 arg5 harg5 arg6 harg6 arg7 harg7 arg8 harg8 arg9 harg9 arg10 harg10 hc0 hc1 x0 x1 x2 x3).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3).2.1 S1x64.size (by sl_kernel_rfl) y

/-- What case A leaves in the column-sum row: its stores read back. -/
def sout0_A_0 (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S10000x64 .f32) (x1 : Vec F S10000x64 .f32) (x2 : Vec F S64x64 .f32) (x3 : Vec F S1x64 .f32) : Vec F S1x64 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3).2.1)

/-- Case A's stores into the sum-of-squares row cover it. -/
theorem scover0_A_1 (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S10000x64 .f32) (x1 : Vec F S10000x64 .f32) (x2 : Vec F S64x64 .f32) (x3 : Vec F S1x64 .f32) (y : S1x64.Idx) :
    ∃ pc ∈ (kernelRun0_A c i arg2 harg2 arg3 harg3 arg4 harg4 arg5 harg5 arg6 harg6 arg7 harg7 arg8 harg8 arg9 harg9 arg10 harg10 hc0 hc1 x0 x1 x2 x3).2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3).2.2.1 S1x64.size (by sl_kernel_rfl) y

/-- What case A leaves in the sum-of-squares row: its stores read back. -/
def sout0_A_1 (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S10000x64 .f32) (x1 : Vec F S10000x64 .f32) (x2 : Vec F S64x64 .f32) (x3 : Vec F S1x64 .f32) : Vec F S1x64 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 hc0 hc1 x0 x1 x2 x3).2.2.1)

/-- Case B's stores into the block output cover it. -/
theorem cover0_B_4 (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S10000x64 .f32) (x1 : Vec F S10000x64 .f32) (x2 : Vec F S64x64 .f32) (x3 : Vec F S1x64 .f32) (xs0 : Vec F S1x64 .f32) (xs1 : Vec F S1x64 .f32) (y : S10000x64.Idx) :
    ∃ pc ∈ (kernelRun0_B c i arg2 harg2 arg3 harg3 arg4 harg4 arg5 harg5 arg6 harg6 arg7 harg7 arg8 harg8 arg9 harg9 arg10 harg10 hc0 hc1 x0 x1 x2 x3 xs0 xs1).1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 xs0 xs1).1 S10000x64.size (by sl_kernel_rfl) y

/-- What case B leaves in the block output: its stores read back. -/
def out0_B_4 (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S10000x64 .f32) (x1 : Vec F S10000x64 .f32) (x2 : Vec F S64x64 .f32) (x3 : Vec F S1x64 .f32) (xs0 : Vec F S1x64 .f32) (xs1 : Vec F S1x64 .f32) : Vec F S10000x64 .bf16 :=
  VO0_4.read (Elt F) (VO0_4.writes (Elt F) VO0_4.junk (kernelRun0_B c i arg2 harg2 arg3 harg3 arg4 harg4 arg5 harg5 arg6 harg6 arg7 harg7 arg8 harg8 arg9 harg9 arg10 harg10 hc0 hc1 x0 x1 x2 x3 xs0 xs1).1)

/-- Case B's stores into the column-sum row cover it. -/
theorem scover0_B_0 (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S10000x64 .f32) (x1 : Vec F S10000x64 .f32) (x2 : Vec F S64x64 .f32) (x3 : Vec F S1x64 .f32) (xs0 : Vec F S1x64 .f32) (xs1 : Vec F S1x64 .f32) (y : S1x64.Idx) :
    ∃ pc ∈ (kernelRun0_B c i arg2 harg2 arg3 harg3 arg4 harg4 arg5 harg5 arg6 harg6 arg7 harg7 arg8 harg8 arg9 harg9 arg10 harg10 hc0 hc1 x0 x1 x2 x3 xs0 xs1).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 xs0 xs1).2.1 S1x64.size (by sl_kernel_rfl) y

/-- What case B leaves in the column-sum row: its stores read back. -/
def sout0_B_0 (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S10000x64 .f32) (x1 : Vec F S10000x64 .f32) (x2 : Vec F S64x64 .f32) (x3 : Vec F S1x64 .f32) (xs0 : Vec F S1x64 .f32) (xs1 : Vec F S1x64 .f32) : Vec F S1x64 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 x3 xs0 xs1).2.1)

/-- Case B's stores into the sum-of-squares row cover it. -/
theorem scover0_B_1 (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S10000x64 .f32) (x1 : Vec F S10000x64 .f32) (x2 : Vec F S64x64 .f32) (x3 : Vec F S1x64 .f32) (xs0 : Vec F S1x64 .f32) (xs1 : Vec F S1x64 .f32) (y : S1x64.Idx) :
    ∃ pc ∈ (kernelRun0_B c i arg2 harg2 arg3 harg3 arg4 harg4 arg5 harg5 arg6 harg6 arg7 harg7 arg8 harg8 arg9 harg9 arg10 harg10 hc0 hc1 x0 x1 x2 x3 xs0 xs1).2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 xs0 xs1).2.2.1 S1x64.size (by sl_kernel_rfl) y

/-- What case B leaves in the sum-of-squares row: its stores read back. -/
def sout0_B_1 (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S10000x64 .f32) (x1 : Vec F S10000x64 .f32) (x2 : Vec F S64x64 .f32) (x3 : Vec F S1x64 .f32) (xs0 : Vec F S1x64 .f32) (xs1 : Vec F S1x64 .f32) : Vec F S1x64 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 hc0 hc1 x0 x1 x2 x3 xs0 xs1).2.2.1)

/-- Case C's stores into the block output cover it. -/
theorem cover0_C_4 (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S10000x64 .f32) (x1 : Vec F S10000x64 .f32) (x2 : Vec F S64x64 .f32) (x3 : Vec F S1x64 .f32) (xs0 : Vec F S1x64 .f32) (xs1 : Vec F S1x64 .f32) (y : S10000x64.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1).1 S10000x64.size (by sl_kernel_rfl) y

/-- What case C leaves in the block output: its stores read back. -/
def out0_C_4 (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S10000x64 .f32) (x1 : Vec F S10000x64 .f32) (x2 : Vec F S64x64 .f32) (x3 : Vec F S1x64 .f32) (xs0 : Vec F S1x64 .f32) (xs1 : Vec F S1x64 .f32) : Vec F S10000x64 .bf16 :=
  VO0_4.read (Elt F) (VO0_4.writes (Elt F) VO0_4.junk (kernelRun0_C c i arg2 harg2 arg3 harg3 arg4 harg4 arg5 harg5 arg6 harg6 arg7 harg7 arg8 harg8 arg9 harg9 arg10 harg10 hc0 hc1 x0 x1 x2 x3 xs0 xs1).1)

/-- Case C's stores into the column-sum output cover it. -/
theorem cover0_C_5 (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S10000x64 .f32) (x1 : Vec F S10000x64 .f32) (x2 : Vec F S64x64 .f32) (x3 : Vec F S1x64 .f32) (xs0 : Vec F S1x64 .f32) (xs1 : Vec F S1x64 .f32) (y : S1x1x64.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1).2.1 S1x1x64.size (by sl_kernel_rfl) y

/-- What case C leaves in the column-sum output: its stores read back. -/
def out0_C_5 (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S10000x64 .f32) (x1 : Vec F S10000x64 .f32) (x2 : Vec F S64x64 .f32) (x3 : Vec F S1x64 .f32) (xs0 : Vec F S1x64 .f32) (xs1 : Vec F S1x64 .f32) : Vec F S1x1x64 .f32 :=
  VO0_5.read (Elt F) (VO0_5.writes (Elt F) VO0_5.junk (kernelRun0_C c i arg2 harg2 arg3 harg3 arg4 harg4 arg5 harg5 arg6 harg6 arg7 harg7 arg8 harg8 arg9 harg9 arg10 harg10 hc0 hc1 x0 x1 x2 x3 xs0 xs1).2.1)

/-- Case C's stores into the sum-of-squares output cover it. -/
theorem cover0_C_6 (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S10000x64 .f32) (x1 : Vec F S10000x64 .f32) (x2 : Vec F S64x64 .f32) (x3 : Vec F S1x64 .f32) (xs0 : Vec F S1x64 .f32) (xs1 : Vec F S1x64 .f32) (y : S1x1x64.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1).2.2.1 S1x1x64.size (by sl_kernel_rfl) y

/-- What case C leaves in the sum-of-squares output: its stores read back. -/
def out0_C_6 (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S10000x64 .f32) (x1 : Vec F S10000x64 .f32) (x2 : Vec F S64x64 .f32) (x3 : Vec F S1x64 .f32) (xs0 : Vec F S1x64 .f32) (xs1 : Vec F S1x64 .f32) : Vec F S1x1x64 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 hc0 hc1 x0 x1 x2 x3 xs0 xs1).2.2.1)

/-- Case C's stores into the column-sum row cover it. -/
theorem scover0_C_0 (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S10000x64 .f32) (x1 : Vec F S10000x64 .f32) (x2 : Vec F S64x64 .f32) (x3 : Vec F S1x64 .f32) (xs0 : Vec F S1x64 .f32) (xs1 : Vec F S1x64 .f32) (y : S1x64.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1).2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1).2.2.2.1 S1x64.size (by sl_kernel_rfl) y

/-- What case C leaves in the column-sum row: its stores read back. -/
def sout0_C_0 (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S10000x64 .f32) (x1 : Vec F S10000x64 .f32) (x2 : Vec F S64x64 .f32) (x3 : Vec F S1x64 .f32) (xs0 : Vec F S1x64 .f32) (xs1 : Vec F S1x64 .f32) : Vec F S1x64 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 x3 xs0 xs1).2.2.2.1)

/-- Case C's stores into the sum-of-squares row cover it. -/
theorem scover0_C_1 (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S10000x64 .f32) (x1 : Vec F S10000x64 .f32) (x2 : Vec F S64x64 .f32) (x3 : Vec F S1x64 .f32) (xs0 : Vec F S1x64 .f32) (xs1 : Vec F S1x64 .f32) (y : S1x64.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1).2.2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1).2.2.2.2.1 S1x64.size (by sl_kernel_rfl) y

/-- What case C leaves in the sum-of-squares row: its stores read back. -/
def sout0_C_1 (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S10000x64 .f32) (x1 : Vec F S10000x64 .f32) (x2 : Vec F S64x64 .f32) (x3 : Vec F S1x64 .f32) (xs0 : Vec F S1x64 .f32) (xs1 : Vec F S1x64 .f32) : Vec F S1x64 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 hc0 hc1 x0 x1 x2 x3 xs0 xs1).2.2.2.2.1)

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the buffers hold after each point -/

/-- After a reset point: the block output, placeholders for the two idle small outputs (nothing consults them:
    at these points they are neither written back nor read at the next point), the two rows. -/
def ptA (c : Dev nD) (t : Fin cfg0.N) (h0 : t.val % 5 = 0) (h1 : ¬t.val % 5 = 4) : Vec F S10000x64 .bf16 × Vec F S1x1x64 .f32 × Vec F S1x1x64 .f32 × Vec F S1x64 .f32 × Vec F S1x64 .f32 :=
  (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t),
   VO0_5.read (Elt F) VO0_5.junk, VO0_6.read (Elt F) VO0_6.junk,
   sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t),
   sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t))

/-- After a middle point, the rows having held `xs0`, `xs1` before it. -/
def ptB (c : Dev nD) (t : Fin cfg0.N) (h0 : ¬t.val % 5 = 0) (h1 : ¬t.val % 5 = 4) (xs0 xs1 : Vec F S1x64 .f32) : Vec F S10000x64 .bf16 × Vec F S1x1x64 .f32 × Vec F S1x1x64 .f32 × Vec F S1x64 .f32 × Vec F S1x64 .f32 :=
  (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) xs0 xs1,
   VO0_5.read (Elt F) VO0_5.junk, VO0_6.read (Elt F) VO0_6.junk,
   sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) xs0 xs1,
   sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) xs0 xs1)

/-- After a copy-out point, the rows having held `xs0`, `xs1` before it. -/
def ptC (c : Dev nD) (t : Fin cfg0.N) (h0 : ¬t.val % 5 = 0) (h1 : t.val % 5 = 4) (xs0 xs1 : Vec F S1x64 .f32) : Vec F S10000x64 .bf16 × Vec F S1x1x64 .f32 × Vec F S1x1x64 .f32 × Vec F S1x64 .f32 × Vec F S1x64 .f32 :=
  (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) xs0 xs1,
   out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) xs0 xs1,
   out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) xs0 xs1,
   sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) xs0 xs1,
   sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) xs0 xs1)

/-- THE ACCUMULATION.  What the block output's buffer, the two small outputs' buffers and the two running-sum rows
    hold after the body at position `n`: the case the point is in, run on the point's input blocks, the rows at what
    position `n - 1` left (a reset point ignores them). -/
def outsAt0 (c : Dev nD) : (n : ℕ) → n < cfg0.N → Vec F S10000x64 .bf16 × Vec F S1x1x64 .f32 × Vec F S1x1x64 .f32 × Vec F S1x64 .f32 × Vec F S1x64 .f32
  | 0, hn => ptA V c ⟨0, hn⟩ (Nat.zero_mod _) (show ¬(0 : ℕ) % 5 = 4 by decide)
  | n + 1, hn =>
    if h0 : (n + 1) % 5 = 0 then ptA V c ⟨n + 1, hn⟩ h0 (show ¬(n + 1) % 5 = 4 by omega)
    else if h1 : (n + 1) % 5 = 4 then
      ptC V c ⟨n + 1, hn⟩ h0 h1 (outsAt0 c n (Nat.lt_of_succ_lt hn)).2.2.2.1 (outsAt0 c n (Nat.lt_of_succ_lt hn)).2.2.2.2
    else
      ptB V c ⟨n + 1, hn⟩ h0 h1 (outsAt0 c n (Nat.lt_of_succ_lt hn)).2.2.2.1 (outsAt0 c n (Nat.lt_of_succ_lt hn)).2.2.2.2

theorem outsAt0_A (c : Dev nD) (t : Fin cfg0.N) (h0 : t.val % 5 = 0) (h1 : ¬t.val % 5 = 4) :
    outsAt0 V c t.val t.isLt = ptA V c t h0 h1 := by
  obtain ⟨n, hn⟩ := t
  cases n with
  | zero => exact rfl
  | succ n => exact (dif_pos h0).trans rfl

theorem outsAt0_B (c : Dev nD) (t : Fin cfg0.N) (h0 : ¬t.val % 5 = 0) (h1 : ¬t.val % 5 = 4) :
    outsAt0 V c t.val t.isLt = ptB V c t h0 h1
      (outsAt0 V c (t.val - 1) (Nat.lt_of_le_of_lt (Nat.sub_le _ _) t.isLt)).2.2.2.1
      (outsAt0 V c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 5 = 0) (h1 : t.val % 5 = 4) :
    outsAt0 V c t.val t.isLt = ptC V c t h0 h1
      (outsAt0 V c (t.val - 1) (Nat.lt_of_le_of_lt (Nat.sub_le _ _) t.isLt)).2.2.2.1
      (outsAt0 V c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans ((dif_pos h1).trans rfl)

/-! ## The invariant -/

/-- Before position `n`: before the first point the class invariant (every scoped buffer at anything); afterwards
    the two rows at what the point before left, the other pallas_call's staging buffers at anything, the generator
    register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.1) ∗ owns (c : Thread nD τ) scM0_1 fullShare ((outsAt0 V c n hn).2.2.2.2) ∗ others0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.2.1) ∗ owns (c : Thread nD τ) scM0_1 fullShare ((outsAt0 V c n hn).2.2.2.2) ∗ others0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.2.1) ∗ owns (c : Thread nD τ) scM0_1 fullShare ((outsAt0 V c (n - 1) (by omega)).2.2.2.2) ∗ others0 (F := F) c) ∗ (∃ r, prngReg c r)) := by
  cases n with
  | zero => exact absurd rfl hz
  | succ n => rfl

/-! ## The pipeline's proof data -/

/-- The arrays as the region finds them; after the body at point `t` each input's buffer at its block and the
    outputs' at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
    | ⟨6, _⟩ => (outsAt0 V c t.val t.isLt).2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := by
  dsimp only [dat0]
theorem owed_eq0 (c : Dev nD) (t : Fin (cfg0.N + 1)) : (dat0 V c).owed t = 0 := by
  dsimp only [dat0]
theorem recorded_eq0 (c : Dev nD) (t : Fin (cfg0.N + 1)) : (dat0 V c).recorded t = Set.univ := rfl

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]
theorem after0_6 (c : Dev nD) (t : Fin cfg0.N) : (dat0 V c).after 6 t = (outsAt0 V c t.val t.isLt).2.2.1 := by dsimp only [dat0]

/-- Input 0's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
/-- Input 1's current staging buffer holds its block at every point, fetched there or not. -/
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
/-- Input 2's current staging buffer holds its block at every point, fetched there or not. -/
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
/-- Input 3's current staging buffer holds its block at every point, fetched there or not. -/
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

/-! ## The body obligation, at a generic point -/

def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 8000000 in
/-- The body at any point.  The inputs' memrefs hold their blocks; the closed forms of the two conditions say which
    case the point is in; the invariant hands the body the two rows at what the point before left (at anything at
    the first point) and takes them back at this point's contents; the two small outputs are handed back untouched
    unless the point copies the rows out. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 10 := lt_of_lt_of_eq t.isLt (show cfg0.N = 10 from N_0)
  by_cases h0 : t.val % 5 = 0
  · have h1 : ¬t.val % 5 = 4 := by omega
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [show (dat0 V c).leavesExact 2 t = owns (c : Thread nD τ) (ms0_2 t) fullShare ((dat0 V c).after 2 t) from by
      unfold Dat.leavesExact; rw [liveAt0_2 t], after0_2]
    rw [show (dat0 V c).leavesExact 3 t = owns (c : Thread nD τ) (ms0_3 t) fullShare ((dat0 V c).after 3 t) from by
      unfold Dat.leavesExact; rw [liveAt0_3 t], after0_3]
    rw [show (dat0 V c).leavesExact 4 t = owns (c : Thread nD τ) (ms0_4 t) fullShare ((dat0 V c).after 4 t) from by
      unfold Dat.leavesExact; rw [liveAt0_4 t], after0_4]
    rw [Dat.leavesExact_idle (dat0 V c) 5 t (idleAt0_5 t (fun h => h1 ((hcond0_1 t).mp h))) (noFlush0_5 t (fun h => h1 ((hcond0_1 t).mp h)))]
    rw [Dat.leavesExact_idle (dat0 V c) 6 t (idleAt0_6 t (fun h => h1 ((hcond0_1 t).mp h))) (noFlush0_6 t (fun h => h1 ((hcond0_1 t).mp h)))]
    rw [outsAt0_A V c t h0 h1]
    unfold ptA out0_A_4 sout0_A_0 sout0_A_1; (try dsimp only)
    by_cases hz : t.val = 0
    · rw [PhiS_castSucc V c t, PhiS_zero V c _ _ hz, PhiA0_eq]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _ _ _ _ _ _)
      isplitl [H5]; · iexists _; iexact H5
      iexists _; iexact H6
    · rw [PhiS_castSucc V c t, PhiS_pos V c _ _ hz]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexists _; iexact HS0
      isplitl [HS1]; · iexists _; iexact HS1
      iintro ⟨H0, H1, H2, H3, ⟨%e4, H4⟩, H5, H6, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _ _ _ _ _ _)
      isplitl [H5]; · iexists _; iexact H5
      iexists _; iexact H6
  · have hz : t.val ≠ 0 := fun e => h0 (by rw [e])
    by_cases h1 : t.val % 5 = 4
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t ((hcond0_1 t).mpr h1)], after0_5]
      rw [show (dat0 V c).leavesExact 6 t = owns (c : Thread nD τ) (ms0_6 t) fullShare ((dat0 V c).after 6 t) from by
        unfold Dat.leavesExact; rw [liveAt0_6 t ((hcond0_1 t).mpr h1)], after0_6]
      rw [outsAt0_C V c t h0 h1]
      unfold ptC out0_C_4 out0_C_5 out0_C_6 sout0_C_0 sout0_C_1; (try dsimp only)
      rw [PhiS_castSucc V c t, PhiS_pos V c _ _ hz]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_C_4 c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover0_C_5 c _ _ _ _ _ _ _ _ _ _ _ _ _ _ _ _ _ _ _ _ _ _ _ _ _ _ _)
      unfold owns; iexists _; isplitr
      swap; · iexact H6
      ipureintro; exact View.read_writes_of_cover _ _ _ _ _ (cover0_C_6 c _ _ _ _ _ _ _ _ _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5 t (fun h => h1 ((hcond0_1 t).mp h))) (noFlush0_5 t (fun h => h1 ((hcond0_1 t).mp h)))]
      rw [Dat.leavesExact_idle (dat0 V c) 6 t (idleAt0_6 t (fun h => h1 ((hcond0_1 t).mp h))) (noFlush0_6 t (fun h => h1 ((hcond0_1 t).mp h)))]
      rw [outsAt0_B V c t h0 h1]
      unfold ptB out0_B_4 sout0_B_0 sout0_B_1; (try dsimp only)
      rw [PhiS_castSucc V c t, PhiS_pos V c _ _ hz]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_B_4 c _ _ _ _ _ _ _ _ _ _ _ _ _ _ _ _ _ _ _ _ _ _ _ _ _ _ _)
      isplitl [H5]; · iexists _; iexact H5
      iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : (Pipeline.ΦA spec0 c : sProp 𝕄) ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class invariant back: the rows' named contents are forgotten. -/
theorem Phi_out0 (c : Dev nD) (t : Fin (cfg0.N + 1)) (ht : t.val ≠ 0) : (dat0 V c).Φ t ⊢ (Pipeline.ΦA spec0 c : sProp 𝕄) := by
  rw [show (dat0 V c).Φ t = PhiS V c t.val (Nat.le_of_lt_succ t.isLt) from rfl, PhiS_pos V c _ _ ht, PhiA0_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

theorem hout0 (c : Dev nD) : (dat0 V c).Φ (Fin.last cfg0.N) ⊢ (Pipeline.ΦA spec0 c : sProp 𝕄) :=
  Phi_out0 V c _ (by rw [Fin.val_last]; have : cfg0.N = 10 := N_0; omega)

end

end Cert.KernelIdeal.Hand

end
-- ==== Proof.KIRegion1.lean ====
/-
  Region 1 (the second pallas_call): one grid point per block of 10000 rows.  The body reads the stored hidden block,
  the four [1,64] rows (scale, shift, mean, variance), the second weight matrix and its bias, and stores one
  [10000,64] block: what that block holds is `out1_7` of the point's input blocks.
-/
import proofs.«120235_j55783035240590_2_alg».proof.Proof.Gen.KernelIdeal.Launch
import proofs.«120235_j55783035240590_2_alg».proof.Proof.Gen.KernelIdeal.Skeleton
import proofs.«120235_j55783035240590_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rBig : Rect S10000x64 := Rect.unit (s := S10000x64) ![0, 0] S10000x64.size inb_S10000x64_S10000x64_0_0
abbrev rRow : Rect S1x64 := Rect.unit (s := S1x64) ![0, 0] S1x64.size inb_S1x64_S1x64_0_0
abbrev rSq : Rect S64x64 := Rect.unit (s := S64x64) ![0, 0] S64x64.size inb_S64x64_S64x64_0_0

/-- The output block from the point's input blocks (windows 0..6 in operand order: hidden block, scale, shift,
    mean, variance, second weights, second bias). -/
def out1_7 (x0 : Vec F S10000x64 .bf16) (x1 x2 x3 x4 : Vec F S1x64 .f32) (x5 : Vec F S64x64 .f32) (x6 : Vec F S1x64 .f32) :
    Vec F S10000x64 .f32 :=
  View.canon [⟨rBig, k1_pay1 (View.ld x0 rBig) (View.ld x4 rRow) (View.ld x3 rRow) (View.ld x1 rRow) (View.ld x2 rRow) (View.ld x5 rSq) (View.ld x6 rRow)⟩]

/-- The single whole-block store of the output buffer covers it. -/
theorem cover1_7 (p0 : Vec F S10000x64 .f32) (y : S10000x64.Idx) :
    ∃ pc ∈ ([⟨rBig, p0⟩] : List (View.Piece (Elt F) S10000x64 .f32)), y ∈ pc.1.set :=
  View.cover_of_tiled [⟨rBig, p0⟩] S10000x64.size (by rfl) y

set_option maxHeartbeats 1000000 in
/-- The body on whole memrefs: the seven inputs at contents `x0..x6`, the output buffer at anything; it runs to the
    continuation with the inputs as they were and the output buffer at `out1_7` of the inputs. -/
theorem sound_kernel1 (c : Dev nD) (E : Set ℕ) (i : grid1.Coords)
    (arg1 : Memref sig .tc .vmem S10000x64 .bf16) (harg1 : arg1.IsWhole)
    (arg2 : Memref sig .tc .vmem S1x64 .f32) (harg2 : arg2.IsWhole)
    (arg3 : Memref sig .tc .vmem S1x64 .f32) (harg3 : arg3.IsWhole)
    (arg4 : Memref sig .tc .vmem S1x64 .f32) (harg4 : arg4.IsWhole)
    (arg5 : Memref sig .tc .vmem S1x64 .f32) (harg5 : arg5.IsWhole)
    (arg6 : Memref sig .tc .vmem S64x64 .f32) (harg6 : arg6.IsWhole)
    (arg7 : Memref sig .tc .vmem S1x64 .f32) (harg7 : arg7.IsWhole)
    (arg8 : Memref sig .tc .vmem S10000x64 .f32) (harg8 : arg8.IsWhole)
    (x0 : Vec F S10000x64 .bf16) (x1 x2 x3 x4 : Vec F S1x64 .f32) (x5 : Vec F S64x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out1_7 x0 x1 x2 x3 x4 x5 x6)) -∗ K ⟨⟩))
      ⊢ wp frame (wpE (defs₀ (F := F)) Variants.none c none) E
          (cc1__stage2_kernel i arg1 harg1 arg2 harg2 arg3 harg3 arg4 harg4 arg5 harg5 arg6 harg6 arg7 harg7 arg8 harg8) K := by
  simp only [cc1__stage2_kernel_eq_skeleton]; unfold cc1__stage2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_7 (c : Dev nD) (t : Fin cfg1.N) : (dat1 V c).after 7 t
    = out1_7 (iblk1 V c 0 t) (iblk1 V c 1 t) (iblk1 V c 2 t) (iblk1 V c 3 t) (iblk1 V c 4 t) (iblk1 V c 5 t) (iblk1 V c 6 t) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]

/-- Each input's current staging buffer holds its block at every point, fetched there or not: an unfetched input's
    block index has not moved since the point before. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so the body's triple applies; the invariant and the
    core's tally pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.KIRun.lean ====
/-
  The whole run of @main: host operations, the first kernel region, host operations, the second kernel region.
  Between two items a core holds every unscoped buffer at known contents: the launch memory, then each host
  stretch applied, then — after a region — that region's arrays at what its write-backs leave and every other
  buffer as it was.  The run ends with every unscoped buffer at the last of these contents; the arguments are
  read back through the chain to their launch contents, and the result is the second region's output array.
-/
import proofs.«120235_j55783035240590_2_alg».proof.Proof.KIRegion0
import proofs.«120235_j55783035240590_2_alg».proof.Proof.KIRegion1
import proofs.«120235_j55783035240590_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m ((c : Dev nD), b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ### What each item leaves alone -/

/-- A buffer the first host stretch does not write keeps its launch contents. -/
theorem W1_keep (c : Dev nD) (r : Ref sig .tc) (h : r ∉ Gen.hostOps0_W) : W1 m c r = W0 m c r :=
  StableHlo.after_of_writes_sub hostOps0 _ Gen.hostOps0_writes h
/-- A buffer the second host stretch does not write keeps its contents. -/
theorem W3_keep (c : Dev nD) (r : Ref sig .tc) (h : r ∉ Gen.hostOps1_W) : W3 m c r = W2 m c r :=
  StableHlo.after_of_writes_sub hostOps1 _ Gen.hostOps1_writes h
/-- An input window's array leaves region 0 as it entered. -/
theorem W2_in (c : Dev nD) (w : Fin cfg0.W) (h : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w h _).trans (A_eq0 (V1 m) c w))
/-- An input window's array leaves region 1 as it entered. -/
theorem W4_in (c : Dev nD) (w : Fin cfg1.W) (h : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w h _).trans (A_eq1 (V3 m) c w))

theorem W4_main_arg0 (c : Dev nD) : W4 m c (Proc.devRef .tc main_arg0) = m ((c : Thread nD τ).loc main_arg0) :=
  (W4_of_ne m c main_arg0 (by decide)).trans <| (W3_keep m c main_arg0 (by decide)).trans <|
    (W2_in m c 0 rfl).trans <| (W1_keep m c main_arg0 (by decide)).trans rfl
theorem W4_main_arg1 (c : Dev nD) : W4 m c (Proc.devRef .tc main_arg1) = m ((c : Thread nD τ).loc main_arg1) :=
  (W4_of_ne m c main_arg1 (by decide)).trans <| (W3_keep m c main_arg1 (by decide)).trans <|
    (W2_of_ne m c main_arg1 (by decide)).trans <| (W1_keep m c main_arg1 (by decide)).trans rfl
theorem W4_main_arg2 (c : Dev nD) : W4 m c (Proc.devRef .tc main_arg2) = m ((c : Thread nD τ).loc main_arg2) :=
  (W4_of_ne m c main_arg2 (by decide)).trans <| (W3_keep m c main_arg2 (by decide)).trans <|
    (W2_in m c 2 rfl).trans <| (W1_keep m c main_arg2 (by decide)).trans rfl
theorem W4_main_arg3 (c : Dev nD) : W4 m c (Proc.devRef .tc main_arg3) = m ((c : Thread nD τ).loc main_arg3) :=
  (W4_of_ne m c main_arg3 (by decide)).trans <| (W3_keep m c main_arg3 (by decide)).trans <|
    (W2_of_ne m c main_arg3 (by decide)).trans <| (W1_keep m c main_arg3 (by decide)).trans rfl
theorem W4_main_arg4 (c : Dev nD) : W4 m c (Proc.devRef .tc main_arg4) = m ((c : Thread nD τ).loc main_arg4) :=
  (W4_of_ne m c main_arg4 (by decide)).trans <| (W3_keep m c main_arg4 (by decide)).trans <|
    (W2_of_ne m c main_arg4 (by decide)).trans <| (W1_keep m c main_arg4 (by decide)).trans rfl
theorem W4_main_arg5 (c : Dev nD) : W4 m c (Proc.devRef .tc main_arg5) = m ((c : Thread nD τ).loc main_arg5) :=
  (W4_of_ne m c main_arg5 (by decide)).trans <| (W3_keep m c main_arg5 (by decide)).trans <|
    (W2_of_ne m c main_arg5 (by decide)).trans <| (W1_keep m c main_arg5 (by decide)).trans rfl
theorem W4_main_arg6 (c : Dev nD) : W4 m c (Proc.devRef .tc main_arg6) = m ((c : Thread nD τ).loc main_arg6) :=
  (W4_in m c 5 rfl).trans <| (W3_keep m c main_arg6 (by decide)).trans <|
    (W2_of_ne m c main_arg6 (by decide)).trans <| (W1_keep m c main_arg6 (by decide)).trans rfl
theorem W4_main_arg7 (c : Dev nD) : W4 m c (Proc.devRef .tc main_arg7) = m ((c : Thread nD τ).loc main_arg7) :=
  (W4_of_ne m c main_arg7 (by decide)).trans <| (W3_keep m c main_arg7 (by decide)).trans <|
    (W2_of_ne m c main_arg7 (by decide)).trans <| (W1_keep m c main_arg7 (by decide)).trans rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as items -/

set_option backward.isDefEq.respectTransparency.types false in
/-- Region 0 between the boundaries `W1` and `W2`: its arrays split out of the unscoped buffers and put back at
    the exit contents; the generator register and the scoped rest into the region's invariant and out. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun c t => owed_eq0 (V1 m) c t
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) Gen.adm (pdats m) launch0.win launch0.arr_whole c
      ((pdats m 0 c).share_full fun w => q_eq0 (V1 m) c w) (V1 m c) fun w => A_eq0 (V1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 0 c).owed 0 = 0 from owed_eq0 (V1 m) c 0]
      icases HO with ⟨%W, HO⟩; iexists W; isplitr
      · ipureintro; intro x _; exact Or.inl (by rw [show (pdats m 0 c).recorded 0 = Set.univ from recorded_eq0 (V1 m) c 0]; trivial)
      iexact HO
    isplitl [Hp]; · iexact Hp
    iexact Hrest
  hin c := by
    refine .trans ?_ (hin0 (V1 m) c)
    unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun w => q_eq0 (V1 m) c w)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 0 c).owed (Fin.last _) = 0 from owed_eq0 (V1 m) c _]
    icases HO with ⟨%W, -, HO⟩; iexists W; iexact HO

set_option backward.isDefEq.respectTransparency.types false in
/-- Region 1 between the boundaries `W3` and `W4`. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as items, and the launch -/

abbrev segs : List (Pipeline.Seg (pcfgs (F := F)) Gen.adm (pdats m) () defs₀ 𝒱₀ L lv) :=
  [ .host (hseg hostOps0 hostOps0_sub Gen.hostOps0_fresh (W0 m)),
    .region (reg0 m),
    .host (hseg hostOps1 hostOps1_sub Gen.hostOps1_fresh (W2 m)),
    .region (reg1 m) ]
theorem main_run (c : Dev nD) : main (F := F) c = Pipeline.Seg.run (segs m) := (main_chain c).trans (by chain_rfl)

set_option backward.isDefEq.respectTransparency.types false in
/-- Every weakly fair execution of @main from memory `m` with zero counters terminates, nothing faulting, and every
    final memory holds each unscoped buffer at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) Gen.adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c),
     (h c _ (mem_uc main_arg7 (by decide))).trans (W4_main_arg7 m c)⟩) (run_all m ρ)

/-- The run with its result named: the second region's output array after its last write-back, beside the frame. -/
theorem run_result : θ_run defs (onTc (τ := τ) (main (F := F))) ⟨m, fun _ => 0, ρ⟩ (fun r => ∀ c : Dev nD,
      r.2.mem ((c.tc : Thread nD τ).loc main_v33) = (dat1 (V3 m) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_v33 (by decide))).trans (W4_arr m c 7),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c),
     (h c _ (mem_uc main_arg7 (by decide))).trans (W4_main_arg7 m c)⟩) (run_all m ρ)

end Cert.KernelIdeal.Hand

end
-- ==== Proof.KIHost.lean ====
/-
  What the host operations around the two regions compute, named.  Before the first region: the neighbour sum
  (each node's in-neighbours' feature rows added up) and the bias rows reshaped to [1,64].  Between the regions:
  from the two halves' column sums and sums of squares, the mean (sum / 100000) and the variance
  (sum of squares / 100000 minus the mean squared, clamped at zero), each reshaped to [1,64].
-/
import proofs.«120235_j55783035240590_2_alg».proof.Proof.KIRun
import Idealize.ShloMosaic.Lib.StableHlo.Run

set_option maxRecDepth 16384

noncomputable section

namespace Cert.KernelIdeal.Hand

open Idealize.ShloMosaic Idealize.ShloMosaic.TcCoe Idealize.ShloMosaic.Tactic Idealize.SL Idealize.SL.Sem
open Cert.KernelIdeal Cert.KernelIdeal.Gen

variable {F : FTy → Type} [FloatOps F]

/-- The source (row 0) or destination (row 1) node of every edge, as a vector. -/
def edgeRow0 (ei : (⟨S2x1200000, .i32⟩ : BufTy).Contents (Elt F)) : (⟨S1200000, .i32⟩ : BufTy).Contents (Elt F) :=
  shapeCast S1200000 (extractStridedSlice S1x1200000 ![0, 0] ei slices_S2x1200000_S1x1200000_0_0) shapeCasts_S1x1200000_S1200000
def edgeRow1 (ei : (⟨S2x1200000, .i32⟩ : BufTy).Contents (Elt F)) : (⟨S1200000, .i32⟩ : BufTy).Contents (Elt F) :=
  shapeCast S1200000 (extractStridedSlice S1x1200000 ![1, 0] ei slices_S2x1200000_S1x1200000_1_0) shapeCasts_S1x1200000_S1200000

/-- The source indices with negative ones wrapped by the node count, as a column. -/
def srcCol (ei : (⟨S2x1200000, .i32⟩ : BufTy).Contents (Elt F)) : (⟨S1200000x1, .i32⟩ : BufTy).Contents (Elt F) :=
  broadcastInDim S1200000x1 ![0] bcast_S1200000_S1200000x1_0
    (select (cmpi .slt (edgeRow0 ei) (broadcastInDim S1200000 ![] bcast_S_S1200000 (constantI S_ 32 0#32)))
      (addi (edgeRow0 ei) (broadcastInDim S1200000 ![] bcast_S_S1200000 (constantI S_ 32 100000#32))) (edgeRow0 ei))
/-- The destination indices as a column. -/
def dstCol (ei : (⟨S2x1200000, .i32⟩ : BufTy).Contents (Elt F)) : (⟨S1200000x1, .i32⟩ : BufTy).Contents (Elt F) :=
  broadcastInDim S1200000x1 ![0] bcast_S1200000_S1200000x1_0 (edgeRow1 ei)

/-- The neighbour sum: the gathered source rows added into zeros at the destination rows. -/
def aggK (x : (⟨S100000x64, .f32⟩ : BufTy).Contents (Elt F)) (ei : (⟨S2x1200000, .i32⟩ : BufTy).Contents (Elt F)) :
    (⟨S100000x64, .f32⟩ : BufTy).Contents (Elt F) :=
  Host.scatterAdd scatter_S100000x64_S1200000x1_S1200000x64_1_0_0_1
    (broadcastInDim S100000x64 ![] bcast_S_S100000x64 (constant S_ .f32 0x00000000#32)) (dstCol ei)
    (Host.gather gather_S100000x64_S1200000x1_S1200000x64_1_0_n_n_0_1_164 x (srcCol ei))

/-- A [64] vector as a [1,64] row. -/
def asRow (v : (⟨S64, .f32⟩ : BufTy).Contents (Elt F)) : (⟨S1x64, .f32⟩ : BufTy).Contents (Elt F) :=
  shapeCast S1x64 v shapeCasts_S64_S1x64

/-- The two halves of a [2,1,64] array added up, over 100000. -/
def meanOf (s1 : (⟨S2x1x64, .f32⟩ : BufTy).Contents (Elt F)) : (⟨S64, .f32⟩ : BufTy).Contents (Elt F) :=
  Host.divf (Host.reduceAdd (shapeCast S2x64 s1 shapeCasts_S2x1x64_S2x64) (constant S_ .f32 0x00000000#32) reducesTo_S2x64_S64_d0 h_S_)
    (broadcastInDim S64 ![] bcast_S_S64 (constant S_ .f32 0x47C35000#32))
/-- The mean of squares minus the squared mean, clamped at zero. -/
def varOf (s1 s2 : (⟨S2x1x64, .f32⟩ : BufTy).Contents (Elt F)) : (⟨S64, .f32⟩ : BufTy).Contents (Elt F) :=
  maximumf (subf (meanOf s2) (mulf (meanOf s1) (meanOf s1))) (broadcastInDim S64 ![] bcast_S_S64 (constant S_ .f32 0x00000000#32))

variable (m : (ℓ : Loc nD τ sig) → Buf (Elt F) ℓ) (c : Dev nD)

/-! ## Region 0's operands -/

theorem V1_arg0 : V1 m c main_arg0 = m ((c : Thread nD τ).loc main_arg0) := W1_keep m c main_arg0 (by decide)
theorem V1_arg2 : V1 m c main_arg2 = m ((c : Thread nD τ).loc main_arg2) := W1_keep m c main_arg2 (by decide)
theorem V1_v13 : (V1 m c main_v13 : (⟨S100000x64, .f32⟩ : BufTy).Contents (Elt F))
    = aggK (m ((c : Thread nD τ).loc main_arg0)) (m ((c : Thread nD τ).loc main_arg1)) := by
  dsimp only [V1, W1, hostOps0]; after_results; rfl
theorem V1_v14 : (V1 m c main_v14 : (⟨S1x64, .f32⟩ : BufTy).Contents (Elt F)) = asRow (m ((c : Thread nD τ).loc main_arg3)) := by
  dsimp only [V1, W1, hostOps0]; after_results; rfl
theorem V1_v15 : (V1 m c main_v15 : (⟨S1x64, .f32⟩ : BufTy).Contents (Elt F)) = asRow (m ((c : Thread nD τ).loc main_arg7)) := by
  dsimp only [V1, W1, hostOps0]; after_results; rfl
theorem V1_v16 : (V1 m c main_v16 : (⟨S1x64, .f32⟩ : BufTy).Contents (Elt F)) = asRow (m ((c : Thread nD τ).loc main_arg4)) := by
  dsimp only [V1, W1, hostOps0]; after_results; rfl
theorem V1_v17 : (V1 m c main_v17 : (⟨S1x64, .f32⟩ : BufTy).Contents (Elt F)) = asRow (m ((c : Thread nD τ).loc main_arg5)) := by
  dsimp only [V1, W1, hostOps0]; after_results; rfl

/-! ## Region 1's operands -/

theorem V3_v18_0 : V3 m c main_v18_0 = (dat0 (V1 m) c).arrAt 4 cfg0.N :=
  (W3_keep m c main_v18_0 (by decide)).trans (W2_arr m c 4)
theorem V2_v18_1 : V2 m c main_v18_1 = (dat0 (V1 m) c).arrAt 5 cfg0.N := W2_arr m c 5
theorem V2_v18_2 : V2 m c main_v18_2 = (dat0 (V1 m) c).arrAt 6 cfg0.N := W2_arr m c 6
theorem V3_v16 : (V3 m c main_v16 : (⟨S1x64, .f32⟩ : BufTy).Contents (Elt F)) = asRow (m ((c : Thread nD τ).loc main_arg4)) :=
  (W3_keep m c main_v16 (by decide)).trans ((W2_of_ne m c main_v16 (by decide)).trans (V1_v16 m c))
theorem V3_v17 : (V3 m c main_v17 : (⟨S1x64, .f32⟩ : BufTy).Contents (Elt F)) = asRow (m ((c : Thread nD τ).loc main_arg5)) :=
  (W3_keep m c main_v17 (by decide)).trans ((W2_of_ne m c main_v17 (by decide)).trans (V1_v17 m c))
theorem V3_v15 : (V3 m c main_v15 : (⟨S1x64, .f32⟩ : BufTy).Contents (Elt F)) = asRow (m ((c : Thread nD τ).loc main_arg7)) :=
  (W3_keep m c main_v15 (by decide)).trans ((W2_of_ne m c main_v15 (by decide)).trans (V1_v15 m c))
theorem V3_arg6 : V3 m c main_arg6 = m ((c : Thread nD τ).loc main_arg6) :=
  (W3_keep m c main_arg6 (by decide)).trans ((W2_of_ne m c main_arg6 (by decide)).trans (W1_keep m c main_arg6 (by decide)))
theorem V3_v31 : (V3 m c main_v31 : (⟨S1x64, .f32⟩ : BufTy).Contents (Elt F)) = asRow (meanOf (V2 m c main_v18_1)) := by
  dsimp only [V3, W3, hostOps1]; after_results; rfl
theorem V3_v32 : (V3 m c main_v32 : (⟨S1x64, .f32⟩ : BufTy).Contents (Elt F))
    = asRow (varOf (V2 m c main_v18_1) (V2 m c main_v18_2)) := by
  dsimp only [V3, W3, hostOps1]; after_results; rfl

end Cert.KernelIdeal.Hand

end
-- ==== Proof.Spec.lean ====
/-
  The mathematics both programs compute, as plain functions on the extended reals.

  A node's hidden row is `hid`: the node's features plus the sum of its in-neighbours' features, through the
  first linear layer.  Batch normalisation needs, per feature column, the mean and the variance over all
  100000 nodes.  The reference takes the textbook mean and the mean of squared deviations (`meanR`, `varR`).
  The kernel walks the rows in ten blocks of 10000, keeps per half (five blocks) a running sum of the column
  and of its squares (`accAfter`), adds the two halves (`total`), and forms E[h²] − E[h]² clamped at zero
  (`meanK`, `varK`).  Everything after the statistics (`tail`) is the same expression on both sides.
-/
import Idealize.ShloMosaic.PureOps.Ideal
import Idealize.ShloMosaic.Lib.ValueIdx

noncomputable section

namespace Cert.Spec

open Idealize.ShloMosaic Idealize.ShloMosaic.ValueIdx

abbrev SN : Shape := ⟨2, ![100000, 64]⟩
abbrev SW : Shape := ⟨2, ![64, 64]⟩
abbrev SV : Shape := ⟨1, ![64]⟩

/-- The batch-norm epsilon's word and the node count's word, as both programs spell them. -/
def epsW : EReal := Ideal.ofBits .f32 0x3727C5AC#32
def nW : EReal := Ideal.ofBits .f32 0x47C35000#32

/-- Row `r` of block `t` (ten blocks of 10000 rows). -/
def rowOf (t : Fin 10) (r : Fin 10000) : Fin 100000 := ⟨10000 * t.val + r.val, by omega⟩

/-- The hidden layer before normalisation at node `p`, feature `k`. -/
def hid (x agg : SN.Idx → EReal) (W1 : SW.Idx → EReal) (b1 : SV.Idx → EReal) (p : Fin 100000) (k : Fin 64) : EReal :=
  (∑ j : Fin 64, (x (ix2 p j) + agg (ix2 p j)) * W1 (ix2 j k)) + b1 (ix1 k)

/-- Everything after the statistics: normalise, scale, shift, rectify, second linear layer, rectify. -/
def tail (h : Fin 100000 → Fin 64 → EReal) (mean var : Fin 64 → EReal) (gamma beta : SV.Idx → EReal)
    (W2 : SW.Idx → EReal) (b2 : SV.Idx → EReal) (p : Fin 100000) (q : Fin 64) : EReal :=
  max ((∑ k : Fin 64, max ((((h p k - mean k) * Ideal.rsqrt (var k + epsW)) * gamma (ix1 k)) + beta (ix1 k)) 0
      * W2 (ix2 k q)) + b2 (ix1 q)) 0

/-! ## The reference's statistics of one column `f` -/

def meanR (f : Fin 100000 → EReal) : EReal := Ideal.div (0 + ∑ p : Fin 100000, f p) nW
def varR (f : Fin 100000 → EReal) : EReal :=
  Ideal.div (0 + ∑ p : Fin 100000, (f p - meanR f) * (f p - meanR f)) nW

/-! ## The kernel's statistics of one column `f` -/

/-- The sum of the column over block `t`. -/
def blockSum (f : Fin 100000 → EReal) (t : Fin 10) : EReal := ∑ r : Fin 10000, f (rowOf t r)

/-- The running sum of half `c` after its inner step `i`: reset to zero at the half's first block. -/
def accAfter (f : Fin 100000 → EReal) (c : Fin 2) : (i : ℕ) → i < 5 → EReal
  | 0, _ => 0 + blockSum f ⟨5 * c.val, by omega⟩
  | i + 1, h => accAfter f c i (by omega) + blockSum f ⟨5 * c.val + (i + 1), by omega⟩

/-- The two halves added on the host. -/
def total (f : Fin 100000 → EReal) : EReal := 0 + ∑ c : Fin 2, accAfter f c 4 (by omega)

def meanK (f : Fin 100000 → EReal) : EReal := Ideal.div (total f) nW
def varK (f : Fin 100000 → EReal) : EReal :=
  max (Ideal.div (total fun p => f p * f p) nW - meanK f * meanK f) 0

end Cert.Spec

end
-- ==== Proof.KIHostRead.lean ====
/-
  The host operations between the regions read at an index, on the extended reals: a [64] vector as a [1,64]
  row reads the vector; the mean at column k is the two halves' entries added from zero, over the node count;
  the variance is the mean of squares minus the squared mean, clamped at zero.
-/
import proofs.«120235_j55783035240590_2_alg».proof.Proof.KIHost
import proofs.«120235_j55783035240590_2_alg».proof.Proof.Spec
import Idealize.ShloMosaic.Lib.IdealHost
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.ValueIdx
open Cert.KernelIdeal Cert.KernelIdeal.Gen

theorem asRow_apply (v : FVec Ideal S64 .f32) (k : Fin 64) : asRow (F := Ideal) v (ix2 (0 : Fin 1) k) = v (ix1 k) := by
  unfold asRow
  exact shapeCast_a_1a_apply v shapeCasts_S64_S1x64 0 k

theorem zeroWord : Ideal.ofBits .f32 0x00000000#32 = 0 := Ideal.ofBits_zero_f32

/-- The [2,1,64] array flattened to [2,64] and summed over its first axis from zero, at column k. -/
theorem halves_sum_apply (s1 : FVec Ideal S2x1x64 .f32) (k : Fin 64) :
    Host.reduceAdd (shapeCast S2x64 s1 shapeCasts_S2x1x64_S2x64) (constant (F := Ideal) S_ .f32 0x00000000#32) reducesTo_S2x64_S64_d0 h_S_ (ix1 k)
      = 0 + ∑ c : Fin 2, s1 (ix3 c (0 : Fin 1) k) := by
  rw [hostReduceAdd_apply]
  refine (Ideal.hostReduceAdd_single reducesTo_S2x64_S64_d0 (by decide : S2x64.Reduces [0] S64) _ _ (ix1 k)).trans ?_
  rw [constant_apply, zeroWord]
  refine congrArg (fun z => (0 : EReal) + z) ?_
  refine Finset.sum_congr rfl fun c _ => ?_
  refine shapeCast_apply s1 shapeCasts_S2x1x64_S2x64 _ (ix3 c (0 : Fin 1) k) ?_
  rw [Shape.rowMajor_val_two, Shape.rowMajor_val_three]
  show (c.val * 1 + 0) * 64 + k.val = c.val * 64 + k.val
  omega

theorem meanOf_apply (s1 : FVec Ideal S2x1x64 .f32) (k : Fin 64) :
    meanOf (F := Ideal) s1 (ix1 k) = Ideal.div (0 + ∑ c : Fin 2, s1 (ix3 c (0 : Fin 1) k)) Cert.Spec.nW := by
  unfold meanOf
  rw [hostDivf_apply, halves_sum_apply, broadcastInDim_scalar_apply, constant_apply]
  rfl

theorem varOf_apply (s1 s2 : FVec Ideal S2x1x64 .f32) (k : Fin 64) :
    varOf (F := Ideal) s1 s2 (ix1 k) = max (meanOf (F := Ideal) s2 (ix1 k) - meanOf (F := Ideal) s1 (ix1 k) * meanOf (F := Ideal) s1 (ix1 k)) 0 := by
  unfold varOf
  rw [maximumf_apply, subf_apply, mulf_apply, broadcastInDim_scalar_apply, constant_apply, zeroWord]

end Cert.KernelIdeal.Hand

end
-- ==== Proof.KIRegion0Val.lean ====
/-
  Region 0, the VALUES.  What each case's stores leave, read back as the printed payloads of the point's blocks:
  the block output is the hidden block rounded to bf16 (`k0_pay6`); the column-sum row is the previous row (the zero
  row at a reset point) plus the block's column sums (`k0_pay7`); the sum-of-squares row likewise (`k0_pay8`); at a
  copy-out point the two small outputs are the two new rows reshaped (`k0_pay1`, `k0_pay2`).  Then the same facts at
  every grid point, through the recursion `outsAt0`.
-/
import proofs.«120235_j55783035240590_2_alg».proof.Proof.KIRegion0
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-! ## One lemma per buffer and case -/

/-- Case A: the block output holds the hidden block of the four input blocks, rounded to bf16. -/
theorem out0_A_4_eq (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S10000x64 .f32) (x1 : Vec F S10000x64 .f32) (x2 : Vec F S64x64 .f32) (x3 : Vec F S1x64 .f32) :
    out0_A_4 c i arg2 harg2 arg3 harg3 arg4 harg4 arg5 harg5 arg6 harg6 arg7 harg7 arg8 harg8 arg9 harg9 arg10 harg10 hc0 hc1 x0 x1 x2 x3 = k0_pay6 x0 x1 x2 x3 := by
  unfold out0_A_4
  rw [View.read_writes_eq_canon _ _ _ (cover0_A_4 c i arg2 harg2 arg3 harg3 arg4 harg4 arg5 harg5 arg6 harg6 arg7 harg7 arg8 harg8 arg9 harg9 arg10 harg10 hc0 hc1 x0 x1 x2 x3)]
  unfold kernelRun0_A
  dsimp only
  (try sl_unfold_words)
  rw [View.canon_unit_zero (S := S10000x64) hz2]
  simp only [View.readAt_eq_ld, harg2.read_unread, harg3.read_unread, harg4.read_unread, harg5.read_unread, harg9.read_unread, harg10.read_unread,
    View.ld_unit_zero (S := S10000x64) hz2, View.ld_unit_zero (S := S64x64) hz2, View.ld_unit_zero (S := S1x64) hz2]
/-- Case A: the column-sum row is the zero row (stored by the reset, read back) plus the block's column sums. -/
theorem sout0_A_0_eq (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S10000x64 .f32) (x1 : Vec F S10000x64 .f32) (x2 : Vec F S64x64 .f32) (x3 : Vec F S1x64 .f32) :
    sout0_A_0 c i arg2 harg2 arg3 harg3 arg4 harg4 arg5 harg5 arg6 harg6 arg7 harg7 arg8 harg8 arg9 harg9 arg10 harg10 hc0 hc1 x0 x1 x2 x3 = k0_pay7 x0 x1 x2 x3 (k0_pay3 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3)]
  unfold kernelRun0_A
  dsimp only
  (try sl_unfold_words)
  rw [View.canon_cons_unit_zero (S := S1x64) hz2, View.readCov_unit_zero (S := S1x64) _ hz2]
  simp only [View.readAt_eq_ld, harg2.read_unread, harg3.read_unread, harg4.read_unread, harg5.read_unread, harg9.read_unread, harg10.read_unread,
    View.ld_unit_zero (S := S10000x64) hz2, View.ld_unit_zero (S := S64x64) hz2, View.ld_unit_zero (S := S1x64) hz2]
/-- Case A: the sum-of-squares row is the zero row plus the block's column sums of squares. -/
theorem sout0_A_1_eq (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : cond0_0 i) (hc1 : ¬cond0_1 i)
    (x0 : Vec F S10000x64 .f32) (x1 : Vec F S10000x64 .f32) (x2 : Vec F S64x64 .f32) (x3 : Vec F S1x64 .f32) :
    sout0_A_1 c i arg2 harg2 arg3 harg3 arg4 harg4 arg5 harg5 arg6 harg6 arg7 harg7 arg8 harg8 arg9 harg9 arg10 harg10 hc0 hc1 x0 x1 x2 x3 = k0_pay8 x0 x1 x2 x3 (k0_pay4 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3)]
  unfold kernelRun0_A
  dsimp only
  (try sl_unfold_words)
  rw [View.canon_cons_unit_zero (S := S1x64) hz2, View.readCov_unit_zero (S := S1x64) _ hz2]
  simp only [View.readAt_eq_ld, harg2.read_unread, harg3.read_unread, harg4.read_unread, harg5.read_unread, harg9.read_unread, harg10.read_unread,
    View.ld_unit_zero (S := S10000x64) hz2, View.ld_unit_zero (S := S64x64) hz2, View.ld_unit_zero (S := S1x64) hz2]
/-- Case B: the block output holds the hidden block of the four input blocks, rounded to bf16. -/
theorem out0_B_4_eq (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S10000x64 .f32) (x1 : Vec F S10000x64 .f32) (x2 : Vec F S64x64 .f32) (x3 : Vec F S1x64 .f32) (xs0 : Vec F S1x64 .f32) (xs1 : Vec F S1x64 .f32) :
    out0_B_4 c i arg2 harg2 arg3 harg3 arg4 harg4 arg5 harg5 arg6 harg6 arg7 harg7 arg8 harg8 arg9 harg9 arg10 harg10 hc0 hc1 x0 x1 x2 x3 xs0 xs1 = k0_pay6 x0 x1 x2 x3 := by
  unfold out0_B_4
  rw [View.read_writes_eq_canon _ _ _ (cover0_B_4 c i arg2 harg2 arg3 harg3 arg4 harg4 arg5 harg5 arg6 harg6 arg7 harg7 arg8 harg8 arg9 harg9 arg10 harg10 hc0 hc1 x0 x1 x2 x3 xs0 xs1)]
  unfold kernelRun0_B
  dsimp only
  (try sl_unfold_words)
  rw [View.canon_unit_zero (S := S10000x64) hz2]
  simp only [View.readAt_eq_ld, harg2.read_unread, harg3.read_unread, harg4.read_unread, harg5.read_unread, harg9.read_unread, harg10.read_unread,
    View.ld_unit_zero (S := S10000x64) hz2, View.ld_unit_zero (S := S64x64) hz2, View.ld_unit_zero (S := S1x64) hz2]
/-- Case B: the column-sum row is the row the point found plus the block's column sums. -/
theorem sout0_B_0_eq (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S10000x64 .f32) (x1 : Vec F S10000x64 .f32) (x2 : Vec F S64x64 .f32) (x3 : Vec F S1x64 .f32) (xs0 : Vec F S1x64 .f32) (xs1 : Vec F S1x64 .f32) :
    sout0_B_0 c i arg2 harg2 arg3 harg3 arg4 harg4 arg5 harg5 arg6 harg6 arg7 harg7 arg8 harg8 arg9 harg9 arg10 harg10 hc0 hc1 x0 x1 x2 x3 xs0 xs1 = k0_pay7 x0 x1 x2 x3 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 xs0 xs1)]
  unfold kernelRun0_B
  dsimp only
  (try sl_unfold_words)
  rw [View.canon_unit_zero (S := S1x64) hz2]
  simp only [View.readAt_eq_ld, harg2.read_unread, harg3.read_unread, harg4.read_unread, harg5.read_unread, harg9.read_unread, harg10.read_unread,
    View.ld_unit_zero (S := S10000x64) hz2, View.ld_unit_zero (S := S64x64) hz2, View.ld_unit_zero (S := S1x64) hz2]
/-- Case B: the sum-of-squares row is the row the point found plus the block's column sums of squares. -/
theorem sout0_B_1_eq (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : ¬cond0_1 i)
    (x0 : Vec F S10000x64 .f32) (x1 : Vec F S10000x64 .f32) (x2 : Vec F S64x64 .f32) (x3 : Vec F S1x64 .f32) (xs0 : Vec F S1x64 .f32) (xs1 : Vec F S1x64 .f32) :
    sout0_B_1 c i arg2 harg2 arg3 harg3 arg4 harg4 arg5 harg5 arg6 harg6 arg7 harg7 arg8 harg8 arg9 harg9 arg10 harg10 hc0 hc1 x0 x1 x2 x3 xs0 xs1 = k0_pay8 x0 x1 x2 x3 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 xs0 xs1)]
  unfold kernelRun0_B
  dsimp only
  (try sl_unfold_words)
  rw [View.canon_unit_zero (S := S1x64) hz2]
  simp only [View.readAt_eq_ld, harg2.read_unread, harg3.read_unread, harg4.read_unread, harg5.read_unread, harg9.read_unread, harg10.read_unread,
    View.ld_unit_zero (S := S10000x64) hz2, View.ld_unit_zero (S := S64x64) hz2, View.ld_unit_zero (S := S1x64) hz2]
/-- Case C: the block output holds the hidden block of the four input blocks, rounded to bf16. -/
theorem out0_C_4_eq (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S10000x64 .f32) (x1 : Vec F S10000x64 .f32) (x2 : Vec F S64x64 .f32) (x3 : Vec F S1x64 .f32) (xs0 : Vec F S1x64 .f32) (xs1 : Vec F S1x64 .f32) :
    out0_C_4 c i arg2 harg2 arg3 harg3 arg4 harg4 arg5 harg5 arg6 harg6 arg7 harg7 arg8 harg8 arg9 harg9 arg10 harg10 hc0 hc1 x0 x1 x2 x3 xs0 xs1 = k0_pay6 x0 x1 x2 x3 := by
  unfold out0_C_4
  rw [View.read_writes_eq_canon _ _ _ (cover0_C_4 c i arg2 harg2 arg3 harg3 arg4 harg4 arg5 harg5 arg6 harg6 arg7 harg7 arg8 harg8 arg9 harg9 arg10 harg10 hc0 hc1 x0 x1 x2 x3 xs0 xs1)]
  unfold kernelRun0_C
  dsimp only
  (try sl_unfold_words)
  rw [View.canon_unit_zero (S := S10000x64) hz2]
  simp only [View.readAt_eq_ld, harg2.read_unread, harg3.read_unread, harg4.read_unread, harg5.read_unread, harg9.read_unread, harg10.read_unread,
    View.ld_unit_zero (S := S10000x64) hz2, View.ld_unit_zero (S := S64x64) hz2, View.ld_unit_zero (S := S1x64) hz2]
/-- Case C: the column-sum row is the row the point found plus the block's column sums. -/
theorem sout0_C_0_eq (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S10000x64 .f32) (x1 : Vec F S10000x64 .f32) (x2 : Vec F S64x64 .f32) (x3 : Vec F S1x64 .f32) (xs0 : Vec F S1x64 .f32) (xs1 : Vec F S1x64 .f32) :
    sout0_C_0 c i arg2 harg2 arg3 harg3 arg4 harg4 arg5 harg5 arg6 harg6 arg7 harg7 arg8 harg8 arg9 harg9 arg10 harg10 hc0 hc1 x0 x1 x2 x3 xs0 xs1 = k0_pay7 x0 x1 x2 x3 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 xs0 xs1)]
  unfold kernelRun0_C
  dsimp only
  (try sl_unfold_words)
  rw [View.canon_unit_zero (S := S1x64) hz2]
  simp only [View.readAt_eq_ld, harg2.read_unread, harg3.read_unread, harg4.read_unread, harg5.read_unread, harg9.read_unread, harg10.read_unread,
    View.ld_unit_zero (S := S10000x64) hz2, View.ld_unit_zero (S := S64x64) hz2, View.ld_unit_zero (S := S1x64) hz2]
/-- Case C: the sum-of-squares row is the row the point found plus the block's column sums of squares. -/
theorem sout0_C_1_eq (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S10000x64 .f32) (x1 : Vec F S10000x64 .f32) (x2 : Vec F S64x64 .f32) (x3 : Vec F S1x64 .f32) (xs0 : Vec F S1x64 .f32) (xs1 : Vec F S1x64 .f32) :
    sout0_C_1 c i arg2 harg2 arg3 harg3 arg4 harg4 arg5 harg5 arg6 harg6 arg7 harg7 arg8 harg8 arg9 harg9 arg10 harg10 hc0 hc1 x0 x1 x2 x3 xs0 xs1 = k0_pay8 x0 x1 x2 x3 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 xs0 xs1)]
  unfold kernelRun0_C
  dsimp only
  (try sl_unfold_words)
  rw [View.canon_unit_zero (S := S1x64) hz2]
  simp only [View.readAt_eq_ld, harg2.read_unread, harg3.read_unread, harg4.read_unread, harg5.read_unread, harg9.read_unread, harg10.read_unread,
    View.ld_unit_zero (S := S10000x64) hz2, View.ld_unit_zero (S := S64x64) hz2, View.ld_unit_zero (S := S1x64) hz2]
/-- Case C: the column-sum output is the new column-sum row (read back after its store), reshaped. -/
theorem out0_C_5_eq (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S10000x64 .f32) (x1 : Vec F S10000x64 .f32) (x2 : Vec F S64x64 .f32) (x3 : Vec F S1x64 .f32) (xs0 : Vec F S1x64 .f32) (xs1 : Vec F S1x64 .f32) :
    out0_C_5 c i arg2 harg2 arg3 harg3 arg4 harg4 arg5 harg5 arg6 harg6 arg7 harg7 arg8 harg8 arg9 harg9 arg10 harg10 hc0 hc1 x0 x1 x2 x3 xs0 xs1 = k0_pay1 (k0_pay7 x0 x1 x2 x3 xs0) := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 x3 xs0 xs1)]
  unfold kernelRun0_C
  dsimp only
  (try sl_unfold_words)
  rw [View.canon_unit_zero (S := S1x1x64) hz3, View.readCov_unit_zero (S := S1x64) _ hz2]
  simp only [View.readAt_eq_ld, harg2.read_unread, harg3.read_unread, harg4.read_unread, harg5.read_unread, harg9.read_unread, harg10.read_unread,
    View.ld_unit_zero (S := S10000x64) hz2, View.ld_unit_zero (S := S64x64) hz2, View.ld_unit_zero (S := S1x64) hz2]
/-- Case C: the sum-of-squares output is the new sum-of-squares row, reshaped. -/
theorem out0_C_6_eq (c : Dev nD) (i : grid0.Coords) (arg2 : Memref sig .tc .vmem S10000x64 .f32) (harg2 : arg2.IsWhole) (arg3 : Memref sig .tc .vmem S10000x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .bf16) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x64 .f32) (harg9 : arg9.IsWhole) (arg10 : Memref sig .tc .vmem S1x64 .f32) (harg10 : arg10.IsWhole) (hc0 : ¬cond0_0 i) (hc1 : cond0_1 i)
    (x0 : Vec F S10000x64 .f32) (x1 : Vec F S10000x64 .f32) (x2 : Vec F S64x64 .f32) (x3 : Vec F S1x64 .f32) (xs0 : Vec F S1x64 .f32) (xs1 : Vec F S1x64 .f32) :
    out0_C_6 c i arg2 harg2 arg3 harg3 arg4 harg4 arg5 harg5 arg6 harg6 arg7 harg7 arg8 harg8 arg9 harg9 arg10 harg10 hc0 hc1 x0 x1 x2 x3 xs0 xs1 = k0_pay2 (k0_pay8 x0 x1 x2 x3 xs1) := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 x3 xs0 xs1)]
  unfold kernelRun0_C
  dsimp only
  (try sl_unfold_words)
  rw [View.canon_unit_zero (S := S1x1x64) hz3, View.readCov_unit_zero (S := S1x64) _ hz2]
  simp only [View.readAt_eq_ld, harg2.read_unread, harg3.read_unread, harg4.read_unread, harg5.read_unread, harg9.read_unread, harg10.read_unread,
    View.ld_unit_zero (S := S10000x64) hz2, View.ld_unit_zero (S := S64x64) hz2, View.ld_unit_zero (S := S1x64) hz2]

/-! ## At every grid point -/

section
variable (V : (c : Dev nD) → (b : Ref sig .tc) → Buf (Elt F) ((c : Thread nD τ).loc b))

/-- The column-sum row after point `n`. -/
def scr0 (c : Dev nD) (n : ℕ) (hn : n < cfg0.N) : Vec F S1x64 .f32 := (outsAt0 V c n hn).2.2.2.1
/-- The sum-of-squares row after point `n`. -/
def scr1 (c : Dev nD) (n : ℕ) (hn : n < cfg0.N) : Vec F S1x64 .f32 := (outsAt0 V c n hn).2.2.2.2

/-- After every point the block output's buffer holds the point's hidden block, rounded to bf16. -/
theorem val0_4 (c : Dev nD) (t : Fin cfg0.N) :
    (dat0 V c).after 4 t = k0_pay6 (iblk0 V c 0 t) (iblk0 V c 1 t) (iblk0 V c 2 t) (iblk0 V c 3 t) := by
  rw [after0_4]
  by_cases h0 : t.val % 5 = 0
  · have h1 : ¬t.val % 5 = 4 := by omega
    rw [outsAt0_A V c t h0 h1]; unfold ptA; dsimp only
    exact out0_A_4_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t)
  · by_cases h1 : t.val % 5 = 4
    · rw [outsAt0_C V c t h0 h1]; unfold ptC; dsimp only
      exact out0_C_4_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2
    · rw [outsAt0_B V c t h0 h1]; unfold ptB; dsimp only
      exact out0_B_4_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2

/-- At a reset point the column-sum row restarts from the zero row. -/
theorem scr0_reset (c : Dev nD) (t : Fin cfg0.N) (h : t.val % 5 = 0) :
    scr0 V c t.val t.isLt = k0_pay7 (iblk0 V c 0 t) (iblk0 V c 1 t) (iblk0 V c 2 t) (iblk0 V c 3 t) (k0_pay3 (F := F)) := by
  have h0 := h
  have h1 : ¬t.val % 5 = 4 := by omega
  unfold scr0
  rw [outsAt0_A V c t h0 h1]; unfold ptA; dsimp only
  exact sout0_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t)

/-- At any other point it continues from the row the point before left. -/
theorem scr0_step (c : Dev nD) (t : Fin cfg0.N) (h : t.val % 5 ≠ 0) :
    scr0 V c t.val t.isLt = k0_pay7 (iblk0 V c 0 t) (iblk0 V c 1 t) (iblk0 V c 2 t) (iblk0 V c 3 t) (scr0 V c (t.val - 1) (Nat.lt_of_le_of_lt (Nat.sub_le _ _) t.isLt)) := by
  have h0 : ¬t.val % 5 = 0 := h
  unfold scr0
  by_cases h1 : t.val % 5 = 4
  · rw [outsAt0_C V c t h0 h1]; unfold ptC; dsimp only
    exact sout0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2
  · rw [outsAt0_B V c t h0 h1]; unfold ptB; dsimp only
    exact sout0_B_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2

/-- At a reset point the sum-of-squares row restarts from the zero row. -/
theorem scr1_reset (c : Dev nD) (t : Fin cfg0.N) (h : t.val % 5 = 0) :
    scr1 V c t.val t.isLt = k0_pay8 (iblk0 V c 0 t) (iblk0 V c 1 t) (iblk0 V c 2 t) (iblk0 V c 3 t) (k0_pay4 (F := F)) := by
  have h0 := h
  have h1 : ¬t.val % 5 = 4 := by omega
  unfold scr1
  rw [outsAt0_A V c t h0 h1]; unfold ptA; dsimp only
  exact sout0_A_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t)

/-- At any other point it continues from the row the point before left. -/
theorem scr1_step (c : Dev nD) (t : Fin cfg0.N) (h : t.val % 5 ≠ 0) :
    scr1 V c t.val t.isLt = k0_pay8 (iblk0 V c 0 t) (iblk0 V c 1 t) (iblk0 V c 2 t) (iblk0 V c 3 t) (scr1 V c (t.val - 1) (Nat.lt_of_le_of_lt (Nat.sub_le _ _) t.isLt)) := by
  have h0 : ¬t.val % 5 = 0 := h
  unfold scr1
  by_cases h1 : t.val % 5 = 4
  · rw [outsAt0_C V c t h0 h1]; unfold ptC; dsimp only
    exact sout0_C_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2
  · rw [outsAt0_B V c t h0 h1]; unfold ptB; dsimp only
    exact sout0_B_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2

/-- At a copy-out point the column-sum output's buffer holds the point's new column-sum row, reshaped. -/
theorem val0_5 (c : Dev nD) (t : Fin cfg0.N) (h : t.val % 5 = 4) :
    (dat0 V c).after 5 t = k0_pay1 (scr0 V c t.val t.isLt) := by
  have h1 := h
  have h0 : ¬t.val % 5 = 0 := by omega
  rw [after0_5]; unfold scr0
  rw [outsAt0_C V c t h0 h1]; unfold ptC; dsimp only
  exact (out0_C_5_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2).trans
    (congrArg (k0_pay1 (F := F)) (sout0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2).symm)

/-- At a copy-out point the sum-of-squares output's buffer holds the point's new sum-of-squares row, reshaped. -/
theorem val0_6 (c : Dev nD) (t : Fin cfg0.N) (h : t.val % 5 = 4) :
    (dat0 V c).after 6 t = k0_pay2 (scr1 V c t.val t.isLt) := by
  have h1 := h
  have h0 : ¬t.val % 5 = 0 := by omega
  rw [after0_6]; unfold scr1
  rw [outsAt0_C V c t h0 h1]; unfold ptC; dsimp only
  exact (out0_C_6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2).trans
    (congrArg (k0_pay2 (F := F)) (sout0_C_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2).symm)

end

end Cert.KernelIdeal.Hand

end
-- ==== Proof.LibDotPlain.lean ====
/-
  A matrix product with one contracted axis, read at an entry.

  For dimension numbers `D` of a product [N, K] × [K, M] → [N, M] that contract the left operand's axis 1 against the
  right operand's axis 0, the sum over the contraction's index set of the products of the operands read at `D`'s operand
  indices is the plain sum over `k : Fin K` of `l (p, k) · r (k, q)`. The four hypotheses say where `D` reads its
  operands, coordinate by coordinate; for printed dimension numbers each is one line (the two non-contracted
  coordinates by unfolding the index function, the two contracted ones by `DotDims.lhsIdx_val_of_single` and
  `DotDims.rhsIdx_val_of_single`).
-/
import Idealize.ShloMosaic.PureOps.Ideal
import Idealize.ShloMosaic.PureOps.Ideal.Laws
import Idealize.ShloMosaic.Lib.ValueIdx

noncomputable section

open scoped BigOperators

namespace Cert.LibDotPlain

open Idealize.ShloMosaic Idealize.ShloMosaic.ValueIdx

/-- The contraction's sum, re-indexed by the contracted coordinate. -/
theorem sum_contr_plain {N K M : Nat} {α : Type} [AddCommMonoid α] [Mul α]
    (D : DotDims ⟨2, ![N, K]⟩ ⟨2, ![K, M]⟩ ⟨2, ![N, M]⟩)
    (hr : D.contr.rank = 1) (hs : D.contr.size ⟨0, by omega⟩ = K)
    (hl0 : ∀ (i : (⟨2, ![N, M]⟩ : Shape).Idx) (k : D.contr.Idx), (D.lhsIdx i k 0).val = (i 0).val)
    (hl1 : ∀ (i : (⟨2, ![N, M]⟩ : Shape).Idx) (k : D.contr.Idx), (D.lhsIdx i k 1).val = (k ⟨0, by omega⟩).val)
    (hr0 : ∀ (i : (⟨2, ![N, M]⟩ : Shape).Idx) (k : D.contr.Idx), (D.rhsIdx i k 0).val = (k ⟨0, by omega⟩).val)
    (hr1 : ∀ (i : (⟨2, ![N, M]⟩ : Shape).Idx) (k : D.contr.Idx), (D.rhsIdx i k 1).val = (i 1).val)
    (l : (⟨2, ![N, K]⟩ : Shape).Idx → α) (r : (⟨2, ![K, M]⟩ : Shape).Idx → α) (p : Fin N) (q : Fin M) :
    ∑ k : D.contr.Idx, l (D.lhsIdx (ix2 p q) k) * r (D.rhsIdx (ix2 p q) k) = ∑ k : Fin K, l (ix2 p k) * r (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A matrix-unit product into a zero accumulator, at the extended reals, read at entry (p, q). -/
theorem matmul_zero_plain {N K M : Nat} {φ₁ φ₂ : FTy}
    (D : DotDims ⟨2, ![N, K]⟩ ⟨2, ![K, M]⟩ ⟨2, ![N, M]⟩)
    (hr : D.contr.rank = 1) (hs : D.contr.size ⟨0, by omega⟩ = K)
    (hl0 : ∀ (i : (⟨2, ![N, M]⟩ : Shape).Idx) (k : D.contr.Idx), (D.lhsIdx i k 0).val = (i 0).val)
    (hl1 : ∀ (i : (⟨2, ![N, M]⟩ : Shape).Idx) (k : D.contr.Idx), (D.lhsIdx i k 1).val = (k ⟨0, by omega⟩).val)
    (hr0 : ∀ (i : (⟨2, ![N, M]⟩ : Shape).Idx) (k : D.contr.Idx), (D.rhsIdx i k 0).val = (k ⟨0, by omega⟩).val)
    (hr1 : ∀ (i : (⟨2, ![N, M]⟩ : Shape).Idx) (k : D.contr.Idx), (D.rhsIdx i k 1).val = (i 1).val)
    (prec : Option ContractPrecision)
    (l : FVec Ideal ⟨2, ![N, K]⟩ φ₁) (r : FVec Ideal ⟨2, ![K, M]⟩ φ₂) (p : Fin N) (q : Fin M) :
    FloatOps.matmul D prec l r (constant ⟨2, ![N, M]⟩ .f32 0x00000000#32) (ix2 p q) = ∑ k : Fin K, l (ix2 p k) * r (ix2 k q) :=
  (Ideal.matmul_constant_zero_apply D prec l r (ix2 p q)).trans (sum_contr_plain D hr hs hl0 hl1 hr0 hr1 l r p q)

end Cert.LibDotPlain

end
-- ==== Proof.KIValue1.lean ====
/-
  What region 1's output block holds, entry by entry, at the extended reals.

  The body normalises each entry of the hidden block with its column's mean and variance, scales and shifts it,
  clamps it at zero, multiplies the resulting row into the second weight matrix, adds the second bias and clamps
  at zero again.  Read at row `r`, column `q`, the stored block is therefore
    max (∑ₖ max (((x0 r k − mean k) · rsqrt (var k + ε)) · scale k + shift k) 0 · W2 k q + b2 q) 0,
  the rows of the [1,64] operands being read at their one row 0.  Changes of float format are the identity at the
  extended reals, a shape cast to the same shape changes nothing, and a load or store through the whole
  unit-stride rectangle at offset zero is the identity.
-/
import proofs.«120235_j55783035240590_2_alg».proof.Proof.KIRegion1
import proofs.«120235_j55783035240590_2_alg».proof.Proof.Spec
import proofs.«120235_j55783035240590_2_alg».proof.Proof.LibDotPlain
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.Hand

open Idealize.ShloMosaic Idealize.ShloMosaic.ValueIdx
open Cert.KernelIdeal Cert.KernelIdeal.Gen

/-- The offset of every access of the body: zero on both axes. -/
theorem hz1 : (![0, 0] : Fin 2 → Nat) = fun _ => 0 := funext fun a => by fin_cases a <;> rfl

/-- The body's matrix product into the zero accumulator, read at entry (r, q): the sum over the contracted
    coordinate of the products of row `r` of the left operand with column `q` of the right one. -/
theorem matmul1_apply (l : FVec Ideal S10000x64 .bf16) (w : FVec Ideal S64x64 .bf16) (r : Fin 10000) (q : Fin 64) :
    matmul dot_S10000x64_S64x64_S10000x64_1_0_0_1_n_n none l w (constant (F := Ideal) S10000x64 .f32 0x00000000#32) (ix2 r q)
      = ∑ k : Fin 64, l (ix2 r k) * w (ix2 k q) := by
  simp only [matmul]
  exact Cert.LibDotPlain.matmul_zero_plain dot_S10000x64_S64x64_S10000x64_1_0_0_1_n_n rfl rfl
    (fun _ _ => rfl)
    (fun i k => DotDims.lhsIdx_val_of_single dot_S10000x64_S64x64_S10000x64_1_0_0_1_n_n rfl i k)
    (fun i k => DotDims.rhsIdx_val_of_single dot_S10000x64_S64x64_S10000x64_1_0_0_1_n_n rfl i k)
    (fun _ _ => rfl) none l w r q

/-- The payload of the body's one store, read at entry (r, q). -/
theorem k1_pay1_apply (v0 : FVec Ideal S10000x64 .bf16) (v3 v8 v14 v18 : FVec Ideal S1x64 .f32) (v25 : FVec Ideal S64x64 .f32)
    (v28 : FVec Ideal S1x64 .f32) (r : Fin 10000) (q : Fin 64) :
    k1_pay1 (F := Ideal) v0 v3 v8 v14 v18 v25 v28 (ix2 r q)
      = max ((∑ k : Fin 64, max ((((v0 (ix2 r k) - v8 (ix2 0 k)) * Ideal.rsqrt (v3 (ix2 0 k) + Ideal.ofBits .f32 0x3727C5AC#32))
          * v14 (ix2 0 k)) + v18 (ix2 0 k)) 0 * v25 (ix2 k q)) + v28 (ix2 0 q)) 0 := by
  unfold k1_pay1
  simp only [shapeCast_self]
  rw [maximumf_apply, addf_apply, broadcast_apply, matmul1_apply, broadcastTo_1b_ab_apply]
  show max ((∑ k : Fin 64, _) + v28 (ix2 0 q)) (Ideal.ofBits .f32 0x00000000#32) = _
  rw [Ideal.ofBits_zero_f32]
  refine congrArg (fun s => max (s + v28 (ix2 0 q)) 0) (Finset.sum_congr rfl fun k _ => ?_)
  rw [truncf_apply, truncf_apply, maximumf_apply, addf_apply, mulf_apply, mulf_apply, subf_apply, extf_apply, broadcast_apply,
    broadcastTo_1b_ab_apply, broadcastTo_1b_ab_apply, broadcastTo_1b_ab_apply, broadcastTo_1b_ab_apply]
  show max (((v0 (ix2 r k) - v8 (ix2 0 k)) * Ideal.rsqrt (v3 (ix2 0 k) + Ideal.ofBits .f32 0x3727C5AC#32) * v14 (ix2 0 k)
      + v18 (ix2 0 k))) (Ideal.ofBits .f32 0x00000000#32) * v25 (ix2 k q) = _
  rw [Ideal.ofBits_zero_f32]

/-- The output block from the point's input blocks, read at entry (r, q). -/
theorem out1_7_apply (x0 : Vec Ideal S10000x64 .bf16) (x1 x2 x3 x4 : Vec Ideal S1x64 .f32) (x5 : Vec Ideal S64x64 .f32)
    (x6 : Vec Ideal S1x64 .f32) (r : Fin 10000) (q : Fin 64) :
    out1_7 (F := Ideal) x0 x1 x2 x3 x4 x5 x6 (ValueIdx.ix2 r q)
      = max ((∑ k : Fin 64, max ((((x0 (ValueIdx.ix2 r k) - x3 (ValueIdx.ix2 0 k)) * Ideal.rsqrt (x4 (ValueIdx.ix2 0 k) + Cert.Spec.epsW))
          * x1 (ValueIdx.ix2 0 k)) + x2 (ValueIdx.ix2 0 k)) 0 * x5 (ValueIdx.ix2 k q)) + x6 (ValueIdx.ix2 0 q)) 0 := by
  unfold out1_7
  rw [View.canon_unit_zero hz1]
  simp only [View.ld_unit_zero (S := S10000x64) hz1, View.ld_unit_zero (S := S1x64) hz1, View.ld_unit_zero (S := S64x64) hz1]
  exact k1_pay1_apply x0 x4 x3 x1 x2 x5 x6 r q

end Cert.KernelIdeal.Hand

end
-- ==== Proof.KIValue0Pay.lean ====
/-
  Region 0's payloads and input blocks, read entry by entry at the extended reals.

  The body of the first call forms, for its block of 10000 rows, the hidden rows h = (x + agg)·W1 + b1 (`k0_pay5`;
  `k0_pay6` is the same block in the narrower format, the same numbers here), adds the block's column sums of h and
  of h² to the two running rows (`k0_pay7`, `k0_pay8`), resets those rows to zero (`k0_pay3`, `k0_pay4`) and copies
  them out with a unit axis added (`k0_pay1`, `k0_pay2`).  A column sum is the lane reduction along axis 0 of a
  [10000, 64] array, read at column k: the sum over the 10000 rows.  The input blocks of point `t` are rows
  10000·t … 10000·t + 9999 of the two node arrays and the whole of the weight matrix and of the bias row.
-/
import proofs.«120235_j55783035240590_2_alg».proof.Proof.Gen.KernelIdeal.Skeleton
import proofs.«120235_j55783035240590_2_alg».proof.Proof.Gen.KernelIdeal.Points
import proofs.«120235_j55783035240590_2_alg».proof.Proof.KIValue1

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen

/-! ## A column sum -/

/-- The sum along the columns of an `[a, b]` array of exact values, at column `k`: the sum over the column's `a`
    entries (the reduced index with the coordinate `t` put back on axis `0` is `(t, k)`). -/
theorem multiReduction_add_col {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (k : Fin b) :
    multiReduction .add [0] ⟨1, ![b]⟩ src 0x00000000#32 h hφ hacc (ix1 k) = ∑ t : Fin a, src (ix2 t k) := by
  refine (Ideal.multiReduction_add_single src 0x00000000#32 h hφ hacc (ix1 k)).trans ?_
  exact Finset.sum_congr rfl fun t _ => congrArg src (funext fun c => Fin.ext (by
    match c with
    | ⟨0, _⟩ => rfl
    | ⟨1, _⟩ => rfl))

/-! ## The payloads -/

/-- The hidden block at (r, k): row `r` of x + agg times column `k` of the first weights, plus the first bias. -/
theorem k0_pay5_apply (v3 v4 : Vec Ideal S10000x64 .f32) (v8 : Vec Ideal S64x64 .f32) (v11 : Vec Ideal S1x64 .f32)
    (r : Fin 10000) (k : Fin 64) :
    k0_pay5 (F := Ideal) v3 v4 v8 v11 (ix2 r k)
      = (∑ j : Fin 64, (v3 (ix2 r j) + v4 (ix2 r j)) * v8 (ix2 j k)) + v11 (ix2 0 k) := by
  unfold k0_pay5
  simp only [shapeCast_self]
  rw [addf_apply, matmul1_apply, broadcastTo_1b_ab_apply]
  rfl

/-- The stored hidden block holds the same numbers: narrowing the format changes nothing at the extended reals. -/
theorem k0_pay6_apply (v3 v4 : Vec Ideal S10000x64 .f32) (v8 : Vec Ideal S64x64 .f32) (v11 : Vec Ideal S1x64 .f32)
    (r : Fin 10000) (k : Fin 64) :
    k0_pay6 (F := Ideal) v3 v4 v8 v11 (ix2 r k) = k0_pay5 (F := Ideal) v3 v4 v8 v11 (ix2 r k) := rfl

/-- The running column sum after the point: what it held plus the block's column sum of h. -/
theorem k0_pay7_apply (v3 v4 : Vec Ideal S10000x64 .f32) (v8 : Vec Ideal S64x64 .f32) (v11 v17 : Vec Ideal S1x64 .f32)
    (k : Fin 64) :
    k0_pay7 (F := Ideal) v3 v4 v8 v11 v17 (ix2 0 k)
      = v17 (ix2 0 k) + ∑ r : Fin 10000, k0_pay5 (F := Ideal) v3 v4 v8 v11 (ix2 r k) := by
  unfold k0_pay7
  simp only [shapeCast_self]
  rw [addf_apply, shapeCast_a_1a_apply, multiReduction_add_col]

/-- The running column sum of squares after the point: what it held plus the block's column sum of h². -/
theorem k0_pay8_apply (v3 v4 : Vec Ideal S10000x64 .f32) (v8 : Vec Ideal S64x64 .f32) (v11 v24 : Vec Ideal S1x64 .f32)
    (k : Fin 64) :
    k0_pay8 (F := Ideal) v3 v4 v8 v11 v24 (ix2 0 k)
      = v24 (ix2 0 k) + ∑ r : Fin 10000, k0_pay5 (F := Ideal) v3 v4 v8 v11 (ix2 r k) * k0_pay5 (F := Ideal) v3 v4 v8 v11 (ix2 r k) := by
  unfold k0_pay8
  simp only [shapeCast_self]
  rw [addf_apply, shapeCast_a_1a_apply, multiReduction_add_col]
  rfl

/-- The reset rows are zero. -/
theorem k0_pay3_apply (k : Fin 64) : k0_pay3 (F := Ideal) (ix2 0 k) = 0 := by
  unfold k0_pay3
  simp only [shapeCast_self]
  exact Ideal.ofBits_zero_f32

theorem k0_pay4_apply (k : Fin 64) : k0_pay4 (F := Ideal) (ix2 0 k) = 0 := by
  unfold k0_pay4
  simp only [shapeCast_self]
  exact Ideal.ofBits_zero_f32

/-- The copy-out adds a leading unit axis and changes no entry. -/
theorem k0_pay1_apply (v35 : Vec Ideal S1x64 .f32) (k : Fin 64) :
    k0_pay1 (F := Ideal) v35 (ix3 0 0 k) = v35 (ix2 0 k) := by
  unfold k0_pay1
  exact shapeCast_ab_1ab_apply v35 _ 0 0 k

theorem k0_pay2_apply (v38 : Vec Ideal S1x64 .f32) (k : Fin 64) :
    k0_pay2 (F := Ideal) v38 (ix3 0 0 k) = v38 (ix2 0 k) := by
  unfold k0_pay2
  exact shapeCast_ab_1ab_apply v38 _ 0 0 k

end Cert.KernelIdeal.Hand

end
-- ==== Proof.KIFinal1.lean ====
/-
  Region 1's output array after the region, as one function of the arrays the region finds at its entry.

  Point `t` of the ten-point grid reads rows 10000·t … 10000·t + 9999 of the stored hidden array (its block index is
  (t, 0)), the whole of each [1,64] row operand and of the second weight matrix (block index (0, 0) at every
  point), and writes back rows 10000·t … 10000·t + 9999 of the output.  So what point `t` writes back is block `t`
  of ONE array `G1`: at (p, q), the normalised, scaled, shifted and rectified row `p` of the hidden array times
  column `q` of the second weights, plus the second bias, rectified.  The ten blocks tile the array (row `p` is in
  block p / 10000), so the array ends holding `G1`.
-/
import proofs.«120235_j55783035240590_2_alg».proof.Proof.KIValue1

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- An array of extended reals, read as such: fixes the entry type of a buffer of the valuation, whose own type
    names its location. -/
abbrev rd (s : Shape) (f : s.Idx → EReal) : s.Idx → EReal := f

/-- The grid has ten points. -/
theorem N1 : grid1.N = 10 := by decide

/-- The printed index maps, decided over the grid: the hidden block and the output block are at block index
    (t, 0); every other operand is at (0, 0). -/
theorem idx_facts1 : ∀ t : Fin cfg1.N,
    win1_0.index t (0 : Fin 2) = t.val ∧ win1_0.index t (1 : Fin 2) = 0
    ∧ win1_7.index t (0 : Fin 2) = t.val ∧ win1_7.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- Row `r` of block `t`, as a row of the whole array. -/
def rowAt (t : Fin cfg1.N) (r : Fin 10000) : Fin 100000 :=
  ⟨10000 * t.val + r.val, by have ht : t.val < grid1.N := t.isLt; have h : grid1.N = 10 := N1; have := r.isLt; omega⟩

theorem rowAt_val (t : Fin cfg1.N) (r : Fin 10000) : (rowAt t r).val = 10000 * t.val + r.val := rfl

/-! ## Each input block, read at an index, is its array read at the corresponding index -/

/-- The hidden block at point `t` holds rows 10000·t … of the stored hidden array. -/
theorem blk1_0 (c : Dev nD) (t : Fin cfg1.N) (r : Fin 10000) (k : Fin 64) :
    iblk1 V c 0 t (ix2 r k) = rd S100000x64 (V c main_v18_0) (ix2 (rowAt t r) k) := by
  obtain ⟨e00, e01, -⟩ := idx_facts1 t
  show rd S100000x64 (V c main_v18_0) (((cfg1.win 0).blk t).view.emb (ix2 r k)) = _
  refine congrArg _ (funext fun a => Fin.ext ?_)
  match a with
  | ⟨0, _⟩ => show win1_0.index t (0 : Fin 2) * 10000 + 1 * r.val = 10000 * t.val + r.val; omega
  | ⟨1, _⟩ => show win1_0.index t (1 : Fin 2) * 64 + 1 * k.val = k.val; omega

/-- Window 1's block is the whole [1,64] row operand at every point. -/
theorem blk1_1 (c : Dev nD) (t : Fin cfg1.N) (k : Fin 64) :
    iblk1 V c 1 t (ix2 0 k) = rd S1x64 (V c main_v16) (ix2 0 k) := by
  have e := idx_facts1 t
  show rd S1x64 (V c main_v16) (((cfg1.win 1).blk t).view.emb (ix2 0 k)) = _
  refine congrArg _ (funext fun a => Fin.ext ?_)
  match a with
  | ⟨0, _⟩ => show win1_1.index t (0 : Fin 2) * 1 + 1 * 0 = 0; omega
  | ⟨1, _⟩ => show win1_1.index t (1 : Fin 2) * 64 + 1 * k.val = k.val; omega

/-- Window 2's block is the whole [1,64] row operand at every point. -/
theorem blk1_2 (c : Dev nD) (t : Fin cfg1.N) (k : Fin 64) :
    iblk1 V c 2 t (ix2 0 k) = rd S1x64 (V c main_v17) (ix2 0 k) := by
  have e := idx_facts1 t
  show rd S1x64 (V c main_v17) (((cfg1.win 2).blk t).view.emb (ix2 0 k)) = _
  refine congrArg _ (funext fun a => Fin.ext ?_)
  match a with
  | ⟨0, _⟩ => show win1_2.index t (0 : Fin 2) * 1 + 1 * 0 = 0; omega
  | ⟨1, _⟩ => show win1_2.index t (1 : Fin 2) * 64 + 1 * k.val = k.val; omega

/-- Window 3's block is the whole [1,64] row operand at every point. -/
theorem blk1_3 (c : Dev nD) (t : Fin cfg1.N) (k : Fin 64) :
    iblk1 V c 3 t (ix2 0 k) = rd S1x64 (V c main_v31) (ix2 0 k) := by
  have e := idx_facts1 t
  show rd S1x64 (V c main_v31) (((cfg1.win 3).blk t).view.emb (ix2 0 k)) = _
  refine congrArg _ (funext fun a => Fin.ext ?_)
  match a with
  | ⟨0, _⟩ => show win1_3.index t (0 : Fin 2) * 1 + 1 * 0 = 0; omega
  | ⟨1, _⟩ => show win1_3.index t (1 : Fin 2) * 64 + 1 * k.val = k.val; omega

/-- Window 4's block is the whole [1,64] row operand at every point. -/
theorem blk1_4 (c : Dev nD) (t : Fin cfg1.N) (k : Fin 64) :
    iblk1 V c 4 t (ix2 0 k) = rd S1x64 (V c main_v32) (ix2 0 k) := by
  have e := idx_facts1 t
  show rd S1x64 (V c main_v32) (((cfg1.win 4).blk t).view.emb (ix2 0 k)) = _
  refine congrArg _ (funext fun a => Fin.ext ?_)
  match a with
  | ⟨0, _⟩ => show win1_4.index t (0 : Fin 2) * 1 + 1 * 0 = 0; omega
  | ⟨1, _⟩ => show win1_4.index t (1 : Fin 2) * 64 + 1 * k.val = k.val; omega

/-- Window 6's block is the whole [1,64] row operand at every point. -/
theorem blk1_6 (c : Dev nD) (t : Fin cfg1.N) (k : Fin 64) :
    iblk1 V c 6 t (ix2 0 k) = rd S1x64 (V c main_v15) (ix2 0 k) := by
  have e := idx_facts1 t
  show rd S1x64 (V c main_v15) (((cfg1.win 6).blk t).view.emb (ix2 0 k)) = _
  refine congrArg _ (funext fun a => Fin.ext ?_)
  match a with
  | ⟨0, _⟩ => show win1_6.index t (0 : Fin 2) * 1 + 1 * 0 = 0; omega
  | ⟨1, _⟩ => show win1_6.index t (1 : Fin 2) * 64 + 1 * k.val = k.val; omega

/-- Window 5's block is the whole second weight matrix at every point. -/
theorem blk1_5 (c : Dev nD) (t : Fin cfg1.N) (k q : Fin 64) :
    iblk1 V c 5 t (ix2 k q) = rd S64x64 (V c main_arg6) (ix2 k q) := by
  have e := idx_facts1 t
  show rd S64x64 (V c main_arg6) (((cfg1.win 5).blk t).view.emb (ix2 k q)) = _
  refine congrArg _ (funext fun a => Fin.ext ?_)
  match a with
  | ⟨0, _⟩ => show win1_5.index t (0 : Fin 2) * 64 + 1 * k.val = k.val; omega
  | ⟨1, _⟩ => show win1_5.index t (1 : Fin 2) * 64 + 1 * q.val = q.val; omega

/-- Entry (r, q) of the output block at point `t` is entry (10000·t + r, q) of the output array. -/
theorem emb1_7 (t : Fin cfg1.N) (r : Fin 10000) (q : Fin 64) :
    ((cfg1.win 7).blk t).view.emb (ix2 r q) = (ix2 (rowAt t r) q : S100000x64.Idx) := by
  obtain ⟨-, -, e70, e71, -⟩ := idx_facts1 t
  refine funext fun a => Fin.ext ?_
  match a with
  | ⟨0, _⟩ => show win1_7.index t (0 : Fin 2) * 10000 + 1 * r.val = 10000 * t.val + r.val; omega
  | ⟨1, _⟩ => show win1_7.index t (1 : Fin 2) * 64 + 1 * q.val = q.val; omega

/-! ## The output array -/

/-- Entry (p, q) of the output: row `p` of the hidden array normalised with the column statistics, scaled, shifted,
    rectified, times column `q` of the second weights, plus the second bias, rectified. -/
def g1 (c : Dev nD) (p : Fin 100000) (q : Fin 64) : EReal :=
  max ((∑ k : Fin 64, max ((((rd S100000x64 (V c main_v18_0) (ix2 p k) - rd S1x64 (V c main_v31) (ix2 0 k))
      * Ideal.rsqrt (rd S1x64 (V c main_v32) (ix2 0 k) + Cert.Spec.epsW)) * rd S1x64 (V c main_v16) (ix2 0 k))
      + rd S1x64 (V c main_v17) (ix2 0 k)) 0 * rd S64x64 (V c main_arg6) (ix2 k q))
      + rd S1x64 (V c main_v15) (ix2 0 q)) 0

/-- The output array as one function of the entry contents. -/
def G1 (c : Dev nD) : S100000x64.Idx → EReal := fun i => g1 V c ⟨(i 0).val, idx2_lt0 i⟩ ⟨(i 1).val, idx2_lt1 i⟩

theorem G1_apply (c : Dev nD) (p : Fin 100000) (q : Fin 64) : G1 V c (ix2 p q) = g1 V c p q := rfl

/-- What point `t` writes back is block `t` of `G1`. -/
theorem flushed1_7_eq (c : Dev nD) (t : Fin cfg1.N) :
    (dat1 (F := Ideal) V c).flushed 7 t = ((cfg1.win 7).blk t).view.read (Elt Ideal) (G1 V c) := by
  show (cfg1.win 7).cut (grid1.coords t) ((dat1 (F := Ideal) V c).after 7 t) = _
  rw [after1_7]
  refine funext fun (j : S10000x64.Idx) => ?_
  obtain ⟨r, q, rfl⟩ : ∃ (r : Fin 10000) (q : Fin 64), j = ix2 r q := ⟨j 0, j 1, eq_ix2 j⟩
  show out1_7 (F := Ideal) (iblk1 V c 0 t) (iblk1 V c 1 t) (iblk1 V c 2 t) (iblk1 V c 3 t) (iblk1 V c 4 t) (iblk1 V c 5 t)
      (iblk1 V c 6 t) (ix2 r q) = G1 V c (((cfg1.win 7).blk t).view.emb (ix2 r q))
  rw [out1_7_apply, emb1_7, G1_apply]
  unfold g1
  simp only [blk1_0, blk1_1, blk1_2, blk1_3, blk1_4, blk1_5, blk1_6]

/-- An index of the array is in point `t`'s block iff each coordinate is in the block's range on its axis. -/
theorem mem_blk1_7 (t : Fin cfg1.N) (i : S100000x64.Idx) :
    i ∈ ((cfg1.win 7).blk t).view.set ↔ ∀ a : Fin 2, win1_7.index t a * S10000x64.size a ≤ (i a).val
      ∧ (i a).val < win1_7.index t a * S10000x64.size a + S10000x64.size a := by
  show i ∈ ((View.whole main_v33).slice (win1_7.rect t)).set ↔ _
  rw [View.set_slice_whole, Rect.mem_set_unit]
  exact Iff.rfl

/-- The point whose block holds row `p`. -/
def ptOf (p : Fin 100000) : Fin cfg1.N :=
  ⟨p.val / 10000, by have h : grid1.N = 10 := N1; have := p.isLt; show p.val / 10000 < grid1.N; omega⟩

theorem ptOf_val (p : Fin 100000) : (ptOf p).val = p.val / 10000 := rfl

/-- Row `p` is in the block of point p / 10000. -/
theorem cover1_7_row (p : Fin 100000) (q : Fin 64) :
    ∃ t : Fin cfg1.N, (cfg1.win 7).flush t = true ∧ (ix2 p q : S100000x64.Idx) ∈ ((cfg1.win 7).blk t).view.set := by
  have hp := p.isLt
  have hq := q.isLt
  refine ⟨ptOf p, flush1_7 _, ?_⟩
  rw [mem_blk1_7]
  obtain ⟨-, -, e70, e71, -⟩ := idx_facts1 (ptOf p)
  rw [ptOf_val] at e70
  intro a
  match a with
  | ⟨0, _⟩ =>
    show win1_7.index (ptOf p) (0 : Fin 2) * 10000 ≤ p.val
      ∧ p.val < win1_7.index (ptOf p) (0 : Fin 2) * 10000 + 10000
    omega
  | ⟨1, _⟩ =>
    show win1_7.index (ptOf p) (1 : Fin 2) * 64 ≤ q.val
      ∧ q.val < win1_7.index (ptOf p) (1 : Fin 2) * 64 + 64
    omega

/-- The output array after the region, entry by entry. -/
theorem final1_apply (c : Dev nD) (p : Fin 100000) (q : Fin 64) :
    rd S100000x64 ((dat1 (F := Ideal) V c).arrAt 7 cfg1.N) (ix2 p q)
      = max ((∑ k : Fin 64, max ((((rd S100000x64 (V c main_v18_0) (ix2 p k) - rd S1x64 (V c main_v31) (ix2 0 k))
          * Ideal.rsqrt (rd S1x64 (V c main_v32) (ix2 0 k) + Cert.Spec.epsW)) * rd S1x64 (V c main_v16) (ix2 0 k))
          + rd S1x64 (V c main_v17) (ix2 0 k)) 0 * rd S64x64 (V c main_arg6) (ix2 k q))
          + rd S1x64 (V c main_v15) (ix2 0 q)) 0 := by
  obtain ⟨t, hf, hi⟩ := cover1_7_row p q
  exact ((dat1 (F := Ideal) V c).arrAt_apply_of_mem 7 (G1 V c) (fun t _ => flushed1_7_eq V c t) cfg1.N t (ix2 p q) t.isLt hf hi).trans
    (G1_apply V c p q)

end Cert.KernelIdeal.Hand

end
-- ==== Proof.KIBlocks0.lean ====
/-
  Region 0's input blocks, read entry by entry.

  The first call runs on a 2 x 5 grid; point `t` (in row-major order, t = 5·i + j) reads block 5·i + j = t of the two
  node arrays — rows 10000·t … 10000·t + 9999 — and, at every point, the whole first weight matrix and the whole
  first bias row.  The index maps are decided over the ten points.
-/
import proofs.«120235_j55783035240590_2_alg».proof.Proof.KIFinal1

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The first call's grid has ten points. -/
theorem N0 : grid0.N = 10 := by decide

/-- A point of the first call's grid as one of the ten blocks. -/
def pt0 (t : Fin cfg0.N) : Fin 10 := ⟨t.val, by have ht : t.val < grid0.N := t.isLt; have h : grid0.N = 10 := N0; omega⟩

theorem pt0_val (t : Fin cfg0.N) : (pt0 t).val = t.val := rfl

/-- The printed index maps, decided over the grid: the two node arrays are read at block index (t, 0); the weight
    matrix and the bias row at (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The block of the node features at point `t` holds rows 10000·t … of the array. -/
theorem blk0_0 (c : Dev nD) (t : Fin cfg0.N) (r : Fin 10000) (j : Fin 64) :
    ((cfg0.win 0).blk t).view.read (Elt Ideal) (V c (Pipeline.arrRef spec0 0)) (ix2 r j)
      = rd S100000x64 (V c main_arg0) (ix2 (Cert.Spec.rowOf (pt0 t) r) j) := by
  obtain ⟨e0, e1, -⟩ := idx_facts0 t
  show rd S100000x64 (V c main_arg0) (((cfg0.win 0).blk t).view.emb (ix2 r j)) = _
  refine congrArg _ (funext fun a => Fin.ext ?_)
  match a with
  | ⟨0, _⟩ => show win0_0.index t (0 : Fin 2) * 10000 + 1 * r.val = 10000 * t.val + r.val; omega
  | ⟨1, _⟩ => show win0_0.index t (1 : Fin 2) * 64 + 1 * j.val = j.val; omega

/-- The block of the aggregated neighbour features at point `t` holds rows 10000·t … of the array. -/
theorem blk0_1 (c : Dev nD) (t : Fin cfg0.N) (r : Fin 10000) (j : Fin 64) :
    ((cfg0.win 1).blk t).view.read (Elt Ideal) (V c (Pipeline.arrRef spec0 1)) (ix2 r j)
      = rd S100000x64 (V c main_v13) (ix2 (Cert.Spec.rowOf (pt0 t) r) j) := by
  obtain ⟨-, -, e0, e1, -⟩ := idx_facts0 t
  show rd S100000x64 (V c main_v13) (((cfg0.win 1).blk t).view.emb (ix2 r j)) = _
  refine congrArg _ (funext fun a => Fin.ext ?_)
  match a with
  | ⟨0, _⟩ => show win0_1.index t (0 : Fin 2) * 10000 + 1 * r.val = 10000 * t.val + r.val; omega
  | ⟨1, _⟩ => show win0_1.index t (1 : Fin 2) * 64 + 1 * j.val = j.val; omega

/-- The weight block is the whole first weight matrix at every point. -/
theorem blk0_2 (c : Dev nD) (t : Fin cfg0.N) (j k : Fin 64) :
    ((cfg0.win 2).blk t).view.read (Elt Ideal) (V c (Pipeline.arrRef spec0 2)) (ix2 j k)
      = rd S64x64 (V c main_arg2) (ix2 j k) := by
  obtain ⟨-, -, -, -, e0, e1, -⟩ := idx_facts0 t
  show rd S64x64 (V c main_arg2) (((cfg0.win 2).blk t).view.emb (ix2 j k)) = _
  refine congrArg _ (funext fun a => Fin.ext ?_)
  match a with
  | ⟨0, _⟩ => show win0_2.index t (0 : Fin 2) * 64 + 1 * j.val = j.val; omega
  | ⟨1, _⟩ => show win0_2.index t (1 : Fin 2) * 64 + 1 * k.val = k.val; omega

/-- The bias block is the whole first bias row at every point. -/
theorem blk0_3 (c : Dev nD) (t : Fin cfg0.N) (k : Fin 64) :
    ((cfg0.win 3).blk t).view.read (Elt Ideal) (V c (Pipeline.arrRef spec0 3)) (ix2 0 k)
      = rd S1x64 (V c main_v14) (ix2 0 k) := by
  obtain ⟨-, -, -, -, -, -, e0, e1⟩ := idx_facts0 t
  show rd S1x64 (V c main_v14) (((cfg0.win 3).blk t).view.emb (ix2 0 k)) = _
  refine congrArg _ (funext fun a => Fin.ext ?_)
  match a with
  | ⟨0, _⟩ => show win0_3.index t (0 : Fin 2) * 1 + 1 * 0 = 0; omega
  | ⟨1, _⟩ => show win0_3.index t (1 : Fin 2) * 64 + 1 * k.val = k.val; omega

end Cert.KernelIdeal.Hand

end
-- ==== Proof.KIFinal0.lean ====
/-
  Region 0's three output arrays after the region, as functions of the arrays the region finds at its entry.

  Write h(p, k) for the hidden row of node `p` at feature `k`: row `p` of x + agg times column `k` of the first
  weights, plus the first bias (`hidV`).  Point `t` of the 2 x 5 grid stores block `t` of h (rows 10000·t …) into the
  first output, and adds the block's column sums of h and of h² to two running rows, which are reset at the first
  point of each half and copied out at its last.  Unrolling the recursion over a half's five points, the running
  row after the half's i-th block is the specification's `accAfter`; so the second and third outputs hold, per half
  and column, `accAfter` after the fifth block, of h and of h² respectively, and the first output holds h.
-/
import proofs.«120235_j55783035240590_2_alg».proof.Proof.KIRegion0Val
import proofs.«120235_j55783035240590_2_alg».proof.Proof.KIValue0Pay
import proofs.«120235_j55783035240590_2_alg».proof.Proof.KIBlocks0
import proofs.«120235_j55783035240590_2_alg».proof.Proof.Spec

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## The recursion over a half's five points, in the abstract -/

/-- A sequence over the ten points that restarts from zero plus the block's sum at the first point of each half and
    adds the block's sum at every other point is, at the i-th point of half `cc`, the specification's running sum. -/
theorem acc_closed (f : Fin 100000 → EReal) (s : (n : ℕ) → n < 10 → EReal)
    (hreset : ∀ (n : ℕ) (hn : n < 10), n % 5 = 0 → s n hn = 0 + Cert.Spec.blockSum f ⟨n, hn⟩)
    (hstep : ∀ (n : ℕ) (hn : n < 10), n % 5 ≠ 0 → s n hn = s (n - 1) (by omega) + Cert.Spec.blockSum f ⟨n, hn⟩)
    (cc : Fin 2) : ∀ (i : ℕ) (hi : i < 5),
      s (5 * cc.val + i) (by have := cc.isLt; omega) = Cert.Spec.accAfter f cc i hi
  | 0, hi => by
    rw [hreset (5 * cc.val + 0) (by have := cc.isLt; omega) (by omega)]
    rfl
  | i + 1, hi => by
    have hs : ∀ (n m : ℕ) (h : n = m) (hn : n < 10) (hm : m < 10), s n hn = s m hm := by
      intro n m h; subst h; intros; rfl
    rw [hstep (5 * cc.val + (i + 1)) (by have := cc.isLt; omega) (by omega),
      hs (5 * cc.val + (i + 1) - 1) (5 * cc.val + i) (by omega) _ (by have := cc.isLt; omega),
      acc_closed f s hreset hstep cc i (by omega)]
    rfl

/-! ## The hidden rows, and a block's column sums -/

theorem lt0 {n : ℕ} (h : n < 10) : n < cfg0.N := by
  have e : grid0.N = 10 := N0
  show n < grid0.N
  omega

/-- The hidden layer before normalisation at node `p`, feature `k`, from the entry contents. -/
def hidV (c : Dev nD) (p : Fin 100000) (k : Fin 64) : EReal :=
  (∑ j : Fin 64, (rd S100000x64 (V c main_arg0) (ix2 p j) + rd S100000x64 (V c main_v13) (ix2 p j)) * rd S64x64 (V c main_arg2) (ix2 j k))
    + rd S1x64 (V c main_v14) (ix2 0 k)

/-- The input blocks of point `t`, read at an index, are the entry arrays read at the corresponding index. -/
theorem iblk0_0 (c : Dev nD) (t : Fin cfg0.N) (r : Fin 10000) (j : Fin 64) :
    iblk0 V c 0 t (ix2 r j) = rd S100000x64 (V c main_arg0) (ix2 (Cert.Spec.rowOf (pt0 t) r) j) := blk0_0 V c t r j
theorem iblk0_1 (c : Dev nD) (t : Fin cfg0.N) (r : Fin 10000) (j : Fin 64) :
    iblk0 V c 1 t (ix2 r j) = rd S100000x64 (V c main_v13) (ix2 (Cert.Spec.rowOf (pt0 t) r) j) := blk0_1 V c t r j
theorem iblk0_2 (c : Dev nD) (t : Fin cfg0.N) (j k : Fin 64) :
    iblk0 V c 2 t (ix2 j k) = rd S64x64 (V c main_arg2) (ix2 j k) := blk0_2 V c t j k
theorem iblk0_3 (c : Dev nD) (t : Fin cfg0.N) (k : Fin 64) :
    iblk0 V c 3 t (ix2 0 k) = rd S1x64 (V c main_v14) (ix2 0 k) := blk0_3 V c t k

/-- The hidden block of point `t` is rows 10000·t … of the hidden rows. -/
theorem pay5_blocks (c : Dev nD) (t : Fin cfg0.N) (r : Fin 10000) (k : Fin 64) :
    k0_pay5 (F := Ideal) (iblk0 V c 0 t) (iblk0 V c 1 t) (iblk0 V c 2 t) (iblk0 V c 3 t) (ix2 r k) = hidV V c (Cert.Spec.rowOf (pt0 t) r) k := by
  rw [k0_pay5_apply]
  unfold hidV
  simp only [iblk0_0, iblk0_1, iblk0_2, iblk0_3]

theorem sum_pay5_blocks (c : Dev nD) (t : Fin cfg0.N) (k : Fin 64) :
    ∑ r : Fin 10000, k0_pay5 (F := Ideal) (iblk0 V c 0 t) (iblk0 V c 1 t) (iblk0 V c 2 t) (iblk0 V c 3 t) (ix2 r k) = Cert.Spec.blockSum (fun p => hidV V c p k) (pt0 t) := by
  unfold Cert.Spec.blockSum
  exact Finset.sum_congr rfl fun r _ => pay5_blocks V c t r k

theorem sum_sq_pay5_blocks (c : Dev nD) (t : Fin cfg0.N) (k : Fin 64) :
    ∑ r : Fin 10000, k0_pay5 (F := Ideal) (iblk0 V c 0 t) (iblk0 V c 1 t) (iblk0 V c 2 t) (iblk0 V c 3 t) (ix2 r k) * k0_pay5 (F := Ideal) (iblk0 V c 0 t) (iblk0 V c 1 t) (iblk0 V c 2 t) (iblk0 V c 3 t) (ix2 r k)
      = Cert.Spec.blockSum (fun p => hidV V c p k * hidV V c p k) (pt0 t) := by
  unfold Cert.Spec.blockSum
  exact Finset.sum_congr rfl fun r _ => by rw [pay5_blocks V c t r k]

/-! ## The two running rows -/

theorem scr0_congr (c : Dev nD) {n m : ℕ} (h : n = m) (hn : n < cfg0.N) (hm : m < cfg0.N) : scr0 V c n hn = scr0 V c m hm := by
  subst h; rfl

/-- The running row after the block at position 5·cc + i of half `cc`, read at column `k`. -/
theorem scr0_closed (c : Dev nD) (k : Fin 64) (cc : Fin 2) (i : ℕ) (hi : i < 5) :
    scr0 V c (5 * cc.val + i) (lt0 (by have := cc.isLt; omega)) (ix2 0 k)
      = Cert.Spec.accAfter (fun p => hidV V c p k) cc i hi :=
  acc_closed (fun p => hidV V c p k) (fun n hn => scr0 V c n (lt0 hn) (ix2 0 k))
    (fun n hn h => by
      refine (congrFun (scr0_reset V c ⟨n, lt0 hn⟩ h) (ix2 0 k)).trans ?_
      rw [k0_pay7_apply, k0_pay3_apply, sum_pay5_blocks]
      rfl)
    (fun n hn h => by
      refine (congrFun (scr0_step V c ⟨n, lt0 hn⟩ h) (ix2 0 k)).trans ?_
      rw [k0_pay7_apply, sum_pay5_blocks]
      rfl)
    cc i hi

theorem scr1_congr (c : Dev nD) {n m : ℕ} (h : n = m) (hn : n < cfg0.N) (hm : m < cfg0.N) : scr1 V c n hn = scr1 V c m hm := by
  subst h; rfl

/-- The running row after the block at position 5·cc + i of half `cc`, read at column `k`. -/
theorem scr1_closed (c : Dev nD) (k : Fin 64) (cc : Fin 2) (i : ℕ) (hi : i < 5) :
    scr1 V c (5 * cc.val + i) (lt0 (by have := cc.isLt; omega)) (ix2 0 k)
      = Cert.Spec.accAfter (fun p => hidV V c p k * hidV V c p k) cc i hi :=
  acc_closed (fun p => hidV V c p k * hidV V c p k) (fun n hn => scr1 V c n (lt0 hn) (ix2 0 k))
    (fun n hn h => by
      refine (congrFun (scr1_reset V c ⟨n, lt0 hn⟩ h) (ix2 0 k)).trans ?_
      rw [k0_pay8_apply, k0_pay4_apply, sum_sq_pay5_blocks]
      rfl)
    (fun n hn h => by
      refine (congrFun (scr1_step V c ⟨n, lt0 hn⟩ h) (ix2 0 k)).trans ?_
      rw [k0_pay8_apply, sum_sq_pay5_blocks]
      rfl)
    cc i hi

/-! ## The output windows' index maps -/

/-- The printed index maps of the three outputs, decided over the grid: the hidden block is at block index (t, 0);
    the two small outputs at (t / 5, 0, 0). -/
theorem idx_facts0o : ∀ t : Fin cfg0.N,
    win0_4.index t (0 : Fin 2) = t.val ∧ win0_4.index t (1 : Fin 2) = 0
    ∧ win0_5.index t (0 : Fin 3) = t.val / 5 ∧ win0_5.index t (1 : Fin 3) = 0 ∧ win0_5.index t (2 : Fin 3) = 0
    ∧ win0_6.index t (0 : Fin 3) = t.val / 5 ∧ win0_6.index t (1 : Fin 3) = 0 ∧ win0_6.index t (2 : Fin 3) = 0 :=
  (by decide +kernel : ∀ t : Fin grid0.N, _)

/-- The half a point is in. -/
def half0 (t : Fin cfg0.N) : Fin 2 :=
  ⟨t.val / 5, by have ht : t.val < grid0.N := t.isLt; have h : grid0.N = 10 := N0; omega⟩

/-- The last point of half `cc`. -/
def last0 (cc : Fin 2) : Fin cfg0.N := ⟨5 * cc.val + 4, lt0 (by have := cc.isLt; omega)⟩

/-- The point whose block holds row `p`. -/
def ptOf0 (p : Fin 100000) : Fin cfg0.N := ⟨p.val / 10000, lt0 (by have := p.isLt; omega)⟩

/-! ## The hidden array -/

/-- Entry (r, k) of the hidden block at point `t` is entry (10000·t + r, k) of the hidden array. -/
theorem emb0_4 (t : Fin cfg0.N) (r : Fin 10000) (k : Fin 64) :
    ((cfg0.win 4).blk t).view.emb (ix2 r k) = (ix2 (Cert.Spec.rowOf (pt0 t) r) k : S100000x64.Idx) := by
  obtain ⟨e0, e1, -⟩ := idx_facts0o t
  refine funext fun a => Fin.ext ?_
  match a with
  | ⟨0, _⟩ => show win0_4.index t (0 : Fin 2) * 10000 + 1 * r.val = 10000 * t.val + r.val; omega
  | ⟨1, _⟩ => show win0_4.index t (1 : Fin 2) * 64 + 1 * k.val = k.val; omega

/-- The hidden array as one function of the entry contents. -/
def G4 (c : Dev nD) : S100000x64.Idx → EReal := fun i => hidV V c ⟨(i 0).val, idx2_lt0 i⟩ ⟨(i 1).val, idx2_lt1 i⟩

theorem G4_apply (c : Dev nD) (p : Fin 100000) (k : Fin 64) : G4 V c (ix2 p k) = hidV V c p k := rfl

/-- What point `t` writes back to the hidden array is block `t` of `G4`. -/
theorem flushed0_4_eq (c : Dev nD) (t : Fin cfg0.N) :
    (dat0 (F := Ideal) V c).flushed 4 t = ((cfg0.win 4).blk t).view.read (Elt Ideal) (G4 V c) := by
  show (cfg0.win 4).cut (grid0.coords t) ((dat0 (F := Ideal) V c).after 4 t) = _
  rw [val0_4]
  refine funext fun (j : S10000x64.Idx) => ?_
  obtain ⟨r, k, rfl⟩ : ∃ (r : Fin 10000) (k : Fin 64), j = ix2 r k := ⟨j 0, j 1, eq_ix2 j⟩
  show k0_pay6 (F := Ideal) (iblk0 V c 0 t) (iblk0 V c 1 t) (iblk0 V c 2 t) (iblk0 V c 3 t) (ix2 r k) = G4 V c (((cfg0.win 4).blk t).view.emb (ix2 r k))
  rw [k0_pay6_apply, pay5_blocks, emb0_4, G4_apply]

theorem mem_blk0_4 (t : Fin cfg0.N) (i : S100000x64.Idx) :
    i ∈ ((cfg0.win 4).blk t).view.set ↔ ∀ a : Fin 2, win0_4.index t a * S10000x64.size a ≤ (i a).val
      ∧ (i a).val < win0_4.index t a * S10000x64.size a + S10000x64.size a := by
  show i ∈ ((View.whole main_v18_0).slice (win0_4.rect t)).set ↔ _
  rw [View.set_slice_whole, Rect.mem_set_unit]
  exact Iff.rfl

/-- The hidden array after the region, entry by entry. -/
theorem final0_4_apply (c : Dev nD) (p : Fin 100000) (k : Fin 64) :
    rd S100000x64 ((dat0 (F := Ideal) V c).arrAt 4 cfg0.N) (ix2 p k) = hidV V c p k := by
  have hp := p.isLt
  have hk := k.isLt
  have hi : (ix2 p k : S100000x64.Idx) ∈ ((cfg0.win 4).blk (ptOf0 p)).view.set := by
    rw [mem_blk0_4]
    obtain ⟨e0, e1, -⟩ := idx_facts0o (ptOf0 p)
    have ev : (ptOf0 p).val = p.val / 10000 := rfl
    intro a
    match a with
    | ⟨0, _⟩ =>
      show win0_4.index (ptOf0 p) (0 : Fin 2) * 10000 ≤ p.val ∧ p.val < win0_4.index (ptOf0 p) (0 : Fin 2) * 10000 + 10000
      omega
    | ⟨1, _⟩ =>
      show win0_4.index (ptOf0 p) (1 : Fin 2) * 64 ≤ k.val ∧ k.val < win0_4.index (ptOf0 p) (1 : Fin 2) * 64 + 64
      omega
  exact ((dat0 (F := Ideal) V c).arrAt_apply_of_mem 4 (G4 V c) (fun t _ => flushed0_4_eq V c t) cfg0.N (ptOf0 p) (ix2 p k)
    (ptOf0 p).isLt (flush0_4 _) hi).trans (G4_apply V c p k)

/-! ## The two small outputs -/

/-- An index of the array is in point `t`'s block iff each coordinate is in the block's range on its axis. -/
theorem mem_blk0_5 (t : Fin cfg0.N) (i : S2x1x64.Idx) :
    i ∈ ((cfg0.win 5).blk t).view.set ↔ ∀ a : Fin 3, win0_5.index t a * S1x1x64.size a ≤ (i a).val
      ∧ (i a).val < win0_5.index t a * S1x1x64.size a + S1x1x64.size a := by
  show i ∈ ((View.whole main_v18_1).slice (win0_5.rect t)).set ↔ _
  rw [View.set_slice_whole, Rect.mem_set_unit]
  exact Iff.rfl

/-- Entry (0, 0, k) of the block at point `t` is entry (t / 5, 0, k) of the array. -/
theorem emb0_5 (t : Fin cfg0.N) (k : Fin 64) :
    ((cfg0.win 5).blk t).view.emb (ix3 (0 : Fin 1) (0 : Fin 1) k) = (ix3 (half0 t) (0 : Fin 1) k : S2x1x64.Idx) := by
  have e := idx_facts0o t
  refine funext fun a => Fin.ext ?_
  match a with
  | ⟨0, _⟩ => show win0_5.index t (0 : Fin 3) * 1 + 1 * 0 = t.val / 5; omega
  | ⟨1, _⟩ => show win0_5.index t (1 : Fin 3) * 1 + 1 * 0 = 0; omega
  | ⟨2, _⟩ => show win0_5.index t (2 : Fin 3) * 64 + 1 * k.val = k.val; omega

/-- The array window 5 ends holding: per half and column, the half's running sum after its last block. -/
def G5 (c : Dev nD) : S2x1x64.Idx → EReal := fun i =>
  Cert.Spec.accAfter (fun p => hidV V c p ⟨(i 2).val, (i 2).isLt⟩) ⟨(i 0).val, (i 0).isLt⟩ 4 (by omega)

theorem G5_apply (c : Dev nD) (cc : Fin 2) (k : Fin 64) :
    G5 V c (ix3 cc (0 : Fin 1) k) = Cert.Spec.accAfter (fun p => hidV V c p k) cc 4 (by omega) := rfl

/-- What a copy-out point writes back to window 5 is its block of `G5`. -/
theorem flushed0_5_eq (c : Dev nD) (t : Fin cfg0.N) (hf : (cfg0.win 5).flush t = true) :
    (dat0 (F := Ideal) V c).flushed 5 t = ((cfg0.win 5).blk t).view.read (Elt Ideal) (G5 V c) := by
  have h4 : t.val % 5 = 4 := (flush0_5 t).mp hf
  show (cfg0.win 5).cut (grid0.coords t) ((dat0 (F := Ideal) V c).after 5 t) = _
  rw [val0_5 V c t h4]
  refine funext fun (j : S1x1x64.Idx) => ?_
  obtain ⟨u, w, k, rfl⟩ : ∃ (u w : Fin 1) (k : Fin 64), j = ix3 u w k := ⟨j 0, j 1, j 2, eq_ix3 j⟩
  obtain rfl : u = 0 := Subsingleton.elim _ _
  obtain rfl : w = 0 := Subsingleton.elim _ _
  show k0_pay1 (F := Ideal) (scr0 V c t.val t.isLt) (ix3 0 0 k) = G5 V c (((cfg0.win 5).blk t).view.emb (ix3 0 0 k))
  rw [k0_pay1_apply, emb0_5, G5_apply]
  have ht : t.val < 10 := by have h : grid0.N = 10 := N0; have h2 : t.val < grid0.N := t.isLt; omega
  have e : t.val = 5 * (half0 t).val + 4 := by show t.val = 5 * (t.val / 5) + 4; omega
  rw [scr0_congr V c e t.isLt (lt0 (by have := (half0 t).isLt; omega))]
  exact scr0_closed V c k (half0 t) 4 (by omega)

/-- Window 5's array after the region, entry by entry. -/
theorem final0_5_apply (c : Dev nD) (cc : Fin 2) (k : Fin 64) :
    rd S2x1x64 ((dat0 (F := Ideal) V c).arrAt 5 cfg0.N) (ix3 cc (0 : Fin 1) k)
      = Cert.Spec.accAfter (fun p => hidV V c p k) cc 4 (by omega) := by
  have hcc := cc.isLt
  have hk := k.isLt
  have hf : (cfg0.win 5).flush (last0 cc) = true := (flush0_5 (last0 cc)).mpr (by show (5 * cc.val + 4) % 5 = 4; omega)
  have hi : (ix3 cc (0 : Fin 1) k : S2x1x64.Idx) ∈ ((cfg0.win 5).blk (last0 cc)).view.set := by
    rw [mem_blk0_5]
    have e := idx_facts0o (last0 cc)
    have ev : (last0 cc).val = 5 * cc.val + 4 := rfl
    intro a
    match a with
    | ⟨0, _⟩ =>
      show win0_5.index (last0 cc) (0 : Fin 3) * 1 ≤ cc.val ∧ cc.val < win0_5.index (last0 cc) (0 : Fin 3) * 1 + 1
      omega
    | ⟨1, _⟩ =>
      show win0_5.index (last0 cc) (1 : Fin 3) * 1 ≤ 0 ∧ 0 < win0_5.index (last0 cc) (1 : Fin 3) * 1 + 1
      omega
    | ⟨2, _⟩ =>
      show win0_5.index (last0 cc) (2 : Fin 3) * 64 ≤ k.val ∧ k.val < win0_5.index (last0 cc) (2 : Fin 3) * 64 + 64
      omega
  exact ((dat0 (F := Ideal) V c).arrAt_apply_of_mem 5 (G5 V c) (fun t hf => flushed0_5_eq V c t hf) cfg0.N (last0 cc)
    (ix3 cc (0 : Fin 1) k) (last0 cc).isLt hf hi).trans (G5_apply V c cc k)

/-- An index of the array is in point `t`'s block iff each coordinate is in the block's range on its axis. -/
theorem mem_blk0_6 (t : Fin cfg0.N) (i : S2x1x64.Idx) :
    i ∈ ((cfg0.win 6).blk t).view.set ↔ ∀ a : Fin 3, win0_6.index t a * S1x1x64.size a ≤ (i a).val
      ∧ (i a).val < win0_6.index t a * S1x1x64.size a + S1x1x64.size a := by
  show i ∈ ((View.whole main_v18_2).slice (win0_6.rect t)).set ↔ _
  rw [View.set_slice_whole, Rect.mem_set_unit]
  exact Iff.rfl

/-- Entry (0, 0, k) of the block at point `t` is entry (t / 5, 0, k) of the array. -/
theorem emb0_6 (t : Fin cfg0.N) (k : Fin 64) :
    ((cfg0.win 6).blk t).view.emb (ix3 (0 : Fin 1) (0 : Fin 1) k) = (ix3 (half0 t) (0 : Fin 1) k : S2x1x64.Idx) := by
  have e := idx_facts0o t
  refine funext fun a => Fin.ext ?_
  match a with
  | ⟨0, _⟩ => show win0_6.index t (0 : Fin 3) * 1 + 1 * 0 = t.val / 5; omega
  | ⟨1, _⟩ => show win0_6.index t (1 : Fin 3) * 1 + 1 * 0 = 0; omega
  | ⟨2, _⟩ => show win0_6.index t (2 : Fin 3) * 64 + 1 * k.val = k.val; omega

/-- The array window 6 ends holding: per half and column, the half's running sum after its last block. -/
def G6 (c : Dev nD) : S2x1x64.Idx → EReal := fun i =>
  Cert.Spec.accAfter (fun p => hidV V c p ⟨(i 2).val, (i 2).isLt⟩ * hidV V c p ⟨(i 2).val, (i 2).isLt⟩) ⟨(i 0).val, (i 0).isLt⟩ 4 (by omega)

theorem G6_apply (c : Dev nD) (cc : Fin 2) (k : Fin 64) :
    G6 V c (ix3 cc (0 : Fin 1) k) = Cert.Spec.accAfter (fun p => hidV V c p k * hidV V c p k) cc 4 (by omega) := rfl

/-- What a copy-out point writes back to window 6 is its block of `G6`. -/
theorem flushed0_6_eq (c : Dev nD) (t : Fin cfg0.N) (hf : (cfg0.win 6).flush t = true) :
    (dat0 (F := Ideal) V c).flushed 6 t = ((cfg0.win 6).blk t).view.read (Elt Ideal) (G6 V c) := by
  have h4 : t.val % 5 = 4 := (flush0_6 t).mp hf
  show (cfg0.win 6).cut (grid0.coords t) ((dat0 (F := Ideal) V c).after 6 t) = _
  rw [val0_6 V c t h4]
  refine funext fun (j : S1x1x64.Idx) => ?_
  obtain ⟨u, w, k, rfl⟩ : ∃ (u w : Fin 1) (k : Fin 64), j = ix3 u w k := ⟨j 0, j 1, j 2, eq_ix3 j⟩
  obtain rfl : u = 0 := Subsingleton.elim _ _
  obtain rfl : w = 0 := Subsingleton.elim _ _
  show k0_pay2 (F := Ideal) (scr1 V c t.val t.isLt) (ix3 0 0 k) = G6 V c (((cfg0.win 6).blk t).view.emb (ix3 0 0 k))
  rw [k0_pay2_apply, emb0_6, G6_apply]
  have ht : t.val < 10 := by have h : grid0.N = 10 := N0; have h2 : t.val < grid0.N := t.isLt; omega
  have e : t.val = 5 * (half0 t).val + 4 := by show t.val = 5 * (t.val / 5) + 4; omega
  rw [scr1_congr V c e t.isLt (lt0 (by have := (half0 t).isLt; omega))]
  exact scr1_closed V c k (half0 t) 4 (by omega)

/-- Window 6's array after the region, entry by entry. -/
theorem final0_6_apply (c : Dev nD) (cc : Fin 2) (k : Fin 64) :
    rd S2x1x64 ((dat0 (F := Ideal) V c).arrAt 6 cfg0.N) (ix3 cc (0 : Fin 1) k)
      = Cert.Spec.accAfter (fun p => hidV V c p k * hidV V c p k) cc 4 (by omega) := by
  have hcc := cc.isLt
  have hk := k.isLt
  have hf : (cfg0.win 6).flush (last0 cc) = true := (flush0_6 (last0 cc)).mpr (by show (5 * cc.val + 4) % 5 = 4; omega)
  have hi : (ix3 cc (0 : Fin 1) k : S2x1x64.Idx) ∈ ((cfg0.win 6).blk (last0 cc)).view.set := by
    rw [mem_blk0_6]
    have e := idx_facts0o (last0 cc)
    have ev : (last0 cc).val = 5 * cc.val + 4 := rfl
    intro a
    match a with
    | ⟨0, _⟩ =>
      show win0_6.index (last0 cc) (0 : Fin 3) * 1 ≤ cc.val ∧ cc.val < win0_6.index (last0 cc) (0 : Fin 3) * 1 + 1
      omega
    | ⟨1, _⟩ =>
      show win0_6.index (last0 cc) (1 : Fin 3) * 1 ≤ 0 ∧ 0 < win0_6.index (last0 cc) (1 : Fin 3) * 1 + 1
      omega
    | ⟨2, _⟩ =>
      show win0_6.index (last0 cc) (2 : Fin 3) * 64 ≤ k.val ∧ k.val < win0_6.index (last0 cc) (2 : Fin 3) * 64 + 64
      omega
  exact ((dat0 (F := Ideal) V c).arrAt_apply_of_mem 6 (G6 V c) (fun t hf => flushed0_6_eq V c t hf) cfg0.N (last0 cc)
    (ix3 cc (0 : Fin 1) k) (last0 cc).isLt hf hi).trans (G6_apply V c cc k)

end Cert.KernelIdeal.Hand

end
-- ==== Proof.KIValue.lean ====
/-
  The kernel's result read at node p, feature q.  The second region's output array is the shared tail expression
  of its entry contents; those are: the hidden array the first region stored (the hidden layer of x plus the
  neighbour sum), the mean and variance rows the host formed from the first region's two [2,1,64] outputs (each
  half's running column sum, and sum of squares, after its fifth block), and the scale, shift, second weights and
  second bias as launched.
-/
import proofs.«120235_j55783035240590_2_alg».proof.Proof.KIHostRead
import proofs.«120235_j55783035240590_2_alg».proof.Proof.KIFinal0
import proofs.«120235_j55783035240590_2_alg».proof.Proof.KIFinal1

set_option maxRecDepth 16384

noncomputable section

namespace Cert.KernelIdeal.Hand

open Idealize.ShloMosaic Idealize.ShloMosaic.TcCoe Idealize.ShloMosaic.ValueIdx Idealize.SL Idealize.SL.Sem
open Idealize.ShloMosaic.Pipeline (Dat)
open Cert.KernelIdeal Cert.KernelIdeal.Gen

variable (m : (ℓ : Loc nD τ sig) → Buf (Elt Ideal) ℓ) (c : Dev nD)

/-- The hidden layer of the launch arrays. -/
def hK (p : Fin 100000) (k : Fin 64) : EReal :=
  Cert.Spec.hid (m ((c : Thread nD τ).loc main_arg0)) (aggK (F := Ideal) (m ((c : Thread nD τ).loc main_arg0)) (m ((c : Thread nD τ).loc main_arg1)))
    (m ((c : Thread nD τ).loc main_arg2)) (m ((c : Thread nD τ).loc main_arg3)) p k

/-- Region 0 sees the launch arrays, the neighbour sum and the first bias as a row: its hidden layer is `hK`. -/
theorem hidV_V1 (p : Fin 100000) (k : Fin 64) : hidV (V1 m) c p k = hK m c p k := by
  unfold hidV hK Cert.Spec.hid rd
  rw [V1_arg0, V1_arg2, V1_v13, V1_v14, asRow_apply]

theorem v18_apply (p : Fin 100000) (k : Fin 64) : rd S100000x64 (V3 m c main_v18_0) (ix2 p k) = hK m c p k := by
  rw [V3_v18_0, final0_4_apply, hidV_V1]

theorem mean_apply (k : Fin 64) : rd S1x64 (V3 m c main_v31) (ix2 0 k) = Cert.Spec.meanK fun p => hK m c p k := by
  unfold rd
  rw [V3_v31, asRow_apply, meanOf_apply, V2_v18_1]
  unfold Cert.Spec.meanK Cert.Spec.total
  refine congrArg (fun z => Ideal.div ((0 : EReal) + z) Cert.Spec.nW) (Finset.sum_congr rfl fun cc _ => ?_)
  refine (final0_5_apply (V1 m) c cc k).trans ?_
  simp only [hidV_V1]

theorem meansq_apply (k : Fin 64) :
    meanOf (F := Ideal) (V2 m c main_v18_2) (ix1 k) = Ideal.div (Cert.Spec.total fun p => hK m c p k * hK m c p k) Cert.Spec.nW := by
  rw [meanOf_apply, V2_v18_2]
  unfold Cert.Spec.total
  refine congrArg (fun z => Ideal.div ((0 : EReal) + z) Cert.Spec.nW) (Finset.sum_congr rfl fun cc _ => ?_)
  refine (final0_6_apply (V1 m) c cc k).trans ?_
  simp only [hidV_V1]

theorem var_apply (k : Fin 64) : rd S1x64 (V3 m c main_v32) (ix2 0 k) = Cert.Spec.varK fun p => hK m c p k := by
  unfold rd
  rw [V3_v32, asRow_apply, varOf_apply, meansq_apply]
  have hm := mean_apply m c k
  unfold rd at hm
  rw [V3_v31, asRow_apply] at hm
  rw [hm]
  rfl

/-- The kernel's result at (p, q). -/
theorem result_apply (p : Fin 100000) (q : Fin 64) :
    rd S100000x64 ((dat1 (F := Ideal) (V3 m) c).arrAt 7 cfg1.N) (ix2 p q)
      = Cert.Spec.tail (fun p k => hK m c p k) (fun k => Cert.Spec.meanK fun p => hK m c p k) (fun k => Cert.Spec.varK fun p => hK m c p k)
          (m ((c : Thread nD τ).loc main_arg4)) (m ((c : Thread nD τ).loc main_arg5)) (m ((c : Thread nD τ).loc main_arg6)) (m ((c : Thread nD τ).loc main_arg7)) p q := by
  rw [final1_apply (V3 m) c p q]
  unfold Cert.Spec.tail
  have hg : ∀ k : Fin 64, rd S1x64 (V3 m c main_v16) (ix2 0 k) = m ((c : Thread nD τ).loc main_arg4) (ix1 k) := fun k => by
    unfold rd; rw [V3_v16, asRow_apply]
  have hb : ∀ k : Fin 64, rd S1x64 (V3 m c main_v17) (ix2 0 k) = m ((c : Thread nD τ).loc main_arg5) (ix1 k) := fun k => by
    unfold rd; rw [V3_v17, asRow_apply]
  have hb2 : rd S1x64 (V3 m c main_v15) (ix2 0 q) = m ((c : Thread nD τ).loc main_arg7) (ix1 q) := by
    unfold rd; rw [V3_v15, asRow_apply]
  have hw : ∀ k : Fin 64, rd S64x64 (V3 m c main_arg6) (ix2 k q) = m ((c : Thread nD τ).loc main_arg6) (ix2 k q) := fun k => by
    unfold rd; rw [V3_arg6]
  rw [hb2]
  refine congrArg (fun z => max (z + m ((c : Thread nD τ).loc main_arg7) (ix1 q)) 0) (Finset.sum_congr rfl fun k _ => ?_)
  rw [v18_apply m c p k, mean_apply m c k, var_apply m c k, hg k, hb k, hw k]

end Cert.KernelIdeal.Hand

end
-- ==== Proof.RefRun.lean ====
/-
  The reference program's run.

  The reference is a straight line of host tensor operations: the two rows of the edge table are
  sliced out and flattened, negative source indices are wrapped, the source rows are gathered and
  scatter-added into a zero table (the neighbour sum `aggR`); then the first linear layer (`hidR`),
  the column mean (`meanV`) and the column variance (`varV`: the mean of squared deviations, divided by
  a count that is computed as 100000 minus the integer 0 converted to a float, and guarded by a test
  that this count is positive), the normalisation, scale and shift, a rectifier, the second linear
  layer and a last rectifier (`tailR`).  Three of these steps are calls of outlined functions (the
  variance, which itself calls a select function, and the rectifier twice); a call runs the callee's
  operations on the caller's buffers, so the whole program is one list of 76 operations.

  `run` states: every weakly fair execution terminates, the result buffer holds `refOut` of the
  arguments' launch contents, and the eight arguments are unchanged.
-/
import proofs.«120235_j55783035240590_2_alg».proof.ReferenceIdeal
import proofs.«120235_j55783035240590_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The composed terms -/

/-- Row `r` of the edge table as a flat vector of 1200000 indices. -/
def edgeRow (r : Fin 2) (ei : (⟨S2x1200000, .i32⟩ : BufTy).Contents (Elt F)) : (⟨S1200000, .i32⟩ : BufTy).Contents (Elt F) :=
  match r with
  | 0 => fun i => shapeCast S1200000 (extractStridedSlice S1x1200000 ![0, 0] ei slices_S2x1200000_S1x1200000_0_0) shapeCasts_S1x1200000_S1200000 i
  | 1 => fun i => shapeCast S1200000 (extractStridedSlice S1x1200000 ![1, 0] ei slices_S2x1200000_S1x1200000_1_0) shapeCasts_S1x1200000_S1200000 i

/-- The source indices with a negative one wrapped by the node count, as a column. -/
def srcCol (ei : (⟨S2x1200000, .i32⟩ : BufTy).Contents (Elt F)) : (⟨S1200000x1, .i32⟩ : BufTy).Contents (Elt F) :=
  broadcastInDim S1200000x1 ![0] bcast_S1200000_S1200000x1_0
    (select (cmpi .slt (edgeRow 0 ei) (broadcastInDim S1200000 ![] bcast_S_S1200000 (constantI S_ 32 0#32)))
      (addi (edgeRow 0 ei) (broadcastInDim S1200000 ![] bcast_S_S1200000 (constantI S_ 32 100000#32)))
      (edgeRow 0 ei))

/-- The neighbour sum: each edge's source row, gathered, is added into its destination row of a zero table. -/
def aggR (x : (⟨S100000x64, .f32⟩ : BufTy).Contents (Elt F)) (ei : (⟨S2x1200000, .i32⟩ : BufTy).Contents (Elt F)) : (⟨S100000x64, .f32⟩ : BufTy).Contents (Elt F) :=
  Host.scatterAdd scatter_S100000x64_S1200000x1_S1200000x64_1_0_0_1
    (broadcastInDim S100000x64 ![] bcast_S_S100000x64 (constant S_ .f32 0x00000000#32))
    (broadcastInDim S1200000x1 ![0] bcast_S1200000_S1200000x1_0 (edgeRow 1 ei))
    (Host.gather gather_S100000x64_S1200000x1_S1200000x64_1_0_n_n_0_1_164 x (srcCol ei))

/-- A vector of 64 repeated down the 100000 rows. -/
def rowBcast (v : (⟨S64, .f32⟩ : BufTy).Contents (Elt F)) : (⟨S100000x64, .f32⟩ : BufTy).Contents (Elt F) :=
  broadcastInDim S100000x64 ![0, 1] bcast_S1x64_S100000x64_0_1 (broadcastInDim S1x64 ![1] bcast_S64_S1x64_1 v)

/-- A table, times a 64 x 64 matrix, plus a bias row. -/
def linearR (t : (⟨S100000x64, .f32⟩ : BufTy).Contents (Elt F)) (W : (⟨S64x64, .f32⟩ : BufTy).Contents (Elt F)) (b : (⟨S64, .f32⟩ : BufTy).Contents (Elt F)) : (⟨S100000x64, .f32⟩ : BufTy).Contents (Elt F) :=
  addf (Host.dotGeneral dot_S100000x64_S64x64_S100000x64_1_0_0_1_n_n none t W) (rowBcast b)

/-- The first linear layer of a node's features plus its neighbour sum. -/
def hidR (x : (⟨S100000x64, .f32⟩ : BufTy).Contents (Elt F)) (ei : (⟨S2x1200000, .i32⟩ : BufTy).Contents (Elt F)) (W1 : (⟨S64x64, .f32⟩ : BufTy).Contents (Elt F)) (b1 : (⟨S64, .f32⟩ : BufTy).Contents (Elt F)) : (⟨S100000x64, .f32⟩ : BufTy).Contents (Elt F) :=
  linearR (addf x (aggR x ei)) W1 b1

/-- The column sums, from zero. -/
def colSum (h : (⟨S100000x64, .f32⟩ : BufTy).Contents (Elt F)) : (⟨S64, .f32⟩ : BufTy).Contents (Elt F) :=
  Host.reduceAdd h (constant S_ .f32 0x00000000#32) reducesTo_S100000x64_S64_d0 h_S_

/-- The column means: the column sums over the node count. -/
def meanV (h : (⟨S100000x64, .f32⟩ : BufTy).Contents (Elt F)) : (⟨S64, .f32⟩ : BufTy).Contents (Elt F) :=
  Host.divf (colSum h) (broadcastInDim S64 ![] bcast_S_S64 (constant S_ .f32 0x47C35000#32))

/-- The variance's divisor: the node count minus the integer 0 as a float. -/
def cntV : (⟨S_, .f32⟩ : BufTy).Contents (Elt F) :=
  subf (constant S_ .f32 0x47C35000#32) (sitofp .f32 (constantI S_ 32 0#32))

/-- The deviations from the column means (the means here computed on a 1 x 64 row). -/
def devV (h : (⟨S100000x64, .f32⟩ : BufTy).Contents (Elt F)) : (⟨S100000x64, .f32⟩ : BufTy).Contents (Elt F) :=
  subf h (broadcastInDim S100000x64 ![0, 1] bcast_S1x64_S100000x64_0_1
    (Host.divf (broadcastInDim S1x64 ![1] bcast_S64_S1x64_1 (colSum h))
      (broadcastInDim S1x64 ![] bcast_S_S1x64 (constant S_ .f32 0x47C35000#32))))

/-- The column variances: the mean of squared deviations where the divisor is positive, else the not-a-number word. -/
def varV (h : (⟨S100000x64, .f32⟩ : BufTy).Contents (Elt F)) : (⟨S64, .f32⟩ : BufTy).Contents (Elt F) :=
  select (broadcastInDim S64 ![] bcast_S_S64 (cmpf .ogt (cntV (F := F)) (constant S_ .f32 0x00000000#32)))
    (Host.divf (colSum (mulf (devV h) (devV h))) (broadcastInDim S64 ![] bcast_S_S64 (cntV (F := F))))
    (broadcastInDim S64 ![] bcast_S_S64 (id (constant S_ .f32 0x7FC00000#32)))

/-- The rectifier: the maximum with a zero table. -/
def reluR (t : (⟨S100000x64, .f32⟩ : BufTy).Contents (Elt F)) : (⟨S100000x64, .f32⟩ : BufTy).Contents (Elt F) :=
  maximumf t (broadcastInDim S100000x64 ![] bcast_S_S100000x64 (constant S_ .f32 0x00000000#32))

/-- Everything after the statistics: normalise, scale, shift, rectify, second linear layer, rectify. -/
def tailR (h : (⟨S100000x64, .f32⟩ : BufTy).Contents (Elt F)) (mean var gamma beta : (⟨S64, .f32⟩ : BufTy).Contents (Elt F)) (W2 : (⟨S64x64, .f32⟩ : BufTy).Contents (Elt F)) (b2 : (⟨S64, .f32⟩ : BufTy).Contents (Elt F)) : (⟨S100000x64, .f32⟩ : BufTy).Contents (Elt F) :=
  reluR (linearR (reluR (addf (mulf (mulf (subf h (rowBcast mean))
      (rowBcast (Host.rsqrt (addf var (broadcastInDim S64 ![] bcast_S_S64 (constant S_ .f32 0x3727C5AC#32))))))
      (rowBcast gamma)) (rowBcast beta))) W2 b2)

/-- The whole reference, as a function of its eight arguments. -/
def refOut (x : (⟨S100000x64, .f32⟩ : BufTy).Contents (Elt F)) (ei : (⟨S2x1200000, .i32⟩ : BufTy).Contents (Elt F)) (W1 : (⟨S64x64, .f32⟩ : BufTy).Contents (Elt F)) (b1 gamma beta : (⟨S64, .f32⟩ : BufTy).Contents (Elt F))
    (W2 : (⟨S64x64, .f32⟩ : BufTy).Contents (Elt F)) (b2 : (⟨S64, .f32⟩ : BufTy).Contents (Elt F)) : (⟨S100000x64, .f32⟩ : BufTy).Contents (Elt F) :=
  tailR (hidR x ei W1 b1) (meanV (hidR x ei W1 b1)) (varV (hidR x ei W1 b1)) gamma beta W2 b2

/-! ## The program as a list of operations -/

/-- The 76 operations in order: 28 of the main function up to the integer 0 handed to the variance, the
    variance's 19 and the 3 of the select function it calls, 16 more of the main function, the rectifier's 3, the second
    linear layer's 4, the rectifier's 3 again. -/
abbrev ops : List (HloOp τ sig (Elt F)) :=
  [ unary main_arg1 main_v0 ((extractStridedSlice S1x1200000 ![0, 0] · slices_S2x1200000_S1x1200000_0_0) : (⟨S2x1200000, .i32⟩ : BufTy).Contents (Elt F) → (⟨S1x1200000, .i32⟩ : BufTy).Contents (Elt F)),
    reshape main_v0 main_v1 rfl shapeCasts_S1x1200000_S1200000,
    unary main_arg1 main_v2 ((extractStridedSlice S1x1200000 ![1, 0] · slices_S2x1200000_S1x1200000_1_0) : (⟨S2x1200000, .i32⟩ : BufTy).Contents (Elt F) → (⟨S1x1200000, .i32⟩ : BufTy).Contents (Elt F)),
    reshape main_v2 main_v3 rfl shapeCasts_S1x1200000_S1200000,
    nullary main_c (constantI S_ 32 0#32),
    unary main_c main_v4 (broadcastInDim S1200000 ![] bcast_S_S1200000 : (⟨S_, .i32⟩ : BufTy).Contents (Elt F) → (⟨S1200000, .i32⟩ : BufTy).Contents (Elt F)),
    binary main_v1 main_v4 main_v5 (cmpi .slt : (⟨S1200000, .i32⟩ : BufTy).Contents (Elt F) → (⟨S1200000, .i32⟩ : BufTy).Contents (Elt F) → (⟨S1200000, .i1⟩ : BufTy).Contents (Elt F)),
    nullary main_c_0 (constantI S_ 32 100000#32),
    unary main_c_0 main_v6 (broadcastInDim S1200000 ![] bcast_S_S1200000 : (⟨S_, .i32⟩ : BufTy).Contents (Elt F) → (⟨S1200000, .i32⟩ : BufTy).Contents (Elt F)),
    binary main_v1 main_v6 main_v7 (addi : (⟨S1200000, .i32⟩ : BufTy).Contents (Elt F) → (⟨S1200000, .i32⟩ : BufTy).Contents (Elt F) → (⟨S1200000, .i32⟩ : BufTy).Contents (Elt F)),
    ternary main_v5 main_v7 main_v1 main_v8 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v8 main_v9 (broadcastInDim S1200000x1 ![0] bcast_S1200000_S1200000x1_0 : (⟨S1200000, .i32⟩ : BufTy).Contents (Elt F) → (⟨S1200000x1, .i32⟩ : BufTy).Contents (Elt F)),
    binary main_arg0 main_v9 main_v10 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    nullary main_cst (constant S_ .f32 0x00000000#32),
    unary main_cst main_v11 (broadcastInDim S100000x64 ![] bcast_S_S100000x64 : (⟨S_, .f32⟩ : BufTy).Contents (Elt F) → (⟨S100000x64, .f32⟩ : BufTy).Contents (Elt F)),
    unary main_v3 main_v12 (broadcastInDim S1200000x1 ![0] bcast_S1200000_S1200000x1_0 : (⟨S1200000, .i32⟩ : BufTy).Contents (Elt F) → (⟨S1200000x1, .i32⟩ : BufTy).Contents (Elt F)),
    ternary main_v11 main_v12 main_v10 main_v13 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    binary main_arg0 main_v13 main_v14 (addf : (⟨S100000x64, .f32⟩ : BufTy).Contents (Elt F) → (⟨S100000x64, .f32⟩ : BufTy).Contents (Elt F) → (⟨S100000x64, .f32⟩ : BufTy).Contents (Elt F)),
    binary main_v14 main_arg2 main_v15 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg3 main_v16 (broadcastInDim S1x64 ![1] bcast_S64_S1x64_1 : (⟨S64, .f32⟩ : BufTy).Contents (Elt F) → (⟨S1x64, .f32⟩ : BufTy).Contents (Elt F)),
    unary main_v16 main_v17 (broadcastInDim S100000x64 ![0, 1] bcast_S1x64_S100000x64_0_1 : (⟨S1x64, .f32⟩ : BufTy).Contents (Elt F) → (⟨S100000x64, .f32⟩ : BufTy).Contents (Elt F)),
    binary main_v15 main_v17 main_v18 (addf : (⟨S100000x64, .f32⟩ : BufTy).Contents (Elt F) → (⟨S100000x64, .f32⟩ : BufTy).Contents (Elt F) → (⟨S100000x64, .f32⟩ : BufTy).Contents (Elt F)),
    nullary main_cst_1 (constant S_ .f32 0x00000000#32),
    binary main_v18 main_cst_1 main_v19 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_2 (constant S_ .f32 0x47C35000#32),
    unary main_cst_2 main_v20 (broadcastInDim S64 ![] bcast_S_S64 : (⟨S_, .f32⟩ : BufTy).Contents (Elt F) → (⟨S64, .f32⟩ : BufTy).Contents (Elt F)),
    binary main_v19 main_v20 main_v21 (Host.divf : (⟨S64, .f32⟩ : BufTy).Contents (Elt F) → (⟨S64, .f32⟩ : BufTy).Contents (Elt F) → (⟨S64, .f32⟩ : BufTy).Contents (Elt F)),
    nullary main_c_3 (constantI S_ 32 0#32),
    TRef.nullary main_call0.cst (constant S_ .f32 0x00000000#32),
    TRef.binary (.of main_v18 : TRef sig ⟨S100000x64, .f32⟩) main_call0.cst main_call0.v0 (fun x v => Host.reduceAdd x v reducesTo_S100000x64_S64_d0 h_S_),
    TRef.unary main_call0.v0 main_call0.v1 (broadcastInDim S1x64 ![1] bcast_S64_S1x64_1),
    TRef.nullary main_call0.cst_0 (constant S_ .f32 0x47C35000#32),
    TRef.unary main_call0.cst_0 main_call0.v2 (broadcastInDim S1x64 ![] bcast_S_S1x64),
    TRef.binary main_call0.v1 main_call0.v2 main_call0.v3 Host.divf,
    TRef.unary main_call0.v3 main_call0.v4 (broadcastInDim S100000x64 ![0, 1] bcast_S1x64_S100000x64_0_1),
    TRef.binary (.of main_v18 : TRef sig ⟨S100000x64, .f32⟩) main_call0.v4 main_call0.v5 subf,
    TRef.binary main_call0.v5 main_call0.v5 main_call0.v6 mulf,
    TRef.unary (.of main_c_3 : TRef sig ⟨S_, .i32⟩) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x64_S64_d0 h_S_),
    TRef.unary main_call0.v8 main_call0.v10 (broadcastInDim S64 ![] bcast_S_S64),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S64 ![] bcast_S_S64),
    TRef.ternary main_call0.v12 main_call0.v11 main_call0.call0.v1 main_call0.call0.v2 (fun p a b => select (broadcastInDim S64 ![] bcast_S_S64 p) a b),
    unary main_v21 main_v23 (broadcastInDim S1x64 ![1] bcast_S64_S1x64_1 : (⟨S64, .f32⟩ : BufTy).Contents (Elt F) → (⟨S1x64, .f32⟩ : BufTy).Contents (Elt F)),
    unary main_v23 main_v24 (broadcastInDim S100000x64 ![0, 1] bcast_S1x64_S100000x64_0_1 : (⟨S1x64, .f32⟩ : BufTy).Contents (Elt F) → (⟨S100000x64, .f32⟩ : BufTy).Contents (Elt F)),
    binary main_v18 main_v24 main_v25 (subf : (⟨S100000x64, .f32⟩ : BufTy).Contents (Elt F) → (⟨S100000x64, .f32⟩ : BufTy).Contents (Elt F) → (⟨S100000x64, .f32⟩ : BufTy).Contents (Elt F)),
    nullary main_cst_4 (constant S_ .f32 0x3727C5AC#32),
    unary main_cst_4 main_v26 (broadcastInDim S64 ![] bcast_S_S64 : (⟨S_, .f32⟩ : BufTy).Contents (Elt F) → (⟨S64, .f32⟩ : BufTy).Contents (Elt F)),
    binary main_v22 main_v26 main_v27 (addf : (⟨S64, .f32⟩ : BufTy).Contents (Elt F) → (⟨S64, .f32⟩ : BufTy).Contents (Elt F) → (⟨S64, .f32⟩ : BufTy).Contents (Elt F)),
    unary main_v27 main_v28 (Host.rsqrt : (⟨S64, .f32⟩ : BufTy).Contents (Elt F) → (⟨S64, .f32⟩ : BufTy).Contents (Elt F)),
    unary main_v28 main_v29 (broadcastInDim S1x64 ![1] bcast_S64_S1x64_1 : (⟨S64, .f32⟩ : BufTy).Contents (Elt F) → (⟨S1x64, .f32⟩ : BufTy).Contents (Elt F)),
    unary main_v29 main_v30 (broadcastInDim S100000x64 ![0, 1] bcast_S1x64_S100000x64_0_1 : (⟨S1x64, .f32⟩ : BufTy).Contents (Elt F) → (⟨S100000x64, .f32⟩ : BufTy).Contents (Elt F)),
    binary main_v25 main_v30 main_v31 (mulf : (⟨S100000x64, .f32⟩ : BufTy).Contents (Elt F) → (⟨S100000x64, .f32⟩ : BufTy).Contents (Elt F) → (⟨S100000x64, .f32⟩ : BufTy).Contents (Elt F)),
    unary main_arg4 main_v32 (broadcastInDim S1x64 ![1] bcast_S64_S1x64_1 : (⟨S64, .f32⟩ : BufTy).Contents (Elt F) → (⟨S1x64, .f32⟩ : BufTy).Contents (Elt F)),
    unary main_v32 main_v33 (broadcastInDim S100000x64 ![0, 1] bcast_S1x64_S100000x64_0_1 : (⟨S1x64, .f32⟩ : BufTy).Contents (Elt F) → (⟨S100000x64, .f32⟩ : BufTy).Contents (Elt F)),
    binary main_v31 main_v33 main_v34 (mulf : (⟨S100000x64, .f32⟩ : BufTy).Contents (Elt F) → (⟨S100000x64, .f32⟩ : BufTy).Contents (Elt F) → (⟨S100000x64, .f32⟩ : BufTy).Contents (Elt F)),
    unary main_arg5 main_v35 (broadcastInDim S1x64 ![1] bcast_S64_S1x64_1 : (⟨S64, .f32⟩ : BufTy).Contents (Elt F) → (⟨S1x64, .f32⟩ : BufTy).Contents (Elt F)),
    unary main_v35 main_v36 (broadcastInDim S100000x64 ![0, 1] bcast_S1x64_S100000x64_0_1 : (⟨S1x64, .f32⟩ : BufTy).Contents (Elt F) → (⟨S100000x64, .f32⟩ : BufTy).Contents (Elt F)),
    binary main_v34 main_v36 main_v37 (addf : (⟨S100000x64, .f32⟩ : BufTy).Contents (Elt F) → (⟨S100000x64, .f32⟩ : BufTy).Contents (Elt F) → (⟨S100000x64, .f32⟩ : BufTy).Contents (Elt F)),
    TRef.nullary main_call1.cst (constant S_ .f32 0x00000000#32),
    TRef.unary main_call1.cst main_call1.v0 (broadcastInDim S100000x64 ![] bcast_S_S100000x64),
    TRef.binary (.of main_v37 : TRef sig ⟨S100000x64, .f32⟩) main_call1.v0 main_call1.v1 maximumf,
    binary main_v38 main_arg6 main_v39 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg7 main_v40 (broadcastInDim S1x64 ![1] bcast_S64_S1x64_1 : (⟨S64, .f32⟩ : BufTy).Contents (Elt F) → (⟨S1x64, .f32⟩ : BufTy).Contents (Elt F)),
    unary main_v40 main_v41 (broadcastInDim S100000x64 ![0, 1] bcast_S1x64_S100000x64_0_1 : (⟨S1x64, .f32⟩ : BufTy).Contents (Elt F) → (⟨S100000x64, .f32⟩ : BufTy).Contents (Elt F)),
    binary main_v39 main_v41 main_v42 (addf : (⟨S100000x64, .f32⟩ : BufTy).Contents (Elt F) → (⟨S100000x64, .f32⟩ : BufTy).Contents (Elt F) → (⟨S100000x64, .f32⟩ : BufTy).Contents (Elt F)),
    TRef.nullary main_call2.cst (constant S_ .f32 0x00000000#32),
    TRef.unary main_call2.cst main_call2.v0 (broadcastInDim S100000x64 ![] bcast_S_S100000x64),
    TRef.binary (.of main_v42 : TRef sig ⟨S100000x64, .f32⟩) main_call2.v0 main_call2.v1 maximumf ]

set_option maxRecDepth 8192 in
set_option maxHeartbeats 4000000 in
/-- The main function is that straight line: the callees unfolded at their calls, sequencing reassociated. -/
theorem main_eq (c : Dev nD) : main (F := F) c = seq ops := by
  simp only [main, fn_var.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., binary_bufs_sub ..,
    binary_bufs_sub .., unary_bufs_sub .., unary_bufs_sub .., binary_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., nullary_bufs_sub .., unary_bufs_sub .., binary_bufs_sub ..⟩

set_option maxRecDepth 8192 in
set_option maxHeartbeats 8000000 in
/-- What the result buffer holds after the 76 operations, from any contents `V`: `refOut` of the arguments' contents. -/
theorem after_out (V : Valuation τ sig (Elt F)) :
    after ops V (Proc.devRef .tc main_v43) = refOut (V (Proc.devRef .tc main_arg0)) (V (Proc.devRef .tc main_arg1)) (V (Proc.devRef .tc main_arg2))
      (V (Proc.devRef .tc main_arg3)) (V (Proc.devRef .tc main_arg4)) (V (Proc.devRef .tc main_arg5)) (V (Proc.devRef .tc main_arg6)) (V (Proc.devRef .tc main_arg7)) := by
  after_results_simp
  rfl

set_option maxRecDepth 8192 in
set_option maxHeartbeats 8000000 in
/-- No operation writes an argument. -/
theorem after_args (V : Valuation τ sig (Elt F)) :
    after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3)
    ∧ after ops V (Proc.devRef .tc main_arg4) = V (Proc.devRef .tc main_arg4)
    ∧ after ops V (Proc.devRef .tc main_arg5) = V (Proc.devRef .tc main_arg5)
    ∧ after ops V (Proc.devRef .tc main_arg6) = V (Proc.devRef .tc main_arg6)
    ∧ after ops V (Proc.devRef .tc main_arg7) = V (Proc.devRef .tc main_arg7) := by
  refine ⟨?_, ?_, ?_, ?_, ?_, ?_, ?_, ?_⟩ <;> after_results_simp

/-- On every device, for any float values, from any memory with zero counters: every weakly fair execution of the
    main function terminates with the result at `refOut` of the arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v43) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c main_v43).trans (after_out (launchContents m c)),
      (h c main_arg0).trans (after_args (launchContents m c)).1,
      (h c main_arg1).trans (after_args (launchContents m c)).2.1,
      (h c main_arg2).trans (after_args (launchContents m c)).2.2.1,
      (h c main_arg3).trans (after_args (launchContents m c)).2.2.2.1,
      (h c main_arg4).trans (after_args (launchContents m c)).2.2.2.2.1,
      (h c main_arg5).trans (after_args (launchContents m c)).2.2.2.2.2.1,
      (h c main_arg6).trans (after_args (launchContents m c)).2.2.2.2.2.2.1,
      (h c main_arg7).trans (after_args (launchContents m c)).2.2.2.2.2.2.2⟩)
    (run_seq scopedRefs_eq scopedSems_eq defs main (fun _ => ops) main_eq (fun _ => ops_sub) m ρ)

end Cert.ReferenceIdeal.Hand

end
-- ==== Proof.RefRead.lean ====
/-
  The reference's result read at one entry.

  Each host operation is read at an index: a broadcast of a 64-vector down the rows reads the vector at the
  column; the product with a 64 x 64 matrix is the sum over the contracted coordinate; a sum over the node
  axis, from zero, is zero plus the sum over the 100000 rows; division, reciprocal square root, maximum and
  the elementwise arithmetic act entry by entry.  The variance's divisor is the node count minus the integer
  zero converted to a float, which is the node count; the word of the node count denotes 100000, which is
  positive, so the guard selects the quotient and never the not-a-number word.

  Composed, entry (p, q) of the reference's result is the shared specification's `tail` of the hidden layer
  `hid` with the textbook statistics `meanR` and `varR` of its columns.
-/
import proofs.«120235_j55783035240590_2_alg».proof.Proof.RefRun
import proofs.«120235_j55783035240590_2_alg».proof.Proof.Spec
import proofs.«120235_j55783035240590_2_alg».proof.Proof.LibDotPlain
import Idealize.ShloMosaic.PureOps.Ideal.Laws
import Idealize.ShloMosaic.Lib.ValueIdx
import Idealize.ShloMosaic.Lib.Pipeline.Value

noncomputable section

open scoped BigOperators

namespace Cert.ReferenceIdeal.Hand

open Cert.ReferenceIdeal Cert.ReferenceIdeal.Gen Idealize.ShloMosaic Idealize.ShloMosaic.ValueIdx

/-- A 100000 x 64 table, a 64 x 64 matrix, a 64-vector of extended reals; the 2 x 1200000 edge table. -/
abbrev TN : Type := (⟨S100000x64, .f32⟩ : BufTy).Contents (Elt Ideal)
abbrev TW : Type := (⟨S64x64, .f32⟩ : BufTy).Contents (Elt Ideal)
abbrev TV : Type := (⟨S64, .f32⟩ : BufTy).Contents (Elt Ideal)
abbrev TE : Type := (⟨S2x1200000, .i32⟩ : BufTy).Contents (Elt Ideal)

/-! ## Broadcasts -/

variable {α : Type}

/-- A 1 x 64 row repeated down 100000 rows reads the row at the column. -/
theorem bcastRows_apply (v : S1x64.Idx → α) (p : Fin 100000) (k : Fin 64) :
    broadcastInDim S100000x64 ![0, 1] bcast_S1x64_S100000x64_0_1 v (ix2 p k) = v (ix2 (0 : Fin 1) k) :=
  broadcastInDim_apply ![0, 1] bcast_S1x64_S100000x64_0_1 v (ix2 p k) (ix2 (0 : Fin 1) k) (fun a => by
    match a with
    | ⟨0, _⟩ => rfl
    | ⟨1, _⟩ => rfl)

/-- A 64-vector as a 1 x 64 row reads the vector at the column. -/
theorem bcastRow_apply (v : S64.Idx → α) (k : Fin 64) :
    broadcastInDim S1x64 ![1] bcast_S64_S1x64_1 v (ix2 (0 : Fin 1) k) = v (ix1 k) :=
  broadcastInDim_apply ![1] bcast_S64_S1x64_1 v (ix2 (0 : Fin 1) k) (ix1 k) (fun a => by
    match a with
    | ⟨0, _⟩ => rfl)

theorem rowBcast_apply (v : TV) (p : Fin 100000) (k : Fin 64) : rowBcast (F := Ideal) v (ix2 p k) = v (ix1 k) :=
  (bcastRows_apply _ p k).trans (bcastRow_apply v k)

/-! ## The linear layers -/

/-- The product with a 64 x 64 matrix at entry (p, q): the sum over the contracted coordinate. -/
theorem dot_apply (t : TN) (W : TW) (p : Fin 100000) (q : Fin 64) :
    Host.dotGeneral (F := Ideal) (φ₁ := .f32) (φ₂ := .f32) dot_S100000x64_S64x64_S100000x64_1_0_0_1_n_n none t W (ix2 p q)
      = ∑ k : Fin 64, t (ix2 p k) * W (ix2 k q) := by
  simp only [Host.dotGeneral]
  rw [Ideal.dotGeneral_apply]
  exact Cert.LibDotPlain.sum_contr_plain dot_S100000x64_S64x64_S100000x64_1_0_0_1_n_n rfl rfl
    (fun _ _ => rfl)
    (fun i k => dot_S100000x64_S64x64_S100000x64_1_0_0_1_n_n.lhsIdx_val_of_single (cl := 1) rfl i k)
    (fun i k => dot_S100000x64_S64x64_S100000x64_1_0_0_1_n_n.rhsIdx_val_of_single (cr := 0) rfl i k)
    (fun _ _ => rfl) t W p q

theorem linearR_apply (t : TN) (W : TW) (b : TV) (p : Fin 100000) (q : Fin 64) :
    linearR (F := Ideal) t W b (ix2 p q) = (∑ k : Fin 64, t (ix2 p k) * W (ix2 k q)) + b (ix1 q) := by
  show Host.dotGeneral (F := Ideal) (φ₁ := .f32) (φ₂ := .f32) dot_S100000x64_S64x64_S100000x64_1_0_0_1_n_n none t W (ix2 p q)
      + rowBcast (F := Ideal) b (ix2 p q) = _
  rw [dot_apply, rowBcast_apply]

/-- The hidden layer at node `p`, feature `k`. -/
theorem hidR_apply (x : TN) (ei : TE) (W1 : TW) (b1 : TV) (p : Fin 100000) (k : Fin 64) :
    hidR (F := Ideal) x ei W1 b1 (ix2 p k) = Cert.Spec.hid x (aggR x ei) W1 b1 p k :=
  linearR_apply _ W1 b1 p k

/-! ## The statistics -/

/-- The sum of column `k` from zero. -/
theorem colSum_apply (h : TN) (k : Fin 64) :
    colSum (F := Ideal) h (ix1 k) = 0 + ∑ p : Fin 100000, h (ix2 p k) := by
  have hr : S100000x64.Reduces [0] S64 := by decide
  show Ideal.hostReduceAdd reducesTo_S100000x64_S64_d0 h (Ideal.ofBits .f32 0x00000000#32) (ix1 k) = _
  rw [Ideal.hostReduceAdd_single reducesTo_S100000x64_S64_d0 hr, Ideal.ofBits_zero_f32]
  exact congrArg (0 + ·) (Finset.sum_congr rfl fun p _ => congrArg h (funext fun c => Fin.ext (by
    match c with
    | ⟨0, _⟩ => rfl
    | ⟨1, _⟩ => rfl)))

/-- The mean of column `k`. -/
theorem meanV_apply (h : TN) (k : Fin 64) :
    meanV (F := Ideal) h (ix1 k) = Cert.Spec.meanR fun p => h (ix2 p k) := by
  show Ideal.div (colSum (F := Ideal) h (ix1 k)) (Ideal.ofBits .f32 0x47C35000#32) = _
  rw [colSum_apply]
  rfl

/-- The word of the node count denotes 100000. -/
theorem nW_eq : Cert.Spec.nW = ((100000 : ℝ) : EReal) := by
  simp [Cert.Spec.nW, Ideal.ofBits, Ideal.ieee]
  norm_num
  exact_mod_cast (by norm_num : (12800000 : ℝ) * (1 / 128) = 100000)

/-- The variance's divisor: the node count less the integer zero as a float. -/
theorem cntV_apply (j : S_.Idx) : cntV (F := Ideal) j = Cert.Spec.nW := by
  show Ideal.ofBits .f32 0x47C35000#32 - (((0#32 : BitVec 32).toInt : ℝ) : EReal) = _
  have h0 : (0#32 : BitVec 32).toInt = 0 := by decide
  rw [h0, Int.cast_zero, EReal.coe_zero, sub_zero]
  rfl

/-- The node count is positive, so the guard's bit is one. -/
theorem cnt_gt : Ideal.cmp .ogt Cert.Spec.nW (Ideal.ofBits .f32 0x00000000#32) = 1#1 := by
  rw [Ideal.ofBits_zero_f32, nW_eq]
  have : (0 : EReal) < ((100000 : ℝ) : EReal) := by exact_mod_cast (by norm_num : (0 : ℝ) < 100000)
  simp [Ideal.cmp, this]

/-- A deviation from the column mean. -/
theorem devV_apply (h : TN) (p : Fin 100000) (k : Fin 64) :
    devV (F := Ideal) h (ix2 p k) = h (ix2 p k) - Cert.Spec.meanR fun p => h (ix2 p k) := by
  show h (ix2 p k) - broadcastInDim S100000x64 ![0, 1] bcast_S1x64_S100000x64_0_1
      (Host.divf (F := Ideal) (broadcastInDim S1x64 ![1] bcast_S64_S1x64_1 (colSum (F := Ideal) h))
        (broadcastInDim S1x64 ![] bcast_S_S1x64 (constant S_ .f32 0x47C35000#32))) (ix2 p k) = _
  rw [bcastRows_apply]
  show h (ix2 p k) - Ideal.div (broadcastInDim S1x64 ![1] bcast_S64_S1x64_1 (colSum (F := Ideal) h) (ix2 (0 : Fin 1) k))
      (Ideal.ofBits .f32 0x47C35000#32) = _
  rw [bcastRow_apply, colSum_apply]
  rfl

/-- A scalar repeated 64 times reads the scalar. -/
theorem splat64_apply (v : S_.Idx → α) (j : S64.Idx) : broadcastInDim S64 ![] bcast_S_S64 v j = v ix0 :=
  broadcastInDim_apply ![] bcast_S_S64 v j ix0 (fun a => a.elim0)

/-- The variance of column `k`. -/
theorem varV_apply (h : TN) (k : Fin 64) :
    varV (F := Ideal) h (ix1 k) = Cert.Spec.varR fun p => h (ix2 p k) := by
  unfold varV
  rw [select_apply]
  rw [splat64_apply, cmpf_apply, cntV_apply, constant_apply, Ideal.cmpf_def, cnt_gt, select_one]
  show Ideal.div (colSum (F := Ideal) (mulf (F := Ideal) (devV (F := Ideal) h) (devV (F := Ideal) h)) (ix1 k))
      (broadcastInDim S64 ![] bcast_S_S64 (cntV (F := Ideal)) (ix1 k)) = _
  rw [splat64_apply, cntV_apply, colSum_apply]
  refine congrArg (fun s => Ideal.div (0 + s) Cert.Spec.nW) (Finset.sum_congr rfl fun p _ => ?_)
  show devV (F := Ideal) h (ix2 p k) * devV (F := Ideal) h (ix2 p k) = _
  rw [devV_apply]

/-! ## After the statistics -/

theorem reluR_apply (t : TN) (j : S100000x64.Idx) : reluR (F := Ideal) t j = max (t j) 0 := by
  show max (t j) (Ideal.ofBits .f32 0x00000000#32) = _
  rw [Ideal.ofBits_zero_f32]

theorem tailR_apply (h : TN) (mean var gamma beta : TV) (W2 : TW) (b2 : TV) (p : Fin 100000) (q : Fin 64) :
    tailR (F := Ideal) h mean var gamma beta W2 b2 (ix2 p q)
      = Cert.Spec.tail (fun p k => h (ix2 p k)) (fun k => mean (ix1 k)) (fun k => var (ix1 k)) gamma beta W2 b2 p q := by
  unfold tailR Cert.Spec.tail
  rw [reluR_apply, linearR_apply]
  simp only [reluR_apply]
  refine congrArg (fun s => max (s + b2 (ix1 q)) 0) (Finset.sum_congr rfl fun k _ => ?_)
  refine congrArg (fun s => max s 0 * W2 (ix2 k q)) ?_
  show (((h (ix2 p k) - rowBcast (F := Ideal) mean (ix2 p k))
      * rowBcast (F := Ideal) (Host.rsqrt (F := Ideal) (addf (F := Ideal) var (broadcastInDim S64 ![] bcast_S_S64 (constant (F := Ideal) S_ .f32 0x3727C5AC#32)))) (ix2 p k))
      * rowBcast (F := Ideal) gamma (ix2 p k)) + rowBcast (F := Ideal) beta (ix2 p k) = _
  rw [rowBcast_apply, rowBcast_apply, rowBcast_apply, rowBcast_apply]
  rfl

/-- Entry (p, q) of the reference's result: the specification's `tail` of the hidden layer with the
    textbook mean and variance of its columns. -/
theorem refOut_apply (x : TN) (ei : TE) (W1 : TW) (b1 gamma beta : TV) (W2 : TW) (b2 : TV) (p : Fin 100000) (q : Fin 64) :
    refOut (F := Ideal) x ei W1 b1 gamma beta W2 b2 (ix2 p q)
      = Cert.Spec.tail (fun p k => Cert.Spec.hid x (aggR x ei) W1 b1 p k)
          (fun k => Cert.Spec.meanR fun p => Cert.Spec.hid x (aggR x ei) W1 b1 p k)
          (fun k => Cert.Spec.varR fun p => Cert.Spec.hid x (aggR x ei) W1 b1 p k) gamma beta W2 b2 p q := by
  unfold refOut
  rw [tailR_apply]
  simp only [hidR_apply, meanV_apply, varV_apply]

end Cert.ReferenceIdeal.Hand

end
-- ==== Proof.LibRealLift.lean ====
/-
  Finite arrays.  An array of extended reals that is the coercion of an array of reals stays one under every operation
  the two programs apply to finite data: sums, differences, products, a quotient by a nonzero real, `tanh`, `exp`, a
  change of float format (the identity), a matrix product into a zero accumulator, the host's `dot_general`, a sum
  along one axis (the kernel's and the host's), and every change of layout (which only re-indexes).  Each lemma names
  the real array the result is the coercion of, so that all further algebra is done over ℝ.
-/
import Idealize.ShloMosaic.PureOps.Ideal
import Idealize.ShloMosaic.PureOps.Ideal.Laws
import Idealize.ShloMosaic.Lib.ValueIdx
import Idealize.ShloMosaic.Lib.Pipeline.Value

noncomputable section

namespace Cert.RealLift

open Idealize.ShloMosaic

/-- `A` is the coercion of the real array `a`, entry by entry. -/
def IsR {ι : Type} (A : ι → EReal) (a : ι → ℝ) : Prop := ∀ i, A i = ((a i : ℝ) : EReal)

/-- The coercion of a finite sum of reals is the sum of the coercions. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A finite sum of products of finite entries is the coercion of the real sum of products. -/
theorem sum_mul_coe {ι : Type} (s : Finset ι) (f g : ι → EReal) (f' g' : ι → ℝ) (hf : ∀ i, f i = ((f' i : ℝ) : EReal))
    (hg : ∀ i, g i = ((g' i : ℝ) : EReal)) : ∑ i ∈ s, f i * g i = ((∑ i ∈ s, f' i * g' i : ℝ) : EReal) := by
  rw [coe_sum]
  exact Finset.sum_congr rfl fun i _ => by rw [hf i, hg i, EReal.coe_mul]

theorem sum_coe {ι : Type} (s : Finset ι) (f : ι → EReal) (f' : ι → ℝ) (hf : ∀ i, f i = ((f' i : ℝ) : EReal)) :
    ∑ i ∈ s, f i = ((∑ i ∈ s, f' i : ℝ) : EReal) := by
  rw [coe_sum]
  exact Finset.sum_congr rfl fun i _ => hf i

variable {s t : Shape} {φ : FTy}

namespace IsR

theorem of_eq {ι : Type} {A : ι → EReal} {a a' : ι → ℝ} (h : IsR A a) (e : ∀ i, a i = a' i) : IsR A a' :=
  fun i => (h i).trans (congrArg _ (e i))

theorem addf {A B : FVec Ideal s φ} {a b : s.Idx → ℝ} (hA : IsR A a) (hB : IsR B b) :
    IsR (Idealize.ShloMosaic.addf A B) (fun i => a i + b i) := fun i => by
  show A i + B i = _
  rw [hA i, hB i, EReal.coe_add]

theorem subf {A B : FVec Ideal s φ} {a b : s.Idx → ℝ} (hA : IsR A a) (hB : IsR B b) :
    IsR (Idealize.ShloMosaic.subf A B) (fun i => a i - b i) := fun i => by
  show A i - B i = _
  rw [hA i, hB i, EReal.coe_sub]

theorem mulf {A B : FVec Ideal s φ} {a b : s.Idx → ℝ} (hA : IsR A a) (hB : IsR B b) :
    IsR (Idealize.ShloMosaic.mulf A B) (fun i => a i * b i) := fun i => by
  show A i * B i = _
  rw [hA i, hB i, EReal.coe_mul]

/-- A quotient by a nonzero real. -/
theorem div_coe (x y : ℝ) (hy : y ≠ 0) : Ideal.div ((x : ℝ) : EReal) ((y : ℝ) : EReal) = ((x / y : ℝ) : EReal) := by
  rw [Ideal.div_coe hy, ← EReal.coe_mul, mul_one_div]

theorem divf {A B : FVec Ideal s φ} {a b : s.Idx → ℝ} (hA : IsR A a) (hB : IsR B b) (hb : ∀ i, b i ≠ 0) :
    IsR (Idealize.ShloMosaic.divf A B) (fun i => a i / b i) := fun i => by
  show Ideal.div (A i) (B i) = _
  rw [hA i, hB i, div_coe _ _ (hb i)]

theorem hostDivf {A B : FVec Ideal s φ} {a b : s.Idx → ℝ} (hA : IsR A a) (hB : IsR B b) (hb : ∀ i, b i ≠ 0) :
    IsR (Host.divf A B) (fun i => a i / b i) := fun i => by
  show Ideal.div (A i) (B i) = _
  rw [hA i, hB i, div_coe _ _ (hb i)]

theorem tanh {A : FVec Ideal s φ} {a : s.Idx → ℝ} (hA : IsR A a) :
    IsR (Idealize.ShloMosaic.tanh A) (fun i => Real.tanh (a i)) := fun i => by
  show Ideal.tanh (A i) = _
  rw [hA i]; rfl

theorem exp {A : FVec Ideal s φ} {a : s.Idx → ℝ} (hA : IsR A a) :
    IsR (Idealize.ShloMosaic.exp A) (fun i => Real.exp (a i)) := fun i => by
  show Ideal.exp (A i) = _
  rw [hA i]; rfl

theorem hostTanh {A : FVec Ideal s φ} {a : s.Idx → ℝ} (hA : IsR A a) :
    IsR (Host.tanh A) (fun i => Real.tanh (a i)) := fun i => by
  show Ideal.tanh (A i) = _
  rw [hA i]; rfl

theorem hostExp {A : FVec Ideal s φ} {a : s.Idx → ℝ} (hA : IsR A a) :
    IsR (Host.exp A) (fun i => Real.exp (a i)) := fun i => by
  show Ideal.exp (A i) = _
  rw [hA i]; rfl

/-- A change of float format is the identity on the extended reals. -/
theorem truncf {A : FVec Ideal s φ} {a : s.Idx → ℝ} (hA : IsR A a) (ψ : FTy) (h : ψ.bits < φ.bits) :
    IsR (Idealize.ShloMosaic.truncf ψ A h : FVec Ideal s ψ) a := fun i => hA i

theorem extf {A : FVec Ideal s φ} {a : s.Idx → ℝ} (hA : IsR A a) (ψ : FTy) (h : φ.bits < ψ.bits) :
    IsR (Idealize.ShloMosaic.extf ψ A h : FVec Ideal s ψ) a := fun i => hA i

/-- Layout operations only re-index. -/
theorem shapeCast {A : s.Idx → EReal} {a : s.Idx → ℝ} (hA : IsR A a) (h : s.ShapeCasts t) :
    IsR (Idealize.ShloMosaic.shapeCast t A h) (Idealize.ShloMosaic.shapeCast t a h) := fun _ => hA _

theorem broadcastTo {A : s.Idx → EReal} {a : s.Idx → ℝ} (hA : IsR A a) (h : s.Broadcasts t) :
    IsR (Idealize.ShloMosaic.broadcastTo t A h) (Idealize.ShloMosaic.broadcastTo t a h) := fun _ => hA _

theorem broadcastInDim {A : s.Idx → EReal} {a : s.Idx → ℝ} (hA : IsR A a) (dims : Fin s.rank → Fin t.rank)
    (h : s.BroadcastsInDim t dims) :
    IsR (Idealize.ShloMosaic.broadcastInDim t dims h A) (Idealize.ShloMosaic.broadcastInDim t dims h a) := fun _ => hA _

/-- A splat of a real. -/
theorem broadcast {x : EReal} {r : ℝ} (h : x = ((r : ℝ) : EReal)) : IsR (Idealize.ShloMosaic.broadcast s x) (fun _ => r) :=
  fun _ => h

theorem constant {b : BitVec φ.bits} {r : ℝ} (h : Ideal.ofBits φ b = ((r : ℝ) : EReal)) :
    IsR (Idealize.ShloMosaic.constant (F := Ideal) s φ b) (fun _ => r) := fun _ => h

/-- A matrix product of finite operands into the zero accumulator: the real sum of products over the contraction. -/
theorem matmul0 {sl sr so : Shape} {φ₁ φ₂ : FTy} (D : DotDims sl sr so) (prec : Option ContractPrecision)
    {A : FVec Ideal sl φ₁} {B : FVec Ideal sr φ₂} {a : sl.Idx → ℝ} {b : sr.Idx → ℝ} (hA : IsR A a) (hB : IsR B b) :
    IsR (Idealize.ShloMosaic.matmul D prec A B (Idealize.ShloMosaic.constant so .f32 0x00000000#32))
      (fun j => ∑ k : D.contr.Idx, a (D.lhsIdx j k) * b (D.rhsIdx j k)) := fun j => by
  refine (Ideal.matmul_constant_zero_apply D prec A B j).trans ?_
  exact sum_mul_coe _ _ _ _ _ (fun k => hA _) (fun k => hB _)

/-- The host's `dot_general` of finite operands. -/
theorem dotGeneral {sl sr so : Shape} {φ₁ φ₂ : FTy} (D : DotDims sl sr so) (prec : Option ContractPrecision)
    {A : FVec Ideal sl φ₁} {B : FVec Ideal sr φ₂} {a : sl.Idx → ℝ} {b : sr.Idx → ℝ} (hA : IsR A a) (hB : IsR B b) :
    IsR (Host.dotGeneral D prec A B) (fun j => ∑ k : D.contr.Idx, a (D.lhsIdx j k) * b (D.rhsIdx j k)) := fun j => by
  refine (Ideal.dotGeneral_apply D prec .single A B j).trans ?_
  exact sum_mul_coe _ _ _ _ _ (fun k => hA _) (fun k => hB _)

/-- The kernel's sum along one axis of a finite array. -/
theorem multiReduction_add {ax : Fin s.rank} {A : FVec Ideal s φ} {a : s.Idx → ℝ} (hA : IsR A a) (acc : BitVec φ.bits)
    (h : s.Reduces [ax] t) (hφ : FKind.Formats φ) (hacc : acc = FKind.add.neutral φ hφ) :
    IsR (Idealize.ShloMosaic.multiReduction .add [ax] t A acc h hφ hacc) (fun j => ∑ k : Fin (s.size ax), a (h.lift j k)) :=
  fun j => by
    refine (Ideal.multiReduction_add_single A acc h hφ hacc j).trans ?_
    exact sum_coe _ _ _ (fun k => hA _)

end IsR

end Cert.RealLift

end
-- ==== Proof.Algebra.lean ====
/-
  The algebra that joins the two programs' batch statistics.

  Per feature column `f` over the 100000 nodes:
  * the kernel's running sums — two halves of five blocks of 10000 rows, each half started from zero and the two halves
    added — are the plain sum over all rows (`total_eq`): the extended reals are an additive commutative monoid, so the
    sum may be regrouped freely, with no finiteness needed;
  * for a column of real numbers, with N = 100000 and μ = (Σ f)/N, one has (Σ f²)/N − μ² = (Σ (f − μ)²)/N ≥ 0, so the
    kernel's clamped "mean of squares minus squared mean" is the reference's mean of squared deviations (`stats_eq`);
  * the hidden layer of real inputs is real (`hid_real`).
-/
import Mathlib
import proofs.«120235_j55783035240590_2_alg».proof.Proof.Spec
import proofs.«120235_j55783035240590_2_alg».proof.Proof.LibRealLift

noncomputable section

namespace Cert.Alg

open Idealize.ShloMosaic Idealize.ShloMosaic.ValueIdx Cert.Spec Cert.RealLift

/-- The node count's word denotes the real 100000: sign 0, exponent 143, fraction 4411392, and
    (2²³ + 4411392) · 2^(143 − 127 − 23) = 12800000 / 128. -/
theorem nW_eq : Cert.Spec.nW = ((100000 : ℝ) : EReal) := by
  unfold Cert.Spec.nW
  simp [Ideal.ofBits, Ideal.ieee, -EReal.coe_mul]; norm_num

/-- A sum over `p < m * n` as the double sum over quotient `i < m` and remainder `j < n` of `p = n * i + j`. -/
theorem sum_fin_mul {M : Type*} [AddCommMonoid M] (m n N : ℕ) (hN : m * n = N) (g : Fin N → M)
    (hb : ∀ (i : Fin m) (j : Fin n), n * i.val + j.val < N) :
    ∑ p : Fin N, g p = ∑ i : Fin m, ∑ j : Fin n, g ⟨n * i.val + j.val, hb i j⟩ := by
  subst hN
  rw [← Fintype.sum_prod_type']
  refine (Fintype.sum_equiv finProdFinEquiv _ _ fun x => ?_).symm
  congr 1
  ext
  simp [finProdFinEquiv]
  omega

/-- A half's running sum after its last step is the sum of its five blocks. -/
theorem acc4 (f : Fin 100000 → EReal) (c : Fin 2) (h : 4 < 5) :
    accAfter f c 4 h = ∑ i : Fin 5, blockSum f ⟨5 * c.val + i.val, by omega⟩ := by
  rw [Fin.sum_univ_five]
  have e : accAfter f c 4 h = 0 + blockSum f ⟨5 * c.val, by omega⟩ + blockSum f ⟨5 * c.val + 1, by omega⟩
      + blockSum f ⟨5 * c.val + 2, by omega⟩ + blockSum f ⟨5 * c.val + 3, by omega⟩
      + blockSum f ⟨5 * c.val + 4, by omega⟩ := rfl
  rw [e, zero_add]
  rfl

/-- The kernel's total of a column is the sum over all rows. -/
theorem total_eq (f : Fin 100000 → EReal) : Cert.Spec.total f = 0 + ∑ p : Fin 100000, f p := by
  unfold Cert.Spec.total
  refine congrArg (fun z => (0 : EReal) + z) ?_
  rw [sum_fin_mul 10 10000 100000 (by norm_num) f (fun i j => by omega)]
  show ∑ c : Fin 2, accAfter f c 4 _ = ∑ t : Fin 10, blockSum f t
  rw [sum_fin_mul 2 5 10 (by norm_num) (blockSum f) (fun i j => by omega)]
  exact Finset.sum_congr rfl fun c _ => acc4 f c _

/-! ## The two variances of a real column -/

/-- Over ℝ, with μ the mean of `g`: the mean of squares minus the squared mean is the mean of squared deviations,
    since Σ (g − μ)² = Σ g² − 2μ Σ g + n μ² and Σ g = n μ. -/
theorem real_var (n : ℕ) (hn : (n : ℝ) ≠ 0) (g : Fin n → ℝ) :
    (∑ p, g p * g p) / n - ((∑ p, g p) / n) * ((∑ p, g p) / n)
      = (∑ p, (g p - (∑ q, g q) / n) * (g p - (∑ q, g q) / n)) / n := by
  set μ : ℝ := (∑ q, g q) / n with hμ
  have hS : ∑ q, g q = n * μ := by rw [hμ]; field_simp
  have hD : ∑ p, (g p - μ) * (g p - μ) = ∑ p, g p * g p - 2 * μ * ∑ p, g p + n * (μ * μ) := by
    have e : ∀ p, (g p - μ) * (g p - μ) = g p * g p - 2 * μ * g p + μ * μ := fun p => by ring
    simp only [e, Finset.sum_add_distrib, Finset.sum_sub_distrib, ← Finset.mul_sum, Finset.sum_const,
      Finset.card_univ, Fintype.card_fin, nsmul_eq_mul]
    ring
  rw [hD, hS]
  field_simp
  ring

/-- The mean of squared deviations is not negative. -/
theorem real_var_nonneg (n : ℕ) (g : Fin n → ℝ) (μ : ℝ) : 0 ≤ (∑ p, (g p - μ) * (g p - μ)) / n :=
  div_nonneg (Finset.sum_nonneg fun p _ => mul_self_nonneg _) (Nat.cast_nonneg n)

/-- The kernel's mean of any column is the reference's. -/
theorem meanK_eq_meanR (f : Fin 100000 → EReal) : meanK f = meanR f := by
  unfold meanK meanR
  rw [total_eq]

/-- The larger of two reals, taken in the extended reals, is the coercion of the larger. -/
theorem coe_max' (a b : ℝ) : max ((a : ℝ) : EReal) ((b : ℝ) : EReal) = ((max a b : ℝ) : EReal) := by
  rcases le_total a b with h | h
  · rw [max_eq_right h, max_eq_right (EReal.coe_le_coe_iff.2 h)]
  · rw [max_eq_left h, max_eq_left (EReal.coe_le_coe_iff.2 h)]

section Column

variable (f : Fin 100000 → EReal) (fr : Fin 100000 → ℝ) (hf : ∀ p, f p = ((fr p : ℝ) : EReal))
include hf

/-- The reference's mean of a real column is the real mean. -/
theorem meanR_coe : meanR f = (((∑ p, fr p) / 100000 : ℝ) : EReal) := by
  unfold meanR
  rw [nW_eq, sum_coe Finset.univ f fr hf, zero_add]
  exact IsR.div_coe _ _ (by norm_num)

/-- The reference's variance of a real column is the real mean of squared deviations. -/
theorem varR_coe : varR f
    = (((∑ p, (fr p - (∑ q, fr q) / 100000) * (fr p - (∑ q, fr q) / 100000)) / 100000 : ℝ) : EReal) := by
  unfold varR
  rw [meanR_coe f fr hf]
  have e : ∀ p, (f p - (((∑ q, fr q) / 100000 : ℝ) : EReal)) * (f p - (((∑ q, fr q) / 100000 : ℝ) : EReal))
      = (((fr p - (∑ q, fr q) / 100000) * (fr p - (∑ q, fr q) / 100000) : ℝ) : EReal) := fun p => by
    rw [hf p, ← EReal.coe_sub, ← EReal.coe_mul]
  rw [sum_coe Finset.univ _ _ e, zero_add, nW_eq]
  exact IsR.div_coe _ _ (by norm_num)

/-- The kernel's variance of a real column: the clamp of the real "mean of squares minus squared mean". -/
theorem varK_coe : varK f
    = ((max ((∑ p, fr p * fr p) / 100000 - ((∑ p, fr p) / 100000) * ((∑ p, fr p) / 100000)) 0 : ℝ) : EReal) := by
  unfold varK
  rw [meanK_eq_meanR, meanR_coe f fr hf, total_eq]
  have e : ∀ p, f p * f p = ((fr p * fr p : ℝ) : EReal) := fun p => by rw [hf p, ← EReal.coe_mul]
  rw [sum_coe Finset.univ _ _ e, zero_add, nW_eq, IsR.div_coe _ _ (by norm_num), ← EReal.coe_mul, ← EReal.coe_sub,
    ← EReal.coe_zero, coe_max']

/-- THE STATISTICS AGREE on a column of reals. -/
theorem stats_eq : Cert.Spec.meanK f = Cert.Spec.meanR f ∧ Cert.Spec.varK f = Cert.Spec.varR f := by
  refine ⟨meanK_eq_meanR f, ?_⟩
  rw [varK_coe f fr hf, varR_coe f fr hf]
  have h1 := real_var 100000 (by norm_num) fr
  have h2 := real_var_nonneg 100000 fr ((∑ q, fr q) / (100000 : ℕ))
  push_cast at h1 h2
  rw [h1, max_eq_left h2]

end Column

/-! ## The hidden layer of real inputs is real -/

/-- The hidden layer at `(p, k)` as the coercion of the same expression over ℝ. -/
theorem hid_coe (x agg : SN.Idx → EReal) (W1 : SW.Idx → EReal) (b1 : SV.Idx → EReal)
    (xr ar : SN.Idx → ℝ) (wr : SW.Idx → ℝ) (br : SV.Idx → ℝ)
    (hx : ∀ i, x i = ((xr i : ℝ) : EReal)) (ha : ∀ i, agg i = ((ar i : ℝ) : EReal))
    (hw : ∀ i, W1 i = ((wr i : ℝ) : EReal)) (hb : ∀ i, b1 i = ((br i : ℝ) : EReal)) (p : Fin 100000) (k : Fin 64) :
    hid x agg W1 b1 p k
      = (((∑ j : Fin 64, (xr (ix2 p j) + ar (ix2 p j)) * wr (ix2 j k)) + br (ix1 k) : ℝ) : EReal) := by
  unfold hid
  have e : ∀ j : Fin 64, (x (ix2 p j) + agg (ix2 p j)) * W1 (ix2 j k)
      = (((xr (ix2 p j) + ar (ix2 p j)) * wr (ix2 j k) : ℝ) : EReal) := fun j => by
    rw [hx, ha, hw, ← EReal.coe_add, ← EReal.coe_mul]
  rw [sum_coe Finset.univ _ _ e, hb, ← EReal.coe_add]

/-- The hidden layer of real inputs is real. -/
theorem hid_real (x agg : SN.Idx → EReal) (W1 : SW.Idx → EReal) (b1 : SV.Idx → EReal)
    (hx : ∃ xr : SN.Idx → ℝ, ∀ i, x i = ((xr i : ℝ) : EReal)) (ha : ∃ ar : SN.Idx → ℝ, ∀ i, agg i = ((ar i : ℝ) : EReal))
    (hw : ∃ wr : SW.Idx → ℝ, ∀ i, W1 i = ((wr i : ℝ) : EReal)) (hb : ∃ br : SV.Idx → ℝ, ∀ i, b1 i = ((br i : ℝ) : EReal))
    (p : Fin 100000) (k : Fin 64) : ∃ r : ℝ, hid x agg W1 b1 p k = ((r : ℝ) : EReal) := by
  obtain ⟨xr, hx⟩ := hx
  obtain ⟨ar, ha⟩ := ha
  obtain ⟨wr, hw⟩ := hw
  obtain ⟨br, hb⟩ := hb
  exact ⟨_, hid_coe x agg W1 b1 xr ar wr br hx ha hw hb p k⟩

end Cert.Alg

end
-- ==== Proof.LibFiniteInputs.lean ====
/-
  Finite inputs.  A precondition of the form "every entry's absolute value is below +∞", taken over a whole array by an
  all-reduction, makes every entry of the array a real number: an all-reduction that is 1 has every compared entry 1;
  the word `0x7F800000` denotes `⊤`; and an extended real with `max x (-x) < ⊤` is neither infinity.
  Generic in the array's shape and in the axes reduced; the scalar shape is spelt literally so that any program's own
  abbreviation of it unifies.
-/
import Idealize.ShloMosaic.Lib.ReduceAll
import Idealize.ShloMosaic.Lib.ValueIdx
import Idealize.ShloMosaic.PureOps.Ideal.Laws

noncomputable section

namespace Cert.FiniteInputs

open Idealize.ShloMosaic Idealize.ShloMosaic.ValueIdx

/-- The scalar shape. -/
abbrev S0 : Shape := ⟨0, ![]⟩

instance : Subsingleton S0.Idx := ⟨fun a b => funext fun d => d.elim0⟩

/-- The word of +∞ denotes `⊤`. -/
theorem inf_f32 : Ideal.ofBits .f32 0x7F800000#32 = ⊤ := by simp [Ideal.ofBits, Ideal.ieee]

/-- An extended real whose absolute value compares below +∞ is a real. -/
theorem real_of_lt (x : EReal) (h : Ideal.cmp .olt (max x (-x)) (Ideal.ofBits .f32 0x7F800000#32) = 1#1) :
    ∃ r : ℝ, x = ((r : ℝ) : EReal) := by
  rw [inf_f32] at h
  have hlt : max x (-x) < ⊤ := by
    by_contra hn
    have : Ideal.cmp .olt (max x (-x)) ⊤ = 0#1 := by simp [Ideal.cmp, hn]
    rw [this] at h
    exact absurd h (by decide)
  induction x using EReal.rec with
  | bot => exact absurd hlt (by simp)
  | coe r => exact ⟨r, rfl⟩
  | top => exact absurd hlt (by simp)

/-- One array: the all-reduction of `|a| < +∞` is 1, so every entry of `a` is a real. -/
theorem all_real {s : Shape} {axes : List (Fin s.rank)} (a : FVec Ideal s .f32) (hb : S0.BroadcastsInDim s (![] : Fin 0 → Fin s.rank))
    (hr : s.ReducesTo axes S0) (hn : 0 < S0.numel)
    (e : Host.reduce IntOp.andi (cmpf .olt (Host.absf a) (broadcastInDim s ![] hb (constant (F := Ideal) S0 .f32 0x7F800000#32)))
      (constantI S0 1 1#1) hr hn ix0 = 1#1) (i : s.Idx) : ∃ r : ℝ, a i = ((r : ℝ) : EReal) :=
  real_of_lt (a i) (Host.reduce_andi_all _ _ hr hn ix0 e i)

end Cert.FiniteInputs

end
-- ==== Proof.LibRowGatherScatter.lean ====
/-
  Rows picked and rows accumulated by an integer list.

  A two-dimensional array `x : [N, C]` indexed by a list of row numbers `idx : [E, 1]` (what `x[idx]` of a matrix at a
  vector of integers lowers to) gives the array `[E, C]` whose row `e` is row `idx e` of `x`, the row number read as a
  signed integer and clamped into `[0, N - 1]`.

  Dually, accumulating the rows of `upd : [E, C]` into `x : [N, C]` at the row numbers `idx : [E, 1]` (a segment sum) gives,
  over the extended reals, at `(r, q)` the entry `x (r, q)` plus the sum over all `e` whose row number, read as a signed
  integer, IS `r` of `upd (e, q)`; a row number outside `[0, N)` lands nowhere.  The sum is written over ALL `e` with the
  summand `0` where the row number is another, so that two such sums over the same list can be compared term by term.

  Both are generic in the extents `N`, `E`, `C`; the dimension numbers are spelt as literals so that a program's own record
  of them unifies (its side condition `wf` is a parameter).
-/
import Idealize.ShloMosaic.Lib.ValueIdx
import Idealize.ShloMosaic.PureOps.Ideal.Laws

noncomputable section

namespace Cert.RowGatherScatter

open Idealize.ShloMosaic Idealize.ShloMosaic.ValueIdx

/-! ## Picking rows -/

section Gather
variable {α : Type}

/-- The dimension numbers of `x[idx]` for a matrix `x : [N, C]` and row numbers `idx : [E, 1]`: the result's axis 1 is the
    offset axis, the operand's axis 0 is collapsed and is the one the start index names. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row of `x` that entry `e` of the list names: its word read signed, clamped into `[0, N - 1]`. -/
def srcRow {N E w : Nat} (hN : 0 < N) (idx : IVec ⟨2, ![E, 1]⟩ w) (e : Fin E) : Fin N :=
  ⟨min (idx (ix2 e 0)).toInt.toNat (N - 1), by omega⟩

/-- THE ROW GATHER READ AT `(e, q)`: entry `q` of the row of `x` that entry `e` of the list names. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowGatherDims N E C wf) x idx (ix2 e q) = x (ix2 (srcRow hN idx e) q) := by
  unfold Host.gather
  congr 1
  funext a
  refine Fin.ext ?_
  match a with
  | ⟨0, _⟩ =>
    show (rowGatherDims N E C wf).start (ix2 e q) idx 0 + (rowGatherDims N E C wf).batchCoord (ix2 e q) 0
      + (rowGatherDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e q) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e q) idx 1 + (rowGatherDims N E C wf).batchCoord (ix2 e q) 1
      + (rowGatherDims N E C wf).offCoord (ix2 e q) 1 = q.val
    rw [GatherDims.batchCoord_eq_zero _ _ _ List.not_mem_nil]
    have hst : (rowGatherDims N E C wf).start (ix2 e q) idx 1 = 0 := by
      unfold GatherDims.start
      rw [dif_neg (show ¬ (1 : Fin 2) ∈ (rowGatherDims N E C wf).startIndexMap from
        (show ¬ (1 : Fin 2) ∈ ([0] : List (Fin 2)) from by decide))]
    have hoff : (rowGatherDims N E C wf).offCoord (ix2 e q) 1 = q.val := by
      unfold GatherDims.offCoord
      rw [dif_pos (show (1 : Fin 2) ∈ (rowGatherDims N E C wf).sKept from
        ((rowGatherDims N E C wf).mem_sKept 1).2 ⟨(show ¬ (1 : Fin 2) ∈ ([0] : List (Fin 2)) from by decide), List.not_mem_nil⟩)]
      rfl
    rw [hst, hoff]
    omega

end Gather

/-! ## Accumulating rows -/

section Scatter

/-- The dimension numbers of a row accumulation into `[N, C]` of updates `[E, C]` at row numbers `[E, 1]`: the updates'
    axis 1 is the window axis, the operand's axis 0 is inserted and is the one the scatter index names. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w)

/-- On the row axis the window starts at the row number, read signed, and has no extent. -/
theorem start_window_row (e : Fin E) (c : Fin C) :
    (rowScatterDims N E C wf).start (ix2 e c) idx 0 + ((rowScatterDims N E C wf).window (ix2 e c) 0 : ℤ)
      = (idx (ix2 e 0)).toInt := by
  have hw : (rowScatterDims N E C wf).window (ix2 e c) 0 = 0 := by
    unfold ScatterDims.window
    rw [dif_neg (show ¬ (0 : Fin 2) ∈ (rowScatterDims N E C wf).sKept from
      (show ¬ (0 : Fin 2) ∈ (List.finRange 2).filter (· ∉ ([0] : List (Fin 2))) from by decide))]
  have hs : (rowScatterDims N E C wf).start (ix2 e c) idx 0 = (idx (ix2 e 0)).toInt := by
    unfold ScatterDims.start
    rw [dif_pos (show (0 : Fin 2) ∈ (rowScatterDims N E C wf).scatterDimsToOperandDims from List.mem_singleton.mpr rfl)]
    have hsi : (rowScatterDims N E C wf).siIdx (ix2 e c) ⟨List.idxOf (0 : Fin 2) (rowScatterDims N E C wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  rw [hw, hs]; simp

/-- On the column axis the window starts at `0` and the update's column is the window coordinate. -/
theorem start_window_col (e : Fin E) (c : Fin C) :
    (rowScatterDims N E C wf).start (ix2 e c) idx 1 + ((rowScatterDims N E C wf).window (ix2 e c) 1 : ℤ) = (c.val : ℤ) := by
  have hw : (rowScatterDims N E C wf).window (ix2 e c) 1 = c.val := by
    unfold ScatterDims.window
    rw [dif_pos (show (1 : Fin 2) ∈ (rowScatterDims N E C wf).sKept from
      (show (1 : Fin 2) ∈ (List.finRange 2).filter (· ∉ ([0] : List (Fin 2))) from by decide))]
    rfl
  have hs : (rowScatterDims N E C wf).start (ix2 e c) idx 1 = 0 := by
    unfold ScatterDims.start
    rw [dif_neg (show ¬ (1 : Fin 2) ∈ (rowScatterDims N E C wf).scatterDimsToOperandDims from
      (show ¬ (1 : Fin 2) ∈ ([0] : List (Fin 2)) from by decide))]
  rw [hw, hs]; simp

/-- WHERE AN UPDATE LANDS: update `(e, c)` lands at `(r, q)` exactly when entry `e` of the list, read signed, is `r` and
    the columns agree. -/
theorem resultIdx?_eq_some_iff (e : Fin E) (c : Fin C) (r : Fin N) (q : Fin C) :
    (rowScatterDims N E C wf).resultIdx? (ix2 e c) idx = some (ix2 r q) ↔ (idx (ix2 e 0)).toInt = (r.val : ℤ) ∧ c = q := by
  have h0 := start_window_row wf idx e c
  have h1 := start_window_col wf idx e c
  unfold ScatterDims.resultIdx?
  split
  · rename_i h
    rw [Option.some.injEq]
    constructor
    · intro hf
      have e0 : ((rowScatterDims N E C wf).start (ix2 e c) idx 0 + ((rowScatterDims N E C wf).window (ix2 e c) 0 : ℤ)).toNat = r.val :=
        congrArg (fun f : (⟨2, ![N, C]⟩ : Shape).Idx => (f 0).val) hf
      have e1 : ((rowScatterDims N E C wf).start (ix2 e c) idx 1 + ((rowScatterDims N E C wf).window (ix2 e c) 1 : ℤ)).toNat = q.val :=
        congrArg (fun f : (⟨2, ![N, C]⟩ : Shape).Idx => (f 1).val) hf
      have b0 := (h 0).1
      rw [h0] at e0 b0
      rw [h1] at e1
      exact ⟨by omega, Fin.ext (by omega)⟩
    · rintro ⟨hr, rfl⟩
      funext a; refine Fin.ext ?_
      match a with
      | ⟨0, _⟩ =>
        show ((rowScatterDims N E C wf).start (ix2 e c) idx 0 + ((rowScatterDims N E C wf).window (ix2 e c) 0 : ℤ)).toNat = r.val
        rw [h0, hr]; simp
      | ⟨1, _⟩ =>
        show ((rowScatterDims N E C wf).start (ix2 e c) idx 1 + ((rowScatterDims N E C wf).window (ix2 e c) 1 : ℤ)).toNat = c.val
        rw [h1]; simp
  · rename_i h
    constructor
    · intro hf; cases hf
    · rintro ⟨hr, rfl⟩
      exfalso; apply h
      intro a
      match a with
      | ⟨0, _⟩ =>
        show 0 ≤ (rowScatterDims N E C wf).start (ix2 e c) idx 0 + ((rowScatterDims N E C wf).window (ix2 e c) 0 : ℤ)
          ∧ (rowScatterDims N E C wf).start (ix2 e c) idx 0 + ((rowScatterDims N E C wf).window (ix2 e c) 0 : ℤ) < (N : ℤ)
        rw [h0, hr]; have := r.isLt; omega
      | ⟨1, _⟩ =>
        show 0 ≤ (rowScatterDims N E C wf).start (ix2 e c) idx 1 + ((rowScatterDims N E C wf).window (ix2 e c) 1 : ℤ)
          ∧ (rowScatterDims N E C wf).start (ix2 e c) idx 1 + ((rowScatterDims N E C wf).window (ix2 e c) 1 : ℤ) < (C : ℤ)
        rw [h1]; have := c.isLt; omega

/-- THE ROW ACCUMULATION READ AT `(r, q)`, over the extended reals: the operand's entry plus the sum over every `e` of
    `upd (e, q)` where entry `e` of the list is `r`, of `0` elsewhere. -/
theorem scatterAdd_rows_apply (x : (⟨2, ![N, C]⟩ : Shape).Idx → EReal) (upd : (⟨2, ![E, C]⟩ : Shape).Idx → EReal)
    (r : Fin N) (q : Fin C) :
    Ideal.hostScatterAdd (rowScatterDims N E C wf) x idx upd (ix2 r q)
      = x (ix2 r q) + ∑ e : Fin E, if (idx (ix2 e 0)).toInt = (r.val : ℤ) then upd (ix2 e q) else 0 := by
  unfold Ideal.hostScatterAdd
  congr 1
  rw [Finset.sum_filter, sum_idx2]
  refine Finset.sum_congr rfl fun e _ => ?_
  simp only [resultIdx?_eq_some_iff wf idx e _ r q]
  by_cases hr : (idx (ix2 e 0)).toInt = (r.val : ℤ)
  · simp only [hr, true_and, if_true]
    rw [Finset.sum_ite_eq' Finset.univ q (fun c => upd (ix2 e c))]
    simp
  · simp only [hr, false_and, if_false]
    exact Finset.sum_const_zero

/-- The same for the host operation as a program prints it, `Host.scatterAdd` read at the extended reals (there it IS the
    exact sum above, whatever order the colliding updates are added in). -/
theorem host_scatterAdd_rows_apply {φ : FTy} (x : FVec Ideal ⟨2, ![N, C]⟩ φ) (upd : FVec Ideal ⟨2, ![E, C]⟩ φ)
    (r : Fin N) (q : Fin C) :
    Host.scatterAdd (F := Ideal) (rowScatterDims N E C wf) x idx upd (ix2 r q)
      = x (ix2 r q) + ∑ e : Fin E, if (idx (ix2 e 0)).toInt = (r.val : ℤ) then upd (ix2 e q) else 0 :=
  scatterAdd_rows_apply wf idx x upd r q

end Scatter

end Cert.RowGatherScatter

end
-- ==== Proof.Finite.lean ====
/-
  Finiteness.

  The stated precondition is a conjunction of seven "every entry's absolute value is below +∞" tests, one per float
  input.  Three of them are used: the node features, the first weight matrix and the first bias are arrays of real
  numbers.  The neighbour sum of real features is again real whatever the two edge lists are: each of its entries is
  zero plus a finite sum, over the edges, of either an entry of the features or zero.
-/
import proofs.«120235_j55783035240590_2_alg».proof.Pre_finite_inputs
import proofs.«120235_j55783035240590_2_alg».proof.Proof.Gen.Pre_finite_inputs
import proofs.«120235_j55783035240590_2_alg».proof.KernelIdeal
import proofs.«120235_j55783035240590_2_alg».proof.Proof.Gen.KernelIdeal
import proofs.«120235_j55783035240590_2_alg».proof.Proof.LibFiniteInputs
import proofs.«120235_j55783035240590_2_alg».proof.Proof.LibRowGatherScatter
import proofs.«120235_j55783035240590_2_alg».proof.Proof.LibRealLift

noncomputable section

namespace Cert.Alg

open Idealize.ShloMosaic Idealize.ShloMosaic.ValueIdx

/-! ## The inputs are real -/

section Inputs
open Cert.Pre_finite_inputs

/-- From the stated precondition: the features, the first weights and the first bias have only real entries. -/
theorem inputs_real (a0 : FVec Ideal S100000x64 .f32) (a1 : IVec S2x1200000 32) (a2 : FVec Ideal S64x64 .f32)
    (a3 a4 a5 : FVec Ideal S64 .f32) (a6 : FVec Ideal S64x64 .f32) (a7 : FVec Ideal S64 .f32)
    (h : Cert.Pre_finite_inputs.fn (F := Ideal) a0 a1 a2 a3 a4 a5 a6 a7 = fun _ => 1#1) :
    (∃ xr : S100000x64.Idx → ℝ, ∀ i, a0 i = ((xr i : ℝ) : EReal))
      ∧ (∃ wr : S64x64.Idx → ℝ, ∀ i, a2 i = ((wr i : ℝ) : EReal))
      ∧ (∃ br : S64.Idx → ℝ, ∀ i, a3 i = ((br i : ℝ) : EReal)) := by
  have h0 := congrFun h ix0
  dsimp only [Cert.Pre_finite_inputs.fn, Cert.Pre_finite_inputs.fn_part1, Idealize.ShloMosaic.andi] at h0
  obtain ⟨h28, -⟩ := IntOp.andi_eq_one.1 h0
  obtain ⟨h23, -⟩ := IntOp.andi_eq_one.1 h28
  obtain ⟨h18, -⟩ := IntOp.andi_eq_one.1 h23
  obtain ⟨h13, -⟩ := IntOp.andi_eq_one.1 h18
  obtain ⟨h8, c12⟩ := IntOp.andi_eq_one.1 h13
  obtain ⟨c3, c7⟩ := IntOp.andi_eq_one.1 h8
  refine ⟨?_, ?_, ?_⟩
  · have e := fun i => Cert.FiniteInputs.all_real a0 _ _ _ c3 i
    exact ⟨fun i => (e i).choose, fun i => (e i).choose_spec⟩
  · have e := fun i => Cert.FiniteInputs.all_real a2 _ _ _ c7 i
    exact ⟨fun i => (e i).choose, fun i => (e i).choose_spec⟩
  · have e := fun i => Cert.FiniteInputs.all_real a3 _ _ _ c12 i
    exact ⟨fun i => (e i).choose, fun i => (e i).choose_spec⟩

end Inputs

/-! ## The neighbour sum of real features is real -/

section Agg
open Cert.KernelIdeal

/-- The neighbour sum read at `(r, q)`: the real sum over the edges `e` whose destination is `r` of the feature `q` of
    the edge's source row. -/
theorem agg_apply (x : FVec Ideal S100000x64 .f32) (xr : S100000x64.Idx → ℝ) (hx : ∀ i, x i = ((xr i : ℝ) : EReal))
    (is id : IVec S1200000x1 32) (r : Fin 100000) (q : Fin 64) :
    Host.scatterAdd (F := Ideal) scatter_S100000x64_S1200000x1_S1200000x64_1_0_0_1
        (broadcastInDim S100000x64 ![] Facts₀.bcast_S_S100000x64 (constant (F := Ideal) S_ .f32 0x00000000#32)) id
        (Host.gather gather_S100000x64_S1200000x1_S1200000x64_1_0_n_n_0_1_164 x is) (ix2 r q)
      = ((∑ e : Fin 1200000, (if (id (ix2 e 0)).toInt = (r.val : ℤ)
            then xr (ix2 (Cert.RowGatherScatter.srcRow (N := 100000) (by norm_num) is e) q) else 0) : ℝ) : EReal) := by
  refine (Cert.RowGatherScatter.host_scatterAdd_rows_apply (N := 100000) (E := 1200000) (C := 64)
    Facts₀.scatter_S100000x64_S1200000x1_S1200000x64_1_0_0_1_wf id _ _ r q).trans ?_
  have hz : broadcastInDim S100000x64 ![] Facts₀.bcast_S_S100000x64 (constant (F := Ideal) S_ .f32 0x00000000#32) (ix2 r q)
      = 0 := Ideal.ofBits_zero_f32
  rw [hz, zero_add]
  refine Cert.RealLift.sum_coe Finset.univ _ _ fun e => ?_
  have hg : Host.gather gather_S100000x64_S1200000x1_S1200000x64_1_0_n_n_0_1_164 x is (ix2 e q)
      = x (ix2 (Cert.RowGatherScatter.srcRow (N := 100000) (by norm_num) is e) q) :=
    Cert.RowGatherScatter.gather_rows_apply (N := 100000) (E := 1200000) (C := 64) (by norm_num)
      Facts₀.gather_S100000x64_S1200000x1_S1200000x64_1_0_n_n_0_1_164_wf x is e q
  rw [hg, hx]
  split_ifs
  · rfl
  · exact EReal.coe_zero.symm

/-- THE NEIGHBOUR SUM IS REAL, for any two edge lists. -/
theorem agg_real (x : FVec Ideal S100000x64 .f32) (xr : S100000x64.Idx → ℝ) (hx : ∀ i, x i = ((xr i : ℝ) : EReal))
    (is id : IVec S1200000x1 32) :
    ∃ ar : S100000x64.Idx → ℝ, ∀ i,
      Host.scatterAdd (F := Ideal) scatter_S100000x64_S1200000x1_S1200000x64_1_0_0_1
        (broadcastInDim S100000x64 ![] Facts₀.bcast_S_S100000x64 (constant (F := Ideal) S_ .f32 0x00000000#32)) id
        (Host.gather gather_S100000x64_S1200000x1_S1200000x64_1_0_n_n_0_1_164 x is) i = ((ar i : ℝ) : EReal) := by
  refine ⟨fun i => ∑ e : Fin 1200000, (if (id (ix2 e 0)).toInt = (((i 0 : Fin 100000)).val : ℤ)
      then xr (ix2 (Cert.RowGatherScatter.srcRow (N := 100000) (by norm_num) is e) (i 1 : Fin 64)) else 0), fun i => ?_⟩
  have hi : i = ix2 (i 0 : Fin 100000) (i 1 : Fin 64) := eq_ix2 i
  rw [hi]
  exact agg_apply x xr hx is id _ _

end Agg

end Cert.Alg

end
-- ==== Proof.Bridge.lean ====
/-
  The bridge between the two programs' results.

  Both programs form the same neighbour sum (the same operations on the same shapes, written once per program), so the
  two hidden layers are the same table.  Under the stated precondition that table has only real entries: the inputs are
  real, a neighbour sum of reals is real, and a linear layer of reals is real.  On a real table the kernel's statistics
  of every column are the reference's, hence everything after the statistics agrees as well, and a table that reads
  entry by entry as the kernel's closed form is the reference's result.
-/
import proofs.«120235_j55783035240590_2_alg».proof.Proof.KIHost
import proofs.«120235_j55783035240590_2_alg».proof.Proof.RefRead
import proofs.«120235_j55783035240590_2_alg».proof.Proof.Algebra
import proofs.«120235_j55783035240590_2_alg».proof.Proof.Finite

noncomputable section

namespace Cert.Bridge

open Idealize.ShloMosaic Idealize.ShloMosaic.ValueIdx Cert.Spec
open Cert.ReferenceIdeal.Hand (TN TW TV TE)

/-- THE NEIGHBOUR SUMS ARE THE SAME TERM: the same chain of operations, the side conditions being proofs. -/
theorem agg_bridge {F : FTy → Type} [FloatOps F]
    (x : (⟨Cert.KernelIdeal.S100000x64, .f32⟩ : BufTy).Contents (Elt F))
    (ei : (⟨Cert.KernelIdeal.S2x1200000, .i32⟩ : BufTy).Contents (Elt F)) :
    Cert.KernelIdeal.Hand.aggK (F := F) x ei = Cert.ReferenceIdeal.Hand.aggR (F := F) x ei := rfl

/-- Under the stated precondition every entry of the hidden layer is real. -/
theorem hid_cols_real (x : TN) (ei : TE) (W1 : TW) (b1 a4 a5 : TV) (a6 : TW) (a7 : TV)
    (hpre : Cert.Pre_finite_inputs.fn (F := Ideal) x ei W1 b1 a4 a5 a6 a7 = fun _ => 1#1) :
    ∃ hr : Fin 100000 → Fin 64 → ℝ, ∀ p k,
      Cert.Spec.hid x (Cert.KernelIdeal.Hand.aggK (F := Ideal) x ei) W1 b1 p k = ((hr p k : ℝ) : EReal) := by
  obtain ⟨⟨xr, hx⟩, hw, hb⟩ := Cert.Alg.inputs_real x ei W1 b1 a4 a5 a6 a7 hpre
  have ha := Cert.Alg.agg_real x xr hx (Cert.KernelIdeal.Hand.srcCol (F := Ideal) ei) (Cert.KernelIdeal.Hand.dstCol (F := Ideal) ei)
  have e := fun p k => Cert.Alg.hid_real x (Cert.KernelIdeal.Hand.aggK (F := Ideal) x ei) W1 b1 ⟨xr, hx⟩ ha hw hb p k
  exact ⟨fun p k => (e p k).choose, fun p k => (e p k).choose_spec⟩

/-- On a real table, everything after the statistics is the same with the kernel's statistics as with the
    reference's. -/
theorem tail_stats (h : Fin 100000 → Fin 64 → EReal) (hr : Fin 100000 → Fin 64 → ℝ)
    (hh : ∀ p k, h p k = ((hr p k : ℝ) : EReal)) (gamma beta : SV.Idx → EReal) (W2 : SW.Idx → EReal) (b2 : SV.Idx → EReal)
    (p : Fin 100000) (q : Fin 64) :
    Cert.Spec.tail h (fun k => Cert.Spec.meanK fun p => h p k) (fun k => Cert.Spec.varK fun p => h p k) gamma beta W2 b2 p q
      = Cert.Spec.tail h (fun k => Cert.Spec.meanR fun p => h p k) (fun k => Cert.Spec.varR fun p => h p k) gamma beta W2 b2 p q := by
  have hm : (fun k => Cert.Spec.meanK fun p => h p k) = (fun k => Cert.Spec.meanR fun p => h p k) :=
    funext fun k => (Cert.Alg.stats_eq (fun p => h p k) (fun p => hr p k) (fun p => hh p k)).1
  have hv : (fun k => Cert.Spec.varK fun p => h p k) = (fun k => Cert.Spec.varR fun p => h p k) :=
    funext fun k => (Cert.Alg.stats_eq (fun p => h p k) (fun p => hr p k) (fun p => hh p k)).2
  rw [hm, hv]

/-- A TABLE THAT READS AS THE KERNEL'S CLOSED FORM IS THE REFERENCE'S RESULT, under the stated precondition. -/
theorem result_eq (x : TN) (ei : TE) (W1 : TW) (b1 gamma beta : TV) (W2 : TW) (b2 : TV)
    (hpre : Cert.Pre_finite_inputs.fn (F := Ideal) x ei W1 b1 gamma beta W2 b2 = fun _ => 1#1)
    (K : Cert.Spec.SN.Idx → EReal)
    (hK : ∀ p q, K (ix2 p q)
      = Cert.Spec.tail (fun p k => Cert.Spec.hid x (Cert.KernelIdeal.Hand.aggK (F := Ideal) x ei) W1 b1 p k)
          (fun k => Cert.Spec.meanK fun p => Cert.Spec.hid x (Cert.KernelIdeal.Hand.aggK (F := Ideal) x ei) W1 b1 p k)
          (fun k => Cert.Spec.varK fun p => Cert.Spec.hid x (Cert.KernelIdeal.Hand.aggK (F := Ideal) x ei) W1 b1 p k)
          gamma beta W2 b2 p q) :
    K = Cert.ReferenceIdeal.Hand.refOut (F := Ideal) x ei W1 b1 gamma beta W2 b2 := by
  obtain ⟨hr, hh⟩ := hid_cols_real x ei W1 b1 gamma beta W2 b2 hpre
  have key : ∀ (p : Fin 100000) (q : Fin 64),
      K (ix2 p q) = Cert.ReferenceIdeal.Hand.refOut (F := Ideal) x ei W1 b1 gamma beta W2 b2 (ix2 p q) := fun p q => by
    rw [hK, tail_stats _ hr hh, Cert.ReferenceIdeal.Hand.refOut_apply, agg_bridge]
  funext i
  have hi : i = ix2 (i 0 : Fin 100000) (i 1 : Fin 64) := eq_ix2 i
  exact (congrArg K hi).trans ((key _ _).trans
    (congrArg (Cert.ReferenceIdeal.Hand.refOut (F := Ideal) x ei W1 b1 gamma beta W2 b2) hi.symm))

end Cert.Bridge

end
-- ==== Proof.lean ====
/-
  Both programs compute one layer of a graph network on 100000 nodes with 64 features.  Every node adds up the
  feature rows of its in-neighbours (1200000 edges, given as source and destination indices), adds its own row, and
  passes the sum through a linear layer; each of the 64 columns of the resulting table `h` is then normalised over
  all nodes — subtract the column mean, multiply by the reciprocal square root of the column variance plus a small
  constant, scale and shift —, rectified, passed through a second linear layer and rectified again.

  The two programs differ only in how they obtain the column statistics.  The reference takes the mean
  μ = (Σ h) / N and the centred variance (Σ (h − μ)²) / N over all N = 100000 rows at once (its divisor is written
  as N minus the integer zero, which is N, under a guard N > 0 that holds).  The kernel walks the rows in ten blocks
  of 10000, in two halves of five; each half starts a running column sum and a running sum of squares from zero and
  adds one block's contribution per step; afterwards the halves are added, the mean is the total over N, and the
  variance is taken as max((Σ h²) / N − μ², 0).

  Under the stated precondition every input entry is a real number, so every entry of `h` — a finite sum of
  products of reals — is real too, and on reals the extended-real operations are the ordinary ones.  There
  addition is associative and commutative, so the ten block sums in two halves add up to the sum over all rows:
  the two means agree.  Expanding the square, (Σ (h − μ)²) / N = (Σ h²) / N − 2 μ (Σ h) / N + μ² = (Σ h²) / N − μ²
  because (Σ h) / N is μ; and the left side is a mean of squares, hence not negative, so the clamp at zero changes
  nothing: the two variances agree.  Everything after the statistics is the same expression of `h`, the mean and
  the variance in both programs, and the neighbour sums are the same operations on the same arrays, so the results
  agree entry by entry.  (Without finiteness the expansion fails: with an infinite entry one side meets ∞ − ∞.)

  The three frame claims say that each program terminates and leaves its eight argument arrays as they were; no
  operation of the word-level program was rewritten to obtain its exact-arithmetic reading, so that claim is trivial.
-/
import proofs.«120235_j55783035240590_2_alg».proof.Defs
import proofs.«120235_j55783035240590_2_alg».proof.Proof.Gen.Kernel
import proofs.«120235_j55783035240590_2_alg».proof.Proof.Gen.KernelIdeal
import proofs.«120235_j55783035240590_2_alg».proof.Proof.Gen.ReferenceIdeal
import proofs.«120235_j55783035240590_2_alg».proof.Proof.Gen.Pre_finite_inputs
import proofs.«120235_j55783035240590_2_alg».proof.Proof.KRun
import proofs.«120235_j55783035240590_2_alg».proof.Proof.KIRun
import proofs.«120235_j55783035240590_2_alg».proof.Proof.KIValue
import proofs.«120235_j55783035240590_2_alg».proof.Proof.RefRun
import proofs.«120235_j55783035240590_2_alg».proof.Proof.Bridge

noncomputable section

namespace Cert.Proof

open Idealize.ShloMosaic Idealize.ShloMosaic.TcCoe Idealize.SL.Sem Idealize.ShloMosaic.ValueIdx

/-! ## The claims -/

/-- The word-level kernel terminates and leaves its arguments as they were. -/
theorem frame_k : Cert.frame_Kernel := fun m g _ => Cert.Kernel.Hand.frame (F := Bits) m g

/-- So does its exact-arithmetic reading. -/
theorem frame_ki : Cert.frame_KernelIdeal := fun m g _ => Cert.KernelIdeal.Hand.frame (F := Ideal) m g

/-- So does the reference: its run, with the result forgotten. -/
theorem frame_ri : Cert.frame_ReferenceIdeal := fun m g _ =>
  (θ_run Cert.ReferenceIdeal.defs _ _).mono (fun _ h c => (h c).2) (Cert.ReferenceIdeal.Hand.run (F := Ideal) m g)

/-- No operation was rewritten between the kernel and its exact-arithmetic reading. -/
theorem preserves : Cert.preserves_Kernel_KernelIdeal := trivial

/-- From memories that agree on the eight arguments, the kernel's output array and the reference's result are
    the same table: the kernel's output reads, entry by entry, as the shared tail of the hidden layer with the
    blockwise mean and the clamped variance of its columns, and a table that reads so is the reference's result
    when every input entry is finite. -/
theorem algebraic : Cert.algebraic_KernelIdeal_ReferenceIdeal := by
  intro m g m' g' hpre hagree
  refine ⟨fun c => (Cert.KernelIdeal.Hand.dat1 (Cert.KernelIdeal.Hand.V3 m) c).arrAt 7 Cert.KernelIdeal.cfg1.N, Cert.KernelIdeal.Hand.run_result m g, ?_⟩
  refine (θ_run Cert.ReferenceIdeal.defs _ _).mono (fun _ h c => ⟨(h c).1.trans ?_, (h c).2⟩)
    (Cert.ReferenceIdeal.Hand.run (F := Ideal) m' g')
  rw [(hagree c).1, (hagree c).2.1, (hagree c).2.2.1, (hagree c).2.2.2.1, (hagree c).2.2.2.2.1, (hagree c).2.2.2.2.2.1, (hagree c).2.2.2.2.2.2.1, (hagree c).2.2.2.2.2.2.2]
  exact (Cert.Bridge.result_eq _ _ _ _ _ _ _ _ (hpre c)
    ((Cert.KernelIdeal.Hand.dat1 (F := Ideal) (Cert.KernelIdeal.Hand.V3 m) c).arrAt 7 Cert.KernelIdeal.cfg1.N) (Cert.KernelIdeal.Hand.result_apply m c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
